-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2x4000000 : Shape := ⟨2, ![2, 4000000]⟩
abbrev S_ : Shape := ⟨0, ![]⟩
abbrev S1x4000000 : Shape := ⟨2, ![1, 4000000]⟩
abbrev S4000000 : Shape := ⟨1, ![4000000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  slices_S2x4000000_S1x4000000_0_0 : S2x4000000.Slices ![0, 0] S1x4000000
  shapeCasts_S1x4000000_S4000000 : S1x4000000.ShapeCasts S4000000
  bcast_S_S4000000 : S_.BroadcastsInDim S4000000 (![] : Fin 0 → Fin S4000000.rank)
  reducesTo_S4000000_S_d0 : S4000000.ReducesTo [0] S_

variable [Facts]

def fn_part1 {F : FTy → Type} [FloatOps F] (main_v8 : IVec S_ 1) (main_v17 : IVec S4000000 1) : IVec S_ 1 :=
  let main_c_4 : IVec S_ 1 := constantI S_ 1 1#1
  let main_v18 : IVec S_ 1 := (fun x v => Host.reduce IntOp.andi x v reducesTo_S4000000_S_d0 h_S_) main_v17 main_c_4
  let main_v19 : IVec S_ 1 := andi main_v8 main_v18
  main_v19

def fn {F : FTy → Type} [FloatOps F] (main_arg0 : FVec F S100000x64 .f32) (main_arg1 : FVec F S50000x64 .f32) (main_arg2 : IVec S2x4000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : IVec S1x4000000 32 := (extractStridedSlice S1x4000000 ![0, 0] · slices_S2x4000000_S1x4000000_0_0) main_arg2
  let main_v10 : IVec S4000000 32 := shapeCast S4000000 main_v9 shapeCasts_S1x4000000_S4000000
  let main_c_2 : IVec S_ 32 := constantI S_ 32 0#32
  let main_v11 : IVec S4000000 32 := broadcastInDim S4000000 ![] bcast_S_S4000000 main_c_2
  let main_v12 : IVec S4000000 1 := cmpi .sge main_v10 main_v11
  let main_v13 : IVec S1x4000000 32 := (extractStridedSlice S1x4000000 ![0, 0] · slices_S2x4000000_S1x4000000_0_0) main_arg2
  let main_v14 : IVec S4000000 32 := shapeCast S4000000 main_v13 shapeCasts_S1x4000000_S4000000
  let main_c_3 : IVec S_ 32 := constantI S_ 32 150000#32
  let main_v15 : IVec S4000000 32 := broadcastInDim S4000000 ![] bcast_S_S4000000 main_c_3
  let main_v16 : IVec S4000000 1 := cmpi .slt main_v14 main_v15
  let main_v17 : IVec S4000000 1 := andi main_v12 main_v16
  fn_part1 (F := F) main_v8 main_v17
-- ==== Kernel.lean ====
abbrev S100000x64 : Shape := ⟨2, ![100000, 64]⟩
abbrev S50000x64 : Shape := ⟨2, ![50000, 64]⟩
abbrev S2x4000000 : Shape := ⟨2, ![2, 4000000]⟩
abbrev S1x4000000 : Shape := ⟨2, ![1, 4000000]⟩
abbrev S4000000 : Shape := ⟨1, ![4000000]⟩
abbrev S_ : Shape := ⟨0, ![]⟩
abbrev S150000 : Shape := ⟨1, ![150000]⟩
abbrev S4000000x1 : Shape := ⟨2, ![4000000, 1]⟩
abbrev S151552 : Shape := ⟨1, ![151552]⟩
abbrev S151552x1 : Shape := ⟨2, ![151552, 1]⟩
abbrev S151552x64 : Shape := ⟨2, ![151552, 64]⟩
abbrev S150000x64 : Shape := ⟨2, ![150000, 64]⟩
abbrev S2048x64 : Shape := ⟨2, ![2048, 64]⟩
abbrev S4000000x64 : Shape := ⟨2, ![4000000, 64]⟩

abbrev nBuf : Space → Nat
  | .hbm => 86
  | .vmem => 40
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2x4000000, .i32⟩
  | .hbm, ⟨3, _⟩ => ⟨S1x4000000, .i32⟩
  | .hbm, ⟨4, _⟩ => ⟨S4000000, .i32⟩
  | .hbm, ⟨5, _⟩ => ⟨S1x4000000, .i32⟩
  | .hbm, ⟨6, _⟩ => ⟨S4000000, .i32⟩
  | .hbm, ⟨7, _⟩ => ⟨S_, .f32⟩
  | .hbm, ⟨8, _⟩ => ⟨S4000000, .f32⟩
  | .hbm, ⟨9, _⟩ => ⟨S_, .f32⟩
  | .hbm, ⟨10, _⟩ => ⟨S150000, .f32⟩
  | .hbm, ⟨11, _⟩ => ⟨S4000000x1, .i32⟩
  | .hbm, ⟨12, _⟩ => ⟨S150000, .f32⟩
  | .hbm, ⟨13, _⟩ => ⟨S_, .f32⟩
  | .hbm, ⟨14, _⟩ => ⟨S150000, .f32⟩
  | .hbm, ⟨15, _⟩ => ⟨S150000, .i1⟩
  | .hbm, ⟨16, _⟩ => ⟨S_, .f32⟩
  | .hbm, ⟨17, _⟩ => ⟨S150000, .f32⟩
  | .hbm, ⟨18, _⟩ => ⟨S150000, .f32⟩
  | .hbm, ⟨19, _⟩ => ⟨S150000, .f32⟩
  | .hbm, ⟨20, _⟩ => ⟨S_, .f32⟩
  | .hbm, ⟨21, _⟩ => ⟨S_, .f32⟩
  | .hbm, ⟨22, _⟩ => ⟨S150000, .f32⟩
  | .hbm, ⟨23, _⟩ => ⟨S150000, .f32⟩
  | .hbm, ⟨24, _⟩ => ⟨S_, .i32⟩
  | .hbm, ⟨25, _⟩ => ⟨S_, .f32⟩
  | .hbm, ⟨26, _⟩ => ⟨S151552, .f32⟩
  | .hbm, ⟨27, _⟩ => ⟨S151552x1, .f32⟩
  | .hbm, ⟨28, _⟩ => ⟨S151552x64, .f32⟩
  | .hbm, ⟨29, _⟩ => ⟨S150000x64, .f32⟩
  | .hbm, ⟨30, _⟩ => ⟨S_, .i32⟩
  | .hbm, ⟨31, _⟩ => ⟨S_, .f32⟩
  | .hbm, ⟨32, _⟩ => ⟨S151552x64, .f32⟩
  | .hbm, ⟨33, _⟩ => ⟨S151552x64, .f32⟩
  | .hbm, ⟨34, _⟩ => ⟨S_, .i32⟩
  | .hbm, ⟨35, _⟩ => ⟨S4000000, .i32⟩
  | .hbm, ⟨36, _⟩ => ⟨S4000000, .i1⟩
  | .hbm, ⟨37, _⟩ => ⟨S_, .i32⟩
  | .hbm, ⟨38, _⟩ => ⟨S4000000, .i32⟩
  | .hbm, ⟨39, _⟩ => ⟨S4000000, .i32⟩
  | .hbm, ⟨40, _⟩ => ⟨S4000000, .i32⟩
  | .hbm, ⟨41, _⟩ => ⟨S4000000x1, .i32⟩
  | .hbm, ⟨42, _⟩ => ⟨S4000000x64, .f32⟩
  | .hbm, ⟨43, _⟩ => ⟨S_, .f32⟩
  | .hbm, ⟨44, _⟩ => ⟨S151552x64, .f32⟩
  | .hbm, ⟨45, _⟩ => ⟨S4000000x1, .i32⟩
  | .hbm, ⟨46, _⟩ => ⟨S151552x64, .f32⟩
  | .hbm, ⟨47, _⟩ => ⟨S151552x64, .f32⟩
  | .hbm, ⟨48, _⟩ => ⟨S151552x64, .f32⟩
  | .hbm, ⟨49, _⟩ => ⟨S151552x64, .f32⟩
  | .hbm, ⟨50, _⟩ => ⟨S_, .i32⟩
  | .hbm, ⟨51, _⟩ => ⟨S4000000, .i32⟩
  | .hbm, ⟨52, _⟩ => ⟨S4000000, .i1⟩
  | .hbm, ⟨53, _⟩ => ⟨S_, .i32⟩
  | .hbm, ⟨54, _⟩ => ⟨S4000000, .i32⟩
  | .hbm, ⟨55, _⟩ => ⟨S4000000, .i32⟩
  | .hbm, ⟨56, _⟩ => ⟨S4000000, .i32⟩
  | .hbm, ⟨57, _⟩ => ⟨S4000000x1, .i32⟩
  | .hbm, ⟨58, _⟩ => ⟨S4000000x64, .f32⟩
  | .hbm, ⟨59, _⟩ => ⟨S_, .f32⟩
  | .hbm, ⟨60, _⟩ => ⟨S151552x64, .f32⟩
  | .hbm, ⟨61, _⟩ => ⟨S4000000x1, .i32⟩
  | .hbm, ⟨62, _⟩ => ⟨S151552x64, .f32⟩
  | .hbm, ⟨63, _⟩ => ⟨S151552x64, .f32⟩
  | .hbm, ⟨64, _⟩ => ⟨S151552x64, .f32⟩
  | .hbm, ⟨65, _⟩ => ⟨S151552x64, .f32⟩
  | .hbm, ⟨66, _⟩ => ⟨S_, .i32⟩
  | .hbm, ⟨67, _⟩ => ⟨S4000000, .i32⟩
  | .hbm, ⟨68, _⟩ => ⟨S4000000, .i1⟩
  | .hbm, ⟨69, _⟩ => ⟨S_, .i32⟩
  | .hbm, ⟨70, _⟩ => ⟨S4000000, .i32⟩
  | .hbm, ⟨71, _⟩ => ⟨S4000000, .i32⟩
  | .hbm, ⟨72, _⟩ => ⟨S4000000, .i32⟩
  | .hbm, ⟨73, _⟩ => ⟨S4000000x1, .i32⟩
  | .hbm, ⟨74, _⟩ => ⟨S4000000x64, .f32⟩
  | .hbm, ⟨75, _⟩ => ⟨S_, .f32⟩
  | .hbm, ⟨76, _⟩ => ⟨S151552x64, .f32⟩
  | .hbm, ⟨77, _⟩ => ⟨S4000000x1, .i32⟩
  | .hbm, ⟨78, _⟩ => ⟨S151552x64, .f32⟩
  | .hbm, ⟨79, _⟩ => ⟨S151552x64, .f32⟩
  | .hbm, ⟨80, _⟩ => ⟨S151552x64, .f32⟩
  | .hbm, ⟨81, _⟩ => ⟨S_, .f32⟩
  | .hbm, ⟨82, _⟩ => ⟨S151552x64, .f32⟩
  | .hbm, ⟨83, _⟩ => ⟨S151552x64, .f32⟩
  | .hbm, ⟨84, _⟩ => ⟨S100000x64, .f32⟩
  | .hbm, ⟨85, _⟩ => ⟨S50000x64, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S2048x64, .f32⟩
  | .local _ .vmem, ⟨17, _⟩ => ⟨S2048x64, .f32⟩
  | .local _ .vmem, ⟨18, _⟩ => ⟨S2048x64, .f32⟩
  | .local _ .vmem, ⟨19, _⟩ => ⟨S2048x64, .f32⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | .local _ .vmem, ⟨25, _⟩ => ⟨S2048x64, .f32⟩
  | .local _ .vmem, ⟨26, _⟩ => ⟨S2048x64, .f32⟩
  | .local _ .vmem, ⟨27, _⟩ => ⟨S2048x64, .f32⟩
  | .local _ .vmem, ⟨28, _⟩ => ⟨S2048x64, .f32⟩
  | .local _ .vmem, ⟨29, _⟩ => ⟨S2048x64, .f32⟩
  | .local _ .vmem, ⟨30, _⟩ => ⟨S2048x64, .f32⟩
  | .local _ .vmem, ⟨31, _⟩ => ⟨S2048x64, .f32⟩
  | .local _ .vmem, ⟨32, _⟩ => ⟨S2048x64, .f32⟩
  | .local _ .vmem, ⟨33, _⟩ => ⟨S2048x64, .f32⟩
  | .local _ .vmem, ⟨34, _⟩ => ⟨S2048x64, .f32⟩
  | .local _ .vmem, ⟨35, _⟩ => ⟨S2048x64, .f32⟩
  | .local _ .vmem, ⟨36, _⟩ => ⟨S2048x64, .f32⟩
  | .local _ .vmem, ⟨37, _⟩ => ⟨S2048x64, .f32⟩
  | .local _ .vmem, ⟨38, _⟩ => ⟨S2048x64, .f32⟩
  | .local _ .vmem, ⟨39, _⟩ => ⟨S2048x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_c : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_call2_v0 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_v30_2 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_c_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41_0 : Ref sig .tc := ⟨.hbm, 63, rfl⟩
abbrev main_v41_1 : Ref sig .tc := ⟨.hbm, 64, rfl⟩
abbrev main_v41_2 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_13 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52_0 : Ref sig .tc := ⟨.hbm, 79, rfl⟩
abbrev main_v52_1 : Ref sig .tc := ⟨.hbm, 80, rfl⟩
abbrev main_cst_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39

abbrev nD : Nat := 1
abbrev τ : Topo := Topo.v7x

variable {F : FTy → Type} [FloatOps F]

abbrev grid0 : Pipeline.Grid := ⟨1, ![74], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![74], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![74], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2048x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![74], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2048x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2048x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S150000 : S_.BroadcastsInDim S150000 (![] : Fin 0 → Fin S150000.rank)
  bcast_S4000000_S4000000x1_0 : S4000000.BroadcastsInDim S4000000x1 (![0] : Fin 1 → Fin S4000000x1.rank)
  pads_S150000_S151552_015520 : S150000.Pads (![0] : Fin 1 → Nat) ![1552] ![0] S151552
  h_S_ : 0 < S_.numel
  bcast_S151552_S151552x1_0 : S151552.BroadcastsInDim S151552x1 (![0] : Fin 1 → Fin S151552x1.rank)
  bcast_S151552x1_S151552x64_0_1 : S151552x1.BroadcastsInDim S151552x64 (![0, 1] : Fin 2 → Fin S151552x64.rank)
  concatenates_S100000x64_S50000x64_S150000x64_d0 : Shape.Concatenates [S100000x64, S50000x64] S150000x64 0
  pads_S150000x64_S151552x64_015520_000 : S150000x64.Pads (![0, 0] : Fin 2 → Nat) ![1552, 0] ![0, 0] S151552x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bcast_S_S151552x64 : S_.BroadcastsInDim S151552x64 (![] : Fin 0 → Fin S151552x64.rank)
  slices_S151552x64_S100000x64_0_0 : S151552x64.Slices ![0, 0] S100000x64
  slices_S151552x64_S50000x64_100000_0 : S151552x64.Slices ![100000, 0] S50000x64
  scatter_S150000_S4000000x1_S4000000_n_0_0_1_wf : ScatterDims.WF S150000 S4000000x1 S4000000 [] [0] [0] 1
  gather_S151552x64_S4000000x1_S4000000x64_1_0_n_n_0_1_164_wf : GatherDims.WF S151552x64 S4000000x1 S4000000x64 [1] [0] [] [0] [] 1 ![1, 64]
  scatter_S151552x64_S4000000x1_S4000000x64_1_0_0_1_wf : ScatterDims.WF S151552x64 S4000000x1 S4000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S151552x64.size a
  hwx0_0 : ∀ i : grid0.Coords, EltTy.bits .f32 = 32 ∨ (Rect.block (s := S151552x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S151552x64.size a
  hwx0_1 : ∀ i : grid0.Coords, EltTy.bits .f32 = 32 ∨ (Rect.block (s := S151552x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S151552x64.size a
  hwx0_2 : ∀ i : grid0.Coords, EltTy.bits .f32 = 32 ∨ (Rect.block (s := S151552x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S151552x64.size a
  hwx1_0 : ∀ i : grid1.Coords, EltTy.bits .f32 = 32 ∨ (Rect.block (s := S151552x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S151552x64.size a
  hwx1_1 : ∀ i : grid1.Coords, EltTy.bits .f32 = 32 ∨ (Rect.block (s := S151552x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S151552x64.size a
  hwx1_2 : ∀ i : grid1.Coords, EltTy.bits .f32 = 32 ∨ (Rect.block (s := S151552x64) S2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S151552x64.size a
  hwx1_3 : ∀ i : grid1.Coords, EltTy.bits .f32 = 32 ∨ (Rect.block (s := S151552x64) S2048x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x64.size a ≤ S151552x64.size a
  hwx1_4 : ∀ i : grid1.Coords, EltTy.bits .f32 = 32 ∨ (Rect.block (s := S151552x64) S2048x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S151552x64.size a
  hwx1_5 : ∀ i : grid1.Coords, EltTy.bits .f32 = 32 ∨ (Rect.block (s := S151552x64) S2048x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S151552x64.size a
  hwx2_0 : ∀ i : grid2.Coords, EltTy.bits .f32 = 32 ∨ (Rect.block (s := S151552x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S151552x64.size a
  hwx2_1 : ∀ i : grid2.Coords, EltTy.bits .f32 = 32 ∨ (Rect.block (s := S151552x64) S2048x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S151552x64.size a
  hwx2_2 : ∀ i : grid2.Coords, EltTy.bits .f32 = 32 ∨ (Rect.block (s := S151552x64) S2048x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S151552x64.size a
  hwx2_3 : ∀ i : grid2.Coords, EltTy.bits .f32 = 32 ∨ (Rect.block (s := S151552x64) S2048x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x64.size a ≤ S151552x64.size a
  hwx2_4 : ∀ i : grid2.Coords, EltTy.bits .f32 = 32 ∨ (Rect.block (s := S151552x64) S2048x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x64.size a ≤ S151552x64.size a
  hwx2_5 : ∀ i : grid2.Coords, EltTy.bits .f32 = 32 ∨ (Rect.block (s := S151552x64) S2048x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S151552x64.size a
  hwx3_0 : ∀ i : grid3.Coords, EltTy.bits .f32 = 32 ∨ (Rect.block (s := S151552x64) S2048x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S151552x64.size a
  hwx3_1 : ∀ i : grid3.Coords, EltTy.bits .f32 = 32 ∨ (Rect.block (s := S151552x64) S2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S151552x64.size a
  hwx3_2 : ∀ i : grid3.Coords, EltTy.bits .f32 = 32 ∨ (Rect.block (s := S151552x64) S2048x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x64.size a ≤ S151552x64.size a
  hwx3_3 : ∀ i : grid3.Coords, EltTy.bits .f32 = 32 ∨ (Rect.block (s := S151552x64) S2048x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x64.size a ≤ S151552x64.size a
  hwx3_4 : ∀ i : grid3.Coords, EltTy.bits .f32 = 32 ∨ (Rect.block (s := S151552x64) S2048x64.size (cc3_transform_4 i) (hinb3_4 i)).WholeWords (EltTy.packing .f32)

variable [Facts₀]

def scatter_S150000_S4000000x1_S4000000_n_0_0_1 : ScatterDims S150000 S4000000x1 S4000000 where
  updateWindowDims := []
  insertedWindowDims := [0]
  scatterDimsToOperandDims := [0]
  indexVectorDim := 1
  wf := scatter_S150000_S4000000x1_S4000000_n_0_0_1_wf
def gather_S151552x64_S4000000x1_S4000000x64_1_0_n_n_0_1_164 : GatherDims S151552x64 S4000000x1 S4000000x64 where
  offsetDims := [1]
  collapsedSliceDims := [0]
  operandBatchingDims := []
  startIndicesBatchingDims := []
  startIndexMap := [0]
  indexVectorDim := 1
  sliceSizes := ![1, 64]
  wf := gather_S151552x64_S4000000x1_S4000000x64_1_0_n_n_0_1_164_wf
def scatter_S151552x64_S4000000x1_S4000000x64_1_0_0_1 : ScatterDims S151552x64 S4000000x1 S4000000x64 where
  updateWindowDims := [1]
  insertedWindowDims := [0]
  scatterDimsToOperandDims := [0]
  indexVectorDim := 1
  wf := scatter_S151552x64_S4000000x1_S4000000x64_1_0_0_1_wf

abbrev win0_0 : Pipeline.Window sig grid0 :=
  Pipeline.Window.ofSpec (Memref.whole main_v18) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30_0) S2048x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30_1) S2048x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v30_2) S2048x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30_1) S2048x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41_0) S2048x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41_1) S2048x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v41_2) S2048x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41_1) S2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v52_0) S2048x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v52_1) S2048x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S2x4000000 : Shape := ⟨2, ![2, 4000000]⟩
abbrev S1x4000000 : Shape := ⟨2, ![1, 4000000]⟩
abbrev S4000000 : Shape := ⟨1, ![4000000]⟩
abbrev S_ : Shape := ⟨0, ![]⟩
abbrev S150000 : Shape := ⟨1, ![150000]⟩
abbrev S4000000x1 : Shape := ⟨2, ![4000000, 1]⟩
abbrev S150000x64 : Shape := ⟨2, ![150000, 64]⟩
abbrev S4000000x64 : Shape := ⟨2, ![4000000, 64]⟩

abbrev nBuf : Space → Nat
  | .hbm => 98
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2x4000000, .i32⟩
  | .hbm, ⟨3, _⟩ => ⟨S1x4000000, .i32⟩
  | .hbm, ⟨4, _⟩ => ⟨S4000000, .i32⟩
  | .hbm, ⟨5, _⟩ => ⟨S1x4000000, .i32⟩
  | .hbm, ⟨6, _⟩ => ⟨S4000000, .i32⟩
  | .hbm, ⟨7, _⟩ => ⟨S_, .f32⟩
  | .hbm, ⟨8, _⟩ => ⟨S4000000, .f32⟩
  | .hbm, ⟨9, _⟩ => ⟨S_, .f32⟩
  | .hbm, ⟨10, _⟩ => ⟨S150000, .f32⟩
  | .hbm, ⟨11, _⟩ => ⟨S4000000x1, .i32⟩
  | .hbm, ⟨12, _⟩ => ⟨S150000, .f32⟩
  | .hbm, ⟨13, _⟩ => ⟨S_, .f32⟩
  | .hbm, ⟨14, _⟩ => ⟨S150000, .f32⟩
  | .hbm, ⟨15, _⟩ => ⟨S150000, .i1⟩
  | .hbm, ⟨16, _⟩ => ⟨S_, .f32⟩
  | .hbm, ⟨17, _⟩ => ⟨S150000, .f32⟩
  | .hbm, ⟨18, _⟩ => ⟨S150000, .f32⟩
  | .hbm, ⟨19, _⟩ => ⟨S150000, .f32⟩
  | .hbm, ⟨20, _⟩ => ⟨S_, .f32⟩
  | .hbm, ⟨21, _⟩ => ⟨S_, .f32⟩
  | .hbm, ⟨22, _⟩ => ⟨S150000, .f32⟩
  | .hbm, ⟨23, _⟩ => ⟨S150000, .f32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S4000000, .f32⟩
  | .hbm, ⟨33, _⟩ => ⟨S_, .i32⟩
  | .hbm, ⟨34, _⟩ => ⟨S4000000, .i32⟩
  | .hbm, ⟨35, _⟩ => ⟨S4000000, .i1⟩
  | .hbm, ⟨36, _⟩ => ⟨S_, .i32⟩
  | .hbm, ⟨37, _⟩ => ⟨S4000000, .i32⟩
  | .hbm, ⟨38, _⟩ => ⟨S4000000, .i32⟩
  | .hbm, ⟨39, _⟩ => ⟨S4000000, .i32⟩
  | .hbm, ⟨40, _⟩ => ⟨S4000000x1, .i32⟩
  | .hbm, ⟨41, _⟩ => ⟨S4000000, .f32⟩
  | .hbm, ⟨42, _⟩ => ⟨S4000000, .f32⟩
  | .hbm, ⟨43, _⟩ => ⟨S4000000x1, .f32⟩
  | .hbm, ⟨44, _⟩ => ⟨S150000x64, .f32⟩
  | .hbm, ⟨45, _⟩ => ⟨S_, .i32⟩
  | .hbm, ⟨46, _⟩ => ⟨S4000000, .i32⟩
  | .hbm, ⟨47, _⟩ => ⟨S4000000, .i1⟩
  | .hbm, ⟨48, _⟩ => ⟨S_, .i32⟩
  | .hbm, ⟨49, _⟩ => ⟨S4000000, .i32⟩
  | .hbm, ⟨50, _⟩ => ⟨S4000000, .i32⟩
  | .hbm, ⟨51, _⟩ => ⟨S4000000, .i32⟩
  | .hbm, ⟨52, _⟩ => ⟨S4000000x1, .i32⟩
  | .hbm, ⟨53, _⟩ => ⟨S4000000x64, .f32⟩
  | .hbm, ⟨54, _⟩ => ⟨S4000000x64, .f32⟩
  | .hbm, ⟨55, _⟩ => ⟨S4000000x64, .f32⟩
  | .hbm, ⟨56, _⟩ => ⟨S_, .f32⟩
  | .hbm, ⟨57, _⟩ => ⟨S150000x64, .f32⟩
  | .hbm, ⟨58, _⟩ => ⟨S4000000x1, .i32⟩
  | .hbm, ⟨59, _⟩ => ⟨S150000x64, .f32⟩
  | .hbm, ⟨60, _⟩ => ⟨S150000x64, .f32⟩
  | .hbm, ⟨61, _⟩ => ⟨S_, .i32⟩
  | .hbm, ⟨62, _⟩ => ⟨S4000000, .i32⟩
  | .hbm, ⟨63, _⟩ => ⟨S4000000, .i1⟩
  | .hbm, ⟨64, _⟩ => ⟨S_, .i32⟩
  | .hbm, ⟨65, _⟩ => ⟨S4000000, .i32⟩
  | .hbm, ⟨66, _⟩ => ⟨S4000000, .i32⟩
  | .hbm, ⟨67, _⟩ => ⟨S4000000, .i32⟩
  | .hbm, ⟨68, _⟩ => ⟨S4000000x1, .i32⟩
  | .hbm, ⟨69, _⟩ => ⟨S4000000x64, .f32⟩
  | .hbm, ⟨70, _⟩ => ⟨S4000000x64, .f32⟩
  | .hbm, ⟨71, _⟩ => ⟨S4000000x64, .f32⟩
  | .hbm, ⟨72, _⟩ => ⟨S_, .f32⟩
  | .hbm, ⟨73, _⟩ => ⟨S150000x64, .f32⟩
  | .hbm, ⟨74, _⟩ => ⟨S4000000x1, .i32⟩
  | .hbm, ⟨75, _⟩ => ⟨S150000x64, .f32⟩
  | .hbm, ⟨76, _⟩ => ⟨S150000x64, .f32⟩
  | .hbm, ⟨77, _⟩ => ⟨S_, .i32⟩
  | .hbm, ⟨78, _⟩ => ⟨S4000000, .i32⟩
  | .hbm, ⟨79, _⟩ => ⟨S4000000, .i1⟩
  | .hbm, ⟨80, _⟩ => ⟨S_, .i32⟩
  | .hbm, ⟨81, _⟩ => ⟨S4000000, .i32⟩
  | .hbm, ⟨82, _⟩ => ⟨S4000000, .i32⟩
  | .hbm, ⟨83, _⟩ => ⟨S4000000, .i32⟩
  | .hbm, ⟨84, _⟩ => ⟨S4000000x1, .i32⟩
  | .hbm, ⟨85, _⟩ => ⟨S4000000x64, .f32⟩
  | .hbm, ⟨86, _⟩ => ⟨S4000000x64, .f32⟩
  | .hbm, ⟨87, _⟩ => ⟨S4000000x64, .f32⟩
  | .hbm, ⟨88, _⟩ => ⟨S_, .f32⟩
  | .hbm, ⟨89, _⟩ => ⟨S150000x64, .f32⟩
  | .hbm, ⟨90, _⟩ => ⟨S4000000x1, .i32⟩
  | .hbm, ⟨91, _⟩ => ⟨S150000x64, .f32⟩
  | .hbm, ⟨92, _⟩ => ⟨S150000x64, .f32⟩
  | .hbm, ⟨93, _⟩ => ⟨S_, .f32⟩
  | .hbm, ⟨94, _⟩ => ⟨S150000x64, .f32⟩
  | .hbm, ⟨95, _⟩ => ⟨S150000x64, .f32⟩
  | .hbm, ⟨96, _⟩ => ⟨S100000x64, .f32⟩
  | .hbm, ⟨97, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_10 : Ref sig .tc := ⟨.hbm, 61, rfl⟩
abbrev main_v44 : Ref sig .tc := ⟨.hbm, 62, rfl⟩
abbrev main_v45 : Ref sig .tc := ⟨.hbm, 63, rfl⟩
abbrev main_c_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_13 : Ref sig .tc := ⟨.hbm, 77, rfl⟩
abbrev main_v57 : Ref sig .tc := ⟨.hbm, 78, rfl⟩
abbrev main_v58 : Ref sig .tc := ⟨.hbm, 79, rfl⟩
abbrev main_c_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_16 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S150000 : S_.BroadcastsInDim S150000 (![] : Fin 0 → Fin S150000.rank)
  bcast_S4000000_S4000000x1_0 : S4000000.BroadcastsInDim S4000000x1 (![0] : Fin 1 → Fin S4000000x1.rank)
  concatenates_S100000x64_S50000x64_S150000x64_d0 : Shape.Concatenates [S100000x64, S50000x64] S150000x64 0
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  scatter_S150000_S4000000x1_S4000000_n_0_0_1_wf : ScatterDims.WF S150000 S4000000x1 S4000000 [] [0] [0] 1
  gather_S150000_S4000000x1_S4000000_n_0_n_n_0_1_1_wf : GatherDims.WF S150000 S4000000x1 S4000000 [] [0] [] [0] [] 1 ![1]
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1

variable [Facts₀]

def scatter_S150000_S4000000x1_S4000000_n_0_0_1 : ScatterDims S150000 S4000000x1 S4000000 where
  updateWindowDims := []
  insertedWindowDims := [0]
  scatterDimsToOperandDims := [0]
  indexVectorDim := 1
  wf := scatter_S150000_S4000000x1_S4000000_n_0_0_1_wf
def gather_S150000_S4000000x1_S4000000_n_0_n_n_0_1_1 : GatherDims S150000 S4000000x1 S4000000 where
  offsetDims := []
  collapsedSliceDims := [0]
  operandBatchingDims := []
  startIndicesBatchingDims := []
  startIndexMap := [0]
  indexVectorDim := 1
  sliceSizes := ![1]
  wf := gather_S150000_S4000000x1_S4000000_n_0_n_n_0_1_1_wf
def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

class Facts : Prop extends Facts₀ where

variable [Facts]
-- ==== Proof.KernelRun.lean ====
/-
  The idealized kernel's run with its two results named.

  @main is four tiled regions among stretches of host operations. Run from any memory with zero counters, every weakly
  fair execution terminates without a fault; the buffers then hold the contents obtained by folding the host
  stretches and the regions' write-backs, in program order, over the launch memory (the last boundary's contents,
  `Gen.W14`). This module states that run with the two result buffers at those contents and the three arguments as
  launched: the launch of the segments, and the last thread state read against the final state.
-/
import proofs.«109714_j30313879175390_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- THE RUN: every weakly fair execution of @main terminates, nothing faulting, with each result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v55) = W14 m ρ c (Proc.devRef .tc main_v55)
      ∧ r.2.mem ((c.tc : Thread nD τ).loc main_v56) = W14 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v55 (by decide)),
       h c _ (mem_uc main_v56 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c)⟩)

end Cert.KernelIdeal.KRun

end
-- ==== Proof.PreRow.lean ====
/-
  What the precondition says about the edge array: every source word is a node.

  The precondition is one bit: the conjunction of "every entry of the two feature arrays is finite" with "every word
  of row 0 of the edge array is at least 0 and below 150000", each an and-reduction of a comparison. The bit is 1
  exactly when every comparison is 1; read signed, a source word w then satisfies 0 ≤ w < 150000.
-/
import proofs.«109714_j30313879175390_1_alg».proof.Pre_finite_inputs
import proofs.«109714_j30313879175390_1_alg».proof.Proof.Gen.Pre_finite_inputs
import Idealize.ShloMosaic.Lib.ReduceAll
import Idealize.ShloMosaic.Lib.Affine
import Idealize.ShloMosaic.Lib.ValueIdx
import Idealize.ShloMosaic.Lib.Pipeline.Value

noncomputable section

namespace Cert.Pre_finite_inputs.Decode

open Cert.Pre_finite_inputs Cert.Pre_finite_inputs.Facts Idealize.ShloMosaic Idealize.ShloMosaic.ValueIdx

/-- The scalar shape has one index. -/
instance : Subsingleton S_.Idx := ⟨fun a b => funext fun d => d.elim0⟩

/-- The source words: row 0 of the edge array, as the precondition cuts it out. -/
def rowW (A2 : IVec S2x4000000 32) : IVec S4000000 32 :=
  shapeCast S4000000 (extractStridedSlice S1x4000000 ![0, 0] A2 slices_S2x4000000_S1x4000000_0_0) shapeCasts_S1x4000000_S4000000

/-- A word splat over the edges reads the word. -/
theorem splat_word (k : BitVec 32) (i : S4000000.Idx) :
    broadcastInDim S4000000 ![] bcast_S_S4000000 (constantI S_ 32 k) i = k :=
  (broadcastInDim_apply _ bcast_S_S4000000 (constantI S_ 32 k) i (fun a => a.elim0) (fun a => a.elim0)).trans rfl

/-- UNDER THE PRECONDITION every source word, read signed, is in `[0, 150000)`. -/
theorem row_in_range {F : FTy → Type} [FloatOps F] (A0 : FVec F S100000x64 .f32) (A1 : FVec F S50000x64 .f32)
    (A2 : IVec S2x4000000 32) (h : fn (F := F) A0 A1 A2 = fun _ => 1#1) (i : S4000000.Idx) :
    0 ≤ (rowW A2 i).toInt ∧ (rowW A2 i).toInt < 150000 := by
  have h0 := congrFun h ix0
  dsimp only [fn, fn_part1] at h0
  obtain ⟨-, h18⟩ := IntOp.andi_eq_one.1 h0
  have h17 := Host.reduce_andi_all _ _ _ _ _ h18 i
  obtain ⟨hge, hlt⟩ := IntOp.andi_eq_one.1 h17
  have hge' := IntOp.cmpi_sge.1 hge
  have hlt' := IntOp.cmpi_slt.1 hlt
  rw [splat_word] at hge' hlt'
  exact ⟨hge', hlt'⟩

end Cert.Pre_finite_inputs.Decode

end
-- ==== Proof.TileDefs.lean ====
/-
  The entrywise functions the four tiled regions compute.

  Every region walks the 151552 rows of its [151552, 64] arrays in 74 blocks of 2048 rows, every window on the same
  block at a point, and stores entrywise functions of the blocks it loaded: the scaling region the product x · d; an
  update region d · s (unused later), acc + d · s and d · (d · s). Since all windows move together, each output array
  after the region is that entrywise function of the whole input arrays.
-/
import proofs.«109714_j30313879175390_1_alg».proof.Proof.Gen.KernelIdeal.Frame
import Idealize.ShloMosaic.Lib.Pipeline.Value

set_option maxRecDepth 16384

noncomputable section

namespace Cert.KernelIdeal.Tiles

open Cert.KernelIdeal Cert.KernelIdeal.Gen
open Idealize.ShloMosaic Idealize.ShloMosaic.TcCoe Idealize.SL.Sem
open Idealize.ShloMosaic.Pipeline (Dat Cfg Window)

variable {F : FTy → Type} [FloatOps F]

/-- The array type of every window of the four regions. -/
abbrev Arr (F : FTy → Type) := S151552x64.Idx → Elt F .f32

/-- A block's offset inside its staging buffer is zero on both axes. -/
theorem hz : (![0, 0] : Fin 2 → Nat) = fun _ => 0 := funext fun a => by fin_cases a <;> rfl

/-- The entrywise product `a · b`. -/
abbrev prod (a b : Arr F) : Arr F := fun i => FloatOps.mulf (a i) (b i)
/-- The entrywise `acc + d · s`. -/
abbrev accum (s d acc : Arr F) : Arr F := fun i => FloatOps.addf (acc i) (FloatOps.mulf (d i) (s i))
/-- The entrywise `d · (d · s)`. -/
abbrev rescaled (s d : Arr F) : Arr F := fun i => FloatOps.mulf (d i) (FloatOps.mulf (d i) (s i))

end Cert.KernelIdeal.Tiles

end
-- ==== Proof.TileScale.lean ====
/-
  The scaling region (the first of the four) as a function of whole arrays.

  Its two inputs are the padded features x and the scale d spread over the features; its output is x · d, block by
  block over 74 row blocks. Every window is on the same block at a point, so the output array after the region is the
  entrywise product of the input arrays as the region finds them.
-/
import proofs.«109714_j30313879175390_1_alg».proof.Proof.Gen.KernelIdeal.Frame
import proofs.«109714_j30313879175390_1_alg».proof.Proof.TileDefs
import Idealize.ShloMosaic.Lib.Pipeline.Value

set_option maxRecDepth 16384

noncomputable section

namespace Cert.KernelIdeal.Tiles

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The printed index maps, decided over the grid of 74 points: at a point every window of this region is on the same
    block as output window 2. -/
theorem same_block0 : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every one of the 74 row blocks is some point's block of window 2. -/
theorem onto0_2 : ∀ q : Fin 74, ∃ t : Fin cfg0.N, win0_2.index t = ![q.val, 0] :=
  (by decide +kernel : ∀ q : Fin 74, ∃ t : Fin grid0.N, win0_2.index t = ![q.val, 0])

/-- WHAT POINT `t` WRITES BACK through window 2 is block `t` of the entrywise product of the two input arrays. -/
theorem flushed0_2 (c : Dev nD) (t : Fin cfg0.N) :
    (dat0 V c).flushed 2 t = ((cfg0.win 2).blk t).view.read (Elt F) (prod (V c main_v18) (V c main_v16)) := by
  show (cfg0.win 2).cut (grid0.coords t) ((dat0 V c).after 2 t) = _
  rw [after0_2]
  unfold out0_2
  rw [View.canon_unit_zero hz]
  simp only [View.ld_unit_zero (S := S2048x64) hz]
  unfold k0_pay1
  simp only [shapeCast_self]
  obtain ⟨e0, e1, e2, e3⟩ := same_block0 t
  funext j
  have h0 : ((cfg0.win 0).blk t).view.emb j = ((cfg0.win 2).blk t).view.emb j := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb j = ((cfg0.win 2).blk t).view.emb j := by
    funext a; apply Fin.ext
    match a with
    | ⟨0, _⟩ => show win0_1.index t (0 : Fin 2) * 2048 + 1 * (j 0).val = win0_2.index t (0 : Fin 2) * 2048 + 1 * (j 0).val; omega
    | ⟨1, _⟩ => show win0_1.index t (1 : Fin 2) * 64 + 1 * (j 1).val = win0_2.index t (1 : Fin 2) * 64 + 1 * (j 1).val; omega
  show FloatOps.mulf (V c main_v18 (((cfg0.win 0).blk t).view.emb j)) (V c main_v16 (((cfg0.win 1).blk t).view.emb j)) = _
  rw [h0, h1]
  rfl

/-- An index of the array is in point `t`'s block of window 2 iff each coordinate is in the block's range. -/
theorem mem_blk0_2 (t : Fin cfg0.N) (i : S151552x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v19).slice (win0_2.rect t)).set ↔ _
  rw [View.set_slice_whole, Rect.mem_set_unit]
  exact Iff.rfl

/-- The 74 blocks of 2048 rows tile the 151552 rows: row `r` is in block `r / 2048`. -/
theorem covered0_2 (i : S151552x64.Idx) :
    ∃ t : Fin cfg0.N, (cfg0.win 2).flush t = true ∧ i ∈ ((cfg0.win 2).blk t).view.set := by
  have hi0 : (i 0).val < 151552 := (i 0).isLt
  have hi1 : (i 1).val < 64 := (i 1).isLt
  obtain ⟨t, ht⟩ := onto0_2 ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 64 ≤ (i 1).val ∧ (i 1).val < win0_2.index t (1 : Fin 2) * 64 + 64; omega

/-- THE ARRAY of window 2 after the region: the entrywise product of the two input arrays, entry by entry. -/
theorem array0_2 (c : Dev nD) :
    (dat0 V c).arrAt 2 cfg0.N = prod (V c main_v18) (V c main_v16) :=
  (dat0 V c).arrAt_eq_of_cover 2 _ (fun t _ => flushed0_2 V c t) (covered0_2)

end Cert.KernelIdeal.Tiles

end
-- ==== Proof.TileUpdate1.lean ====
/-
  The first update region as a function of whole arrays.

  Its inputs are the neighbour sum s, the scale d spread over the features and the running sum acc; of its three
  outputs the two read afterwards are acc + d · s and d · (d · s), block by block over 74 row blocks. Every window is
  on the same block at a point, so each of those output arrays after the region is that entrywise function of the
  input arrays as the region finds them.
-/
import proofs.«109714_j30313879175390_1_alg».proof.Proof.Gen.KernelIdeal.Frame
import proofs.«109714_j30313879175390_1_alg».proof.Proof.TileDefs
import Idealize.ShloMosaic.Lib.Pipeline.Value

set_option maxRecDepth 16384

noncomputable section

namespace Cert.KernelIdeal.Tiles

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The printed index maps, decided over the grid of 74 points: at a point every window of this region is on the same
    block as output window 4. -/
theorem same_block1 : ∀ t : Fin cfg1.N,
    win1_0.index t (0 : Fin 2) = win1_4.index t (0 : Fin 2)
    ∧ win1_0.index t (1 : Fin 2) = win1_4.index t (1 : Fin 2)
    ∧ win1_1.index t (0 : Fin 2) = win1_4.index t (0 : Fin 2)
    ∧ win1_1.index t (1 : Fin 2) = win1_4.index t (1 : Fin 2)
    ∧ win1_2.index t (0 : Fin 2) = win1_4.index t (0 : Fin 2)
    ∧ win1_2.index t (1 : Fin 2) = win1_4.index t (1 : Fin 2)
    ∧ win1_5.index t (0 : Fin 2) = win1_4.index t (0 : Fin 2)
    ∧ win1_5.index t (1 : Fin 2) = win1_4.index t (1 : Fin 2) :=
  (by decide +kernel : ∀ t : Fin grid1.N, _)

/-- Every one of the 74 row blocks is some point's block of window 4. -/
theorem onto1_4 : ∀ q : Fin 74, ∃ t : Fin cfg1.N, win1_4.index t = ![q.val, 0] :=
  (by decide +kernel : ∀ q : Fin 74, ∃ t : Fin grid1.N, win1_4.index t = ![q.val, 0])

/-- Every one of the 74 row blocks is some point's block of window 5. -/
theorem onto1_5 : ∀ q : Fin 74, ∃ t : Fin cfg1.N, win1_5.index t = ![q.val, 0] :=
  (by decide +kernel : ∀ q : Fin 74, ∃ t : Fin grid1.N, win1_5.index t = ![q.val, 0])

/-- WHAT POINT `t` WRITES BACK through window 4 is block `t` of the running sum plus the scaled neighbour sum, acc + d · s, of the three input arrays. -/
theorem flushed1_4 (c : Dev nD) (t : Fin cfg1.N) :
    (dat1 V c).flushed 4 t = ((cfg1.win 4).blk t).view.read (Elt F) (accum (V c main_v29) (V c main_v16) (V c main_v18)) := by
  show (cfg1.win 4).cut (grid1.coords t) ((dat1 V c).after 4 t) = _
  rw [after1_4]
  unfold out1_4
  rw [View.canon_unit_zero hz]
  simp only [View.ld_unit_zero (S := S2048x64) hz]
  unfold k1_pay3 k1_pay2 k1_pay1
  simp only [shapeCast_self]
  obtain ⟨e0, e1, e2, e3, e4, e5, e6, e7⟩ := same_block1 t
  funext j
  have h0 : ((cfg1.win 0).blk t).view.emb j = ((cfg1.win 4).blk t).view.emb j := by
    funext a; apply Fin.ext
    match a with
    | ⟨0, _⟩ => show win1_0.index t (0 : Fin 2) * 2048 + 1 * (j 0).val = win1_4.index t (0 : Fin 2) * 2048 + 1 * (j 0).val; omega
    | ⟨1, _⟩ => show win1_0.index t (1 : Fin 2) * 64 + 1 * (j 1).val = win1_4.index t (1 : Fin 2) * 64 + 1 * (j 1).val; omega
  have h1 : ((cfg1.win 1).blk t).view.emb j = ((cfg1.win 4).blk t).view.emb j := by
    funext a; apply Fin.ext
    match a with
    | ⟨0, _⟩ => show win1_1.index t (0 : Fin 2) * 2048 + 1 * (j 0).val = win1_4.index t (0 : Fin 2) * 2048 + 1 * (j 0).val; omega
    | ⟨1, _⟩ => show win1_1.index t (1 : Fin 2) * 64 + 1 * (j 1).val = win1_4.index t (1 : Fin 2) * 64 + 1 * (j 1).val; omega
  have h2 : ((cfg1.win 2).blk t).view.emb j = ((cfg1.win 4).blk t).view.emb j := by
    funext a; apply Fin.ext
    match a with
    | ⟨0, _⟩ => show win1_2.index t (0 : Fin 2) * 2048 + 1 * (j 0).val = win1_4.index t (0 : Fin 2) * 2048 + 1 * (j 0).val; omega
    | ⟨1, _⟩ => show win1_2.index t (1 : Fin 2) * 64 + 1 * (j 1).val = win1_4.index t (1 : Fin 2) * 64 + 1 * (j 1).val; omega
  show FloatOps.addf (V c main_v18 (((cfg1.win 2).blk t).view.emb j)) (FloatOps.mulf (V c main_v16 (((cfg1.win 1).blk t).view.emb j)) (V c main_v29 (((cfg1.win 0).blk t).view.emb j))) = _
  rw [h0, h1, h2]
  rfl

/-- An index of the array is in point `t`'s block of window 4 iff each coordinate is in the block's range. -/
theorem mem_blk1_4 (t : Fin cfg1.N) (i : S151552x64.Idx) :
    i ∈ ((cfg1.win 4).blk t).view.set ↔ ∀ a : Fin 2, win1_4.index t a * S2048x64.size a ≤ (i a).val ∧ (i a).val < win1_4.index t a * S2048x64.size a + S2048x64.size a := by
  show i ∈ ((View.whole main_v30_1).slice (win1_4.rect t)).set ↔ _
  rw [View.set_slice_whole, Rect.mem_set_unit]
  exact Iff.rfl

/-- The 74 blocks of 2048 rows tile the 151552 rows: row `r` is in block `r / 2048`. -/
theorem covered1_4 (i : S151552x64.Idx) :
    ∃ t : Fin cfg1.N, (cfg1.win 4).flush t = true ∧ i ∈ ((cfg1.win 4).blk t).view.set := by
  have hi0 : (i 0).val < 151552 := (i 0).isLt
  have hi1 : (i 1).val < 64 := (i 1).isLt
  obtain ⟨t, ht⟩ := onto1_4 ⟨(i 0).val / 2048, by omega⟩
  have q0 : win1_4.index t (0 : Fin 2) = (i 0).val / 2048 := congrFun ht 0
  have q1 : win1_4.index t (1 : Fin 2) = 0 := congrFun ht 1
  refine ⟨t, flush1_4 t, ?_⟩
  rw [mem_blk1_4]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 64 ≤ (i 1).val ∧ (i 1).val < win1_4.index t (1 : Fin 2) * 64 + 64; omega

/-- THE ARRAY of window 4 after the region: the running sum plus the scaled neighbour sum, acc + d · s, of the three input arrays, entry by entry. -/
theorem array1_4 (c : Dev nD) :
    (dat1 V c).arrAt 4 cfg1.N = accum (V c main_v29) (V c main_v16) (V c main_v18) :=
  (dat1 V c).arrAt_eq_of_cover 4 _ (fun t _ => flushed1_4 V c t) (covered1_4)

/-- WHAT POINT `t` WRITES BACK through window 5 is block `t` of the twice-scaled neighbour sum d · (d · s) of the input arrays. -/
theorem flushed1_5 (c : Dev nD) (t : Fin cfg1.N) :
    (dat1 V c).flushed 5 t = ((cfg1.win 5).blk t).view.read (Elt F) (rescaled (V c main_v29) (V c main_v16)) := by
  show (cfg1.win 5).cut (grid1.coords t) ((dat1 V c).after 5 t) = _
  rw [after1_5]
  unfold out1_5
  rw [View.canon_unit_zero hz]
  simp only [View.ld_unit_zero (S := S2048x64) hz]
  unfold k1_pay4 k1_pay2 k1_pay1
  simp only [shapeCast_self]
  obtain ⟨e0, e1, e2, e3, e4, e5, e6, e7⟩ := same_block1 t
  funext j
  have h0 : ((cfg1.win 0).blk t).view.emb j = ((cfg1.win 5).blk t).view.emb j := by
    funext a; apply Fin.ext
    match a with
    | ⟨0, _⟩ => show win1_0.index t (0 : Fin 2) * 2048 + 1 * (j 0).val = win1_5.index t (0 : Fin 2) * 2048 + 1 * (j 0).val; omega
    | ⟨1, _⟩ => show win1_0.index t (1 : Fin 2) * 64 + 1 * (j 1).val = win1_5.index t (1 : Fin 2) * 64 + 1 * (j 1).val; omega
  have h1 : ((cfg1.win 1).blk t).view.emb j = ((cfg1.win 5).blk t).view.emb j := by
    funext a; apply Fin.ext
    match a with
    | ⟨0, _⟩ => show win1_1.index t (0 : Fin 2) * 2048 + 1 * (j 0).val = win1_5.index t (0 : Fin 2) * 2048 + 1 * (j 0).val; omega
    | ⟨1, _⟩ => show win1_1.index t (1 : Fin 2) * 64 + 1 * (j 1).val = win1_5.index t (1 : Fin 2) * 64 + 1 * (j 1).val; omega
  show FloatOps.mulf (V c main_v16 (((cfg1.win 1).blk t).view.emb j)) (FloatOps.mulf (V c main_v16 (((cfg1.win 1).blk t).view.emb j)) (V c main_v29 (((cfg1.win 0).blk t).view.emb j))) = _
  rw [h0, h1]
  rfl

/-- An index of the array is in point `t`'s block of window 5 iff each coordinate is in the block's range. -/
theorem mem_blk1_5 (t : Fin cfg1.N) (i : S151552x64.Idx) :
    i ∈ ((cfg1.win 5).blk t).view.set ↔ ∀ a : Fin 2, win1_5.index t a * S2048x64.size a ≤ (i a).val ∧ (i a).val < win1_5.index t a * S2048x64.size a + S2048x64.size a := by
  show i ∈ ((View.whole main_v30_2).slice (win1_5.rect t)).set ↔ _
  rw [View.set_slice_whole, Rect.mem_set_unit]
  exact Iff.rfl

/-- The 74 blocks of 2048 rows tile the 151552 rows: row `r` is in block `r / 2048`. -/
theorem covered1_5 (i : S151552x64.Idx) :
    ∃ t : Fin cfg1.N, (cfg1.win 5).flush t = true ∧ i ∈ ((cfg1.win 5).blk t).view.set := by
  have hi0 : (i 0).val < 151552 := (i 0).isLt
  have hi1 : (i 1).val < 64 := (i 1).isLt
  obtain ⟨t, ht⟩ := onto1_5 ⟨(i 0).val / 2048, by omega⟩
  have q0 : win1_5.index t (0 : Fin 2) = (i 0).val / 2048 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 2048 ≤ (i 0).val ∧ (i 0).val < win1_5.index t (0 : Fin 2) * 2048 + 2048; omega
  | ⟨1, _⟩ => show win1_5.index t (1 : Fin 2) * 64 ≤ (i 1).val ∧ (i 1).val < win1_5.index t (1 : Fin 2) * 64 + 64; omega

/-- THE ARRAY of window 5 after the region: the twice-scaled neighbour sum d · (d · s) of the input arrays, entry by entry. -/
theorem array1_5 (c : Dev nD) :
    (dat1 V c).arrAt 5 cfg1.N = rescaled (V c main_v29) (V c main_v16) :=
  (dat1 V c).arrAt_eq_of_cover 5 _ (fun t _ => flushed1_5 V c t) (covered1_5)

end Cert.KernelIdeal.Tiles

end
-- ==== Proof.TileUpdate2.lean ====
/-
  The second update region as a function of whole arrays.

  Its inputs are the neighbour sum s, the scale d spread over the features and the running sum acc; of its three
  outputs the two read afterwards are acc + d · s and d · (d · s), block by block over 74 row blocks. Every window is
  on the same block at a point, so each of those output arrays after the region is that entrywise function of the
  input arrays as the region finds them.
-/
import proofs.«109714_j30313879175390_1_alg».proof.Proof.Gen.KernelIdeal.Frame
import proofs.«109714_j30313879175390_1_alg».proof.Proof.TileDefs
import Idealize.ShloMosaic.Lib.Pipeline.Value

set_option maxRecDepth 16384

noncomputable section

namespace Cert.KernelIdeal.Tiles

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The printed index maps, decided over the grid of 74 points: at a point every window of this region is on the same
    block as output window 4. -/
theorem same_block2 : ∀ t : Fin cfg2.N,
    win2_0.index t (0 : Fin 2) = win2_4.index t (0 : Fin 2)
    ∧ win2_0.index t (1 : Fin 2) = win2_4.index t (1 : Fin 2)
    ∧ win2_1.index t (0 : Fin 2) = win2_4.index t (0 : Fin 2)
    ∧ win2_1.index t (1 : Fin 2) = win2_4.index t (1 : Fin 2)
    ∧ win2_2.index t (0 : Fin 2) = win2_4.index t (0 : Fin 2)
    ∧ win2_2.index t (1 : Fin 2) = win2_4.index t (1 : Fin 2)
    ∧ win2_5.index t (0 : Fin 2) = win2_4.index t (0 : Fin 2)
    ∧ win2_5.index t (1 : Fin 2) = win2_4.index t (1 : Fin 2) :=
  (by decide +kernel : ∀ t : Fin grid2.N, _)

/-- Every one of the 74 row blocks is some point's block of window 4. -/
theorem onto2_4 : ∀ q : Fin 74, ∃ t : Fin cfg2.N, win2_4.index t = ![q.val, 0] :=
  (by decide +kernel : ∀ q : Fin 74, ∃ t : Fin grid2.N, win2_4.index t = ![q.val, 0])

/-- Every one of the 74 row blocks is some point's block of window 5. -/
theorem onto2_5 : ∀ q : Fin 74, ∃ t : Fin cfg2.N, win2_5.index t = ![q.val, 0] :=
  (by decide +kernel : ∀ q : Fin 74, ∃ t : Fin grid2.N, win2_5.index t = ![q.val, 0])

/-- WHAT POINT `t` WRITES BACK through window 4 is block `t` of the running sum plus the scaled neighbour sum, acc + d · s, of the three input arrays. -/
theorem flushed2_4 (c : Dev nD) (t : Fin cfg2.N) :
    (dat2 V c).flushed 4 t = ((cfg2.win 4).blk t).view.read (Elt F) (accum (V c main_v40) (V c main_v16) (V c main_v30_1)) := by
  show (cfg2.win 4).cut (grid2.coords t) ((dat2 V c).after 4 t) = _
  rw [after2_4]
  unfold out2_4
  rw [View.canon_unit_zero hz]
  simp only [View.ld_unit_zero (S := S2048x64) hz]
  unfold k2_pay3 k2_pay2 k2_pay1
  simp only [shapeCast_self]
  obtain ⟨e0, e1, e2, e3, e4, e5, e6, e7⟩ := same_block2 t
  funext j
  have h0 : ((cfg2.win 0).blk t).view.emb j = ((cfg2.win 4).blk t).view.emb j := by
    funext a; apply Fin.ext
    match a with
    | ⟨0, _⟩ => show win2_0.index t (0 : Fin 2) * 2048 + 1 * (j 0).val = win2_4.index t (0 : Fin 2) * 2048 + 1 * (j 0).val; omega
    | ⟨1, _⟩ => show win2_0.index t (1 : Fin 2) * 64 + 1 * (j 1).val = win2_4.index t (1 : Fin 2) * 64 + 1 * (j 1).val; omega
  have h1 : ((cfg2.win 1).blk t).view.emb j = ((cfg2.win 4).blk t).view.emb j := by
    funext a; apply Fin.ext
    match a with
    | ⟨0, _⟩ => show win2_1.index t (0 : Fin 2) * 2048 + 1 * (j 0).val = win2_4.index t (0 : Fin 2) * 2048 + 1 * (j 0).val; omega
    | ⟨1, _⟩ => show win2_1.index t (1 : Fin 2) * 64 + 1 * (j 1).val = win2_4.index t (1 : Fin 2) * 64 + 1 * (j 1).val; omega
  have h2 : ((cfg2.win 2).blk t).view.emb j = ((cfg2.win 4).blk t).view.emb j := by
    funext a; apply Fin.ext
    match a with
    | ⟨0, _⟩ => show win2_2.index t (0 : Fin 2) * 2048 + 1 * (j 0).val = win2_4.index t (0 : Fin 2) * 2048 + 1 * (j 0).val; omega
    | ⟨1, _⟩ => show win2_2.index t (1 : Fin 2) * 64 + 1 * (j 1).val = win2_4.index t (1 : Fin 2) * 64 + 1 * (j 1).val; omega
  show FloatOps.addf (V c main_v30_1 (((cfg2.win 2).blk t).view.emb j)) (FloatOps.mulf (V c main_v16 (((cfg2.win 1).blk t).view.emb j)) (V c main_v40 (((cfg2.win 0).blk t).view.emb j))) = _
  rw [h0, h1, h2]
  rfl

/-- An index of the array is in point `t`'s block of window 4 iff each coordinate is in the block's range. -/
theorem mem_blk2_4 (t : Fin cfg2.N) (i : S151552x64.Idx) :
    i ∈ ((cfg2.win 4).blk t).view.set ↔ ∀ a : Fin 2, win2_4.index t a * S2048x64.size a ≤ (i a).val ∧ (i a).val < win2_4.index t a * S2048x64.size a + S2048x64.size a := by
  show i ∈ ((View.whole main_v41_1).slice (win2_4.rect t)).set ↔ _
  rw [View.set_slice_whole, Rect.mem_set_unit]
  exact Iff.rfl

/-- The 74 blocks of 2048 rows tile the 151552 rows: row `r` is in block `r / 2048`. -/
theorem covered2_4 (i : S151552x64.Idx) :
    ∃ t : Fin cfg2.N, (cfg2.win 4).flush t = true ∧ i ∈ ((cfg2.win 4).blk t).view.set := by
  have hi0 : (i 0).val < 151552 := (i 0).isLt
  have hi1 : (i 1).val < 64 := (i 1).isLt
  obtain ⟨t, ht⟩ := onto2_4 ⟨(i 0).val / 2048, by omega⟩
  have q0 : win2_4.index t (0 : Fin 2) = (i 0).val / 2048 := congrFun ht 0
  have q1 : win2_4.index t (1 : Fin 2) = 0 := congrFun ht 1
  refine ⟨t, flush2_4 t, ?_⟩
  rw [mem_blk2_4]
  intro a
  match a with
  | ⟨0, _⟩ => show win2_4.index t (0 : Fin 2) * 2048 ≤ (i 0).val ∧ (i 0).val < win2_4.index t (0 : Fin 2) * 2048 + 2048; omega
  | ⟨1, _⟩ => show win2_4.index t (1 : Fin 2) * 64 ≤ (i 1).val ∧ (i 1).val < win2_4.index t (1 : Fin 2) * 64 + 64; omega

/-- THE ARRAY of window 4 after the region: the running sum plus the scaled neighbour sum, acc + d · s, of the three input arrays, entry by entry. -/
theorem array2_4 (c : Dev nD) :
    (dat2 V c).arrAt 4 cfg2.N = accum (V c main_v40) (V c main_v16) (V c main_v30_1) :=
  (dat2 V c).arrAt_eq_of_cover 4 _ (fun t _ => flushed2_4 V c t) (covered2_4)

/-- WHAT POINT `t` WRITES BACK through window 5 is block `t` of the twice-scaled neighbour sum d · (d · s) of the input arrays. -/
theorem flushed2_5 (c : Dev nD) (t : Fin cfg2.N) :
    (dat2 V c).flushed 5 t = ((cfg2.win 5).blk t).view.read (Elt F) (rescaled (V c main_v40) (V c main_v16)) := by
  show (cfg2.win 5).cut (grid2.coords t) ((dat2 V c).after 5 t) = _
  rw [after2_5]
  unfold out2_5
  rw [View.canon_unit_zero hz]
  simp only [View.ld_unit_zero (S := S2048x64) hz]
  unfold k2_pay4 k2_pay2 k2_pay1
  simp only [shapeCast_self]
  obtain ⟨e0, e1, e2, e3, e4, e5, e6, e7⟩ := same_block2 t
  funext j
  have h0 : ((cfg2.win 0).blk t).view.emb j = ((cfg2.win 5).blk t).view.emb j := by
    funext a; apply Fin.ext
    match a with
    | ⟨0, _⟩ => show win2_0.index t (0 : Fin 2) * 2048 + 1 * (j 0).val = win2_5.index t (0 : Fin 2) * 2048 + 1 * (j 0).val; omega
    | ⟨1, _⟩ => show win2_0.index t (1 : Fin 2) * 64 + 1 * (j 1).val = win2_5.index t (1 : Fin 2) * 64 + 1 * (j 1).val; omega
  have h1 : ((cfg2.win 1).blk t).view.emb j = ((cfg2.win 5).blk t).view.emb j := by
    funext a; apply Fin.ext
    match a with
    | ⟨0, _⟩ => show win2_1.index t (0 : Fin 2) * 2048 + 1 * (j 0).val = win2_5.index t (0 : Fin 2) * 2048 + 1 * (j 0).val; omega
    | ⟨1, _⟩ => show win2_1.index t (1 : Fin 2) * 64 + 1 * (j 1).val = win2_5.index t (1 : Fin 2) * 64 + 1 * (j 1).val; omega
  show FloatOps.mulf (V c main_v16 (((cfg2.win 1).blk t).view.emb j)) (FloatOps.mulf (V c main_v16 (((cfg2.win 1).blk t).view.emb j)) (V c main_v40 (((cfg2.win 0).blk t).view.emb j))) = _
  rw [h0, h1]
  rfl

/-- An index of the array is in point `t`'s block of window 5 iff each coordinate is in the block's range. -/
theorem mem_blk2_5 (t : Fin cfg2.N) (i : S151552x64.Idx) :
    i ∈ ((cfg2.win 5).blk t).view.set ↔ ∀ a : Fin 2, win2_5.index t a * S2048x64.size a ≤ (i a).val ∧ (i a).val < win2_5.index t a * S2048x64.size a + S2048x64.size a := by
  show i ∈ ((View.whole main_v41_2).slice (win2_5.rect t)).set ↔ _
  rw [View.set_slice_whole, Rect.mem_set_unit]
  exact Iff.rfl

/-- The 74 blocks of 2048 rows tile the 151552 rows: row `r` is in block `r / 2048`. -/
theorem covered2_5 (i : S151552x64.Idx) :
    ∃ t : Fin cfg2.N, (cfg2.win 5).flush t = true ∧ i ∈ ((cfg2.win 5).blk t).view.set := by
  have hi0 : (i 0).val < 151552 := (i 0).isLt
  have hi1 : (i 1).val < 64 := (i 1).isLt
  obtain ⟨t, ht⟩ := onto2_5 ⟨(i 0).val / 2048, by omega⟩
  have q0 : win2_5.index t (0 : Fin 2) = (i 0).val / 2048 := congrFun ht 0
  have q1 : win2_5.index t (1 : Fin 2) = 0 := congrFun ht 1
  refine ⟨t, flush2_5 t, ?_⟩
  rw [mem_blk2_5]
  intro a
  match a with
  | ⟨0, _⟩ => show win2_5.index t (0 : Fin 2) * 2048 ≤ (i 0).val ∧ (i 0).val < win2_5.index t (0 : Fin 2) * 2048 + 2048; omega
  | ⟨1, _⟩ => show win2_5.index t (1 : Fin 2) * 64 ≤ (i 1).val ∧ (i 1).val < win2_5.index t (1 : Fin 2) * 64 + 64; omega

/-- THE ARRAY of window 5 after the region: the twice-scaled neighbour sum d · (d · s) of the input arrays, entry by entry. -/
theorem array2_5 (c : Dev nD) :
    (dat2 V c).arrAt 5 cfg2.N = rescaled (V c main_v40) (V c main_v16) :=
  (dat2 V c).arrAt_eq_of_cover 5 _ (fun t _ => flushed2_5 V c t) (covered2_5)

end Cert.KernelIdeal.Tiles

end
-- ==== Proof.TileUpdate3.lean ====
/-
  The last update region as a function of whole arrays.

  Its inputs are the neighbour sum s, the scale d spread over the features and the running sum acc; of its two
  outputs the one read afterwards is acc + d · s, block by block over 74 row blocks. Every window is on the same block
  at a point, so that output array after the region is the entrywise acc + d · s of the input arrays as the region
  finds them.
-/
import proofs.«109714_j30313879175390_1_alg».proof.Proof.Gen.KernelIdeal.Frame
import proofs.«109714_j30313879175390_1_alg».proof.Proof.TileDefs
import Idealize.ShloMosaic.Lib.Pipeline.Value

set_option maxRecDepth 16384

noncomputable section

namespace Cert.KernelIdeal.Tiles

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The printed index maps, decided over the grid of 74 points: at a point every window of this region is on the same
    block as output window 4. -/
theorem same_block3 : ∀ t : Fin cfg3.N,
    win3_0.index t (0 : Fin 2) = win3_4.index t (0 : Fin 2)
    ∧ win3_0.index t (1 : Fin 2) = win3_4.index t (1 : Fin 2)
    ∧ win3_1.index t (0 : Fin 2) = win3_4.index t (0 : Fin 2)
    ∧ win3_1.index t (1 : Fin 2) = win3_4.index t (1 : Fin 2)
    ∧ win3_2.index t (0 : Fin 2) = win3_4.index t (0 : Fin 2)
    ∧ win3_2.index t (1 : Fin 2) = win3_4.index t (1 : Fin 2) :=
  (by decide +kernel : ∀ t : Fin grid3.N, _)

/-- Every one of the 74 row blocks is some point's block of window 4. -/
theorem onto3_4 : ∀ q : Fin 74, ∃ t : Fin cfg3.N, win3_4.index t = ![q.val, 0] :=
  (by decide +kernel : ∀ q : Fin 74, ∃ t : Fin grid3.N, win3_4.index t = ![q.val, 0])

/-- WHAT POINT `t` WRITES BACK through window 4 is block `t` of the running sum plus the scaled neighbour sum, acc + d · s, of the three input arrays. -/
theorem flushed3_4 (c : Dev nD) (t : Fin cfg3.N) :
    (dat3 V c).flushed 4 t = ((cfg3.win 4).blk t).view.read (Elt F) (accum (V c main_v51) (V c main_v16) (V c main_v41_1)) := by
  show (cfg3.win 4).cut (grid3.coords t) ((dat3 V c).after 4 t) = _
  rw [after3_4]
  unfold out3_4
  rw [View.canon_unit_zero hz]
  simp only [View.ld_unit_zero (S := S2048x64) hz]
  unfold k3_pay2 k3_pay1
  simp only [shapeCast_self]
  obtain ⟨e0, e1, e2, e3, e4, e5⟩ := same_block3 t
  funext j
  have h0 : ((cfg3.win 0).blk t).view.emb j = ((cfg3.win 4).blk t).view.emb j := by
    funext a; apply Fin.ext
    match a with
    | ⟨0, _⟩ => show win3_0.index t (0 : Fin 2) * 2048 + 1 * (j 0).val = win3_4.index t (0 : Fin 2) * 2048 + 1 * (j 0).val; omega
    | ⟨1, _⟩ => show win3_0.index t (1 : Fin 2) * 64 + 1 * (j 1).val = win3_4.index t (1 : Fin 2) * 64 + 1 * (j 1).val; omega
  have h1 : ((cfg3.win 1).blk t).view.emb j = ((cfg3.win 4).blk t).view.emb j := by
    funext a; apply Fin.ext
    match a with
    | ⟨0, _⟩ => show win3_1.index t (0 : Fin 2) * 2048 + 1 * (j 0).val = win3_4.index t (0 : Fin 2) * 2048 + 1 * (j 0).val; omega
    | ⟨1, _⟩ => show win3_1.index t (1 : Fin 2) * 64 + 1 * (j 1).val = win3_4.index t (1 : Fin 2) * 64 + 1 * (j 1).val; omega
  have h2 : ((cfg3.win 2).blk t).view.emb j = ((cfg3.win 4).blk t).view.emb j := by
    funext a; apply Fin.ext
    match a with
    | ⟨0, _⟩ => show win3_2.index t (0 : Fin 2) * 2048 + 1 * (j 0).val = win3_4.index t (0 : Fin 2) * 2048 + 1 * (j 0).val; omega
    | ⟨1, _⟩ => show win3_2.index t (1 : Fin 2) * 64 + 1 * (j 1).val = win3_4.index t (1 : Fin 2) * 64 + 1 * (j 1).val; omega
  show FloatOps.addf (V c main_v41_1 (((cfg3.win 2).blk t).view.emb j)) (FloatOps.mulf (V c main_v16 (((cfg3.win 1).blk t).view.emb j)) (V c main_v51 (((cfg3.win 0).blk t).view.emb j))) = _
  rw [h0, h1, h2]
  rfl

/-- An index of the array is in point `t`'s block of window 4 iff each coordinate is in the block's range. -/
theorem mem_blk3_4 (t : Fin cfg3.N) (i : S151552x64.Idx) :
    i ∈ ((cfg3.win 4).blk t).view.set ↔ ∀ a : Fin 2, win3_4.index t a * S2048x64.size a ≤ (i a).val ∧ (i a).val < win3_4.index t a * S2048x64.size a + S2048x64.size a := by
  show i ∈ ((View.whole main_v52_1).slice (win3_4.rect t)).set ↔ _
  rw [View.set_slice_whole, Rect.mem_set_unit]
  exact Iff.rfl

/-- The 74 blocks of 2048 rows tile the 151552 rows: row `r` is in block `r / 2048`. -/
theorem covered3_4 (i : S151552x64.Idx) :
    ∃ t : Fin cfg3.N, (cfg3.win 4).flush t = true ∧ i ∈ ((cfg3.win 4).blk t).view.set := by
  have hi0 : (i 0).val < 151552 := (i 0).isLt
  have hi1 : (i 1).val < 64 := (i 1).isLt
  obtain ⟨t, ht⟩ := onto3_4 ⟨(i 0).val / 2048, by omega⟩
  have q0 : win3_4.index t (0 : Fin 2) = (i 0).val / 2048 := congrFun ht 0
  have q1 : win3_4.index t (1 : Fin 2) = 0 := congrFun ht 1
  refine ⟨t, flush3_4 t, ?_⟩
  rw [mem_blk3_4]
  intro a
  match a with
  | ⟨0, _⟩ => show win3_4.index t (0 : Fin 2) * 2048 ≤ (i 0).val ∧ (i 0).val < win3_4.index t (0 : Fin 2) * 2048 + 2048; omega
  | ⟨1, _⟩ => show win3_4.index t (1 : Fin 2) * 64 ≤ (i 1).val ∧ (i 1).val < win3_4.index t (1 : Fin 2) * 64 + 64; omega

/-- THE ARRAY of window 4 after the region: the running sum plus the scaled neighbour sum, acc + d · s, of the three input arrays, entry by entry. -/
theorem array3_4 (c : Dev nD) :
    (dat3 V c).arrAt 4 cfg3.N = accum (V c main_v51) (V c main_v16) (V c main_v41_1) :=
  (dat3 V c).arrAt_eq_of_cover 4 _ (fun t _ => flushed3_4 V c t) (covered3_4)

end Cert.KernelIdeal.Tiles

end
-- ==== Proof.KernelChain.lean ====
/-
  The idealized kernel's two results as explicit functions of four arrays.

  Before the first region the host computes, from the arguments, the source words ROW and the target words COL of the
  edges, the scale d spread over the features (D) and the padded features (X). Nothing later overwrites these four.
  From there the program is a fixed chain: the scaling region forms Y₀ = X · D; then three times the host gathers the
  rows of Y at the wrapped ROW words and adds them into a zero array at the COL words (the neighbour sum S), and an
  update region forms acc + D · S and, except the last time, D · (D · S) for the next round; the host finally divides
  the running sum by four and cuts the two results out of its rows. This module follows the buffers through the
  fourteen segment boundaries of the run and arrives at that chain, stated once as `result0` and `result1`.
-/
import proofs.«109714_j30313879175390_1_alg».proof.Proof.Gen.KernelIdeal.Frame
import proofs.«109714_j30313879175390_1_alg».proof.Proof.TileScale
import proofs.«109714_j30313879175390_1_alg».proof.Proof.TileUpdate1
import proofs.«109714_j30313879175390_1_alg».proof.Proof.TileUpdate2
import proofs.«109714_j30313879175390_1_alg».proof.Proof.TileUpdate3
import Idealize.ShloMosaic.Lib.StableHlo.Run

set_option maxRecDepth 16384

noncomputable section

namespace Cert.KernelIdeal.Chain

open Cert.KernelIdeal Cert.KernelIdeal.Gen Cert.KernelIdeal.Tiles
open Idealize.ShloMosaic Idealize.ShloMosaic.TcCoe Idealize.SL.Sem Idealize.ShloMosaic.StableHlo
open Idealize.ShloMosaic.Pipeline (Dat Cfg Window)

variable {F : FTy → Type} [FloatOps F]

/-! ## The chain -/

/-- THE NEIGHBOUR SUM: the rows of `Y` gathered at the ROW words (a negative word wrapped by the padded height) and
    added into a zero array at the COL words. -/
def nsum (ROW COL : IVec S4000000 32) (Y : FVec F S151552x64 .f32) : FVec F S151552x64 .f32 :=
  Host.scatterAdd scatter_S151552x64_S4000000x1_S4000000x64_1_0_0_1
    (broadcastInDim S151552x64 ![] bcast_S_S151552x64 (constant S_ .f32 0x00000000#32))
    (broadcastInDim S4000000x1 ![0] bcast_S4000000_S4000000x1_0 COL)
    (Host.gather gather_S151552x64_S4000000x1_S4000000x64_1_0_n_n_0_1_164 Y
      (broadcastInDim S4000000x1 ![0] bcast_S4000000_S4000000x1_0
        (select (cmpi .slt ROW (broadcastInDim S4000000 ![] bcast_S_S4000000 (constantI S_ 32 0#32)))
          (addi ROW (broadcastInDim S4000000 ![] bcast_S_S4000000 (constantI S_ 32 151552#32))) ROW)))

/-- The running sum after the three rounds. -/
def acc3 (ROW COL : IVec S4000000 32) (D X : FVec F S151552x64 .f32) : FVec F S151552x64 .f32 :=
  let S0 := nsum ROW COL (prod X D)
  let S1 := nsum ROW COL (rescaled S0 D)
  let S2 := nsum ROW COL (rescaled S1 D)
  accum S2 D (accum S1 D (accum S0 D X))

/-- The running sum divided by four. -/
def mean (ROW COL : IVec S4000000 32) (D X : FVec F S151552x64 .f32) : FVec F S151552x64 .f32 :=
  Host.divf (acc3 ROW COL D X) (broadcastInDim S151552x64 ![] bcast_S_S151552x64 (constant S_ .f32 0x40800000#32))

/-- The first result: rows 0 … 99999 of the mean. -/
def result0 (ROW COL : IVec S4000000 32) (D X : FVec F S151552x64 .f32) : FVec F S100000x64 .f32 :=
  extractStridedSlice S100000x64 ![0, 0] (mean ROW COL D X) slices_S151552x64_S100000x64_0_0
/-- The second result: rows 100000 … 149999 of the mean. -/
def result1 (ROW COL : IVec S4000000 32) (D X : FVec F S151552x64 .f32) : FVec F S50000x64 .f32 :=
  extractStridedSlice S50000x64 ![100000, 0] (mean ROW COL D X) slices_S151552x64_S50000x64_100000_0

/-! ## The buffers, boundary by boundary -/

variable (m : (ℓ : Loc nD τ sig) → Buf (Elt F) ℓ) (ρ : Dev nD → PrngReg) (c : Dev nD)

/-- The four arrays as the first region finds them. -/
abbrev row : IVec S4000000 32 := W6 m ρ c (Proc.devRef .tc main_v1)
abbrev col : IVec S4000000 32 := W6 m ρ c (Proc.devRef .tc main_v3)
abbrev dfull : FVec F S151552x64 .f32 := W6 m ρ c (Proc.devRef .tc main_v16)
abbrev xpad : FVec F S151552x64 .f32 := W6 m ρ c (Proc.devRef .tc main_v18)

/-! ### Across region 0 -/

theorem W7_v1 : W7 m ρ c (Proc.devRef .tc main_v1) = W6 m ρ c (Proc.devRef .tc main_v1) := W7_of_ne m ρ c main_v1 (by decide)
theorem W7_v3 : W7 m ρ c (Proc.devRef .tc main_v3) = W6 m ρ c (Proc.devRef .tc main_v3) := W7_of_ne m ρ c main_v3 (by decide)
theorem W7_v16 : W7 m ρ c (Proc.devRef .tc main_v16) = W6 m ρ c (Proc.devRef .tc main_v16) :=
  (W7_arr m ρ c 1).trans (((dat0 (V6 m ρ) c).arrAt_in 1 rfl cfg0.N).trans (A_eq0 (V6 m ρ) c 1))
theorem W7_v18 : W7 m ρ c (Proc.devRef .tc main_v18) = W6 m ρ c (Proc.devRef .tc main_v18) :=
  (W7_arr m ρ c 0).trans (((dat0 (V6 m ρ) c).arrAt_in 0 rfl cfg0.N).trans (A_eq0 (V6 m ρ) c 0))
theorem W7_v19 : W7 m ρ c (Proc.devRef .tc main_v19) = prod (W6 m ρ c (Proc.devRef .tc main_v18)) (W6 m ρ c (Proc.devRef .tc main_v16)) :=
  (W7_arr m ρ c 2).trans (array0_2 (V6 m ρ) c)

/-! ### Across the host stretch `hostOps1` -/

theorem W8_v1 : W8 m ρ c (Proc.devRef .tc main_v1) = W7 m ρ c (Proc.devRef .tc main_v1) := by
  show StableHlo.after hostOps1 (W7 m ρ c) (Proc.devRef .tc main_v1) = _
  after_results
theorem W8_v3 : W8 m ρ c (Proc.devRef .tc main_v3) = W7 m ρ c (Proc.devRef .tc main_v3) := by
  show StableHlo.after hostOps1 (W7 m ρ c) (Proc.devRef .tc main_v3) = _
  after_results
theorem W8_v16 : W8 m ρ c (Proc.devRef .tc main_v16) = W7 m ρ c (Proc.devRef .tc main_v16) := by
  show StableHlo.after hostOps1 (W7 m ρ c) (Proc.devRef .tc main_v16) = _
  after_results
theorem W8_v18 : W8 m ρ c (Proc.devRef .tc main_v18) = W7 m ρ c (Proc.devRef .tc main_v18) := by
  show StableHlo.after hostOps1 (W7 m ρ c) (Proc.devRef .tc main_v18) = _
  after_results
set_option maxHeartbeats 4000000 in
theorem W8_v29 : W8 m ρ c (Proc.devRef .tc main_v29) = nsum (W7 m ρ c (Proc.devRef .tc main_v1)) (W7 m ρ c (Proc.devRef .tc main_v3)) (W7 m ρ c (Proc.devRef .tc main_v19)) := by
  show StableHlo.after hostOps1 (W7 m ρ c) (Proc.devRef .tc main_v29) = _
  after_results
  rfl

/-! ### Across region 1 -/

theorem W9_v1 : W9 m ρ c (Proc.devRef .tc main_v1) = W8 m ρ c (Proc.devRef .tc main_v1) := W9_of_ne m ρ c main_v1 (by decide)
theorem W9_v3 : W9 m ρ c (Proc.devRef .tc main_v3) = W8 m ρ c (Proc.devRef .tc main_v3) := W9_of_ne m ρ c main_v3 (by decide)
theorem W9_v16 : W9 m ρ c (Proc.devRef .tc main_v16) = W8 m ρ c (Proc.devRef .tc main_v16) :=
  (W9_arr m ρ c 1).trans (((dat1 (V8 m ρ) c).arrAt_in 1 rfl cfg1.N).trans (A_eq1 (V8 m ρ) c 1))
theorem W9_v30_1 : W9 m ρ c (Proc.devRef .tc main_v30_1) = accum (W8 m ρ c (Proc.devRef .tc main_v29)) (W8 m ρ c (Proc.devRef .tc main_v16)) (W8 m ρ c (Proc.devRef .tc main_v18)) :=
  (W9_arr m ρ c 4).trans (array1_4 (V8 m ρ) c)
theorem W9_v30_2 : W9 m ρ c (Proc.devRef .tc main_v30_2) = rescaled (W8 m ρ c (Proc.devRef .tc main_v29)) (W8 m ρ c (Proc.devRef .tc main_v16)) :=
  (W9_arr m ρ c 5).trans (array1_5 (V8 m ρ) c)

/-! ### Across the host stretch `hostOps2` -/

theorem W10_v1 : W10 m ρ c (Proc.devRef .tc main_v1) = W9 m ρ c (Proc.devRef .tc main_v1) := by
  show StableHlo.after hostOps2 (W9 m ρ c) (Proc.devRef .tc main_v1) = _
  after_results
theorem W10_v3 : W10 m ρ c (Proc.devRef .tc main_v3) = W9 m ρ c (Proc.devRef .tc main_v3) := by
  show StableHlo.after hostOps2 (W9 m ρ c) (Proc.devRef .tc main_v3) = _
  after_results
theorem W10_v16 : W10 m ρ c (Proc.devRef .tc main_v16) = W9 m ρ c (Proc.devRef .tc main_v16) := by
  show StableHlo.after hostOps2 (W9 m ρ c) (Proc.devRef .tc main_v16) = _
  after_results
theorem W10_v30_1 : W10 m ρ c (Proc.devRef .tc main_v30_1) = W9 m ρ c (Proc.devRef .tc main_v30_1) := by
  show StableHlo.after hostOps2 (W9 m ρ c) (Proc.devRef .tc main_v30_1) = _
  after_results
set_option maxHeartbeats 4000000 in
theorem W10_v40 : W10 m ρ c (Proc.devRef .tc main_v40) = nsum (W9 m ρ c (Proc.devRef .tc main_v1)) (W9 m ρ c (Proc.devRef .tc main_v3)) (W9 m ρ c (Proc.devRef .tc main_v30_2)) := by
  show StableHlo.after hostOps2 (W9 m ρ c) (Proc.devRef .tc main_v40) = _
  after_results
  rfl

/-! ### Across region 2 -/

theorem W11_v1 : W11 m ρ c (Proc.devRef .tc main_v1) = W10 m ρ c (Proc.devRef .tc main_v1) := W11_of_ne m ρ c main_v1 (by decide)
theorem W11_v3 : W11 m ρ c (Proc.devRef .tc main_v3) = W10 m ρ c (Proc.devRef .tc main_v3) := W11_of_ne m ρ c main_v3 (by decide)
theorem W11_v16 : W11 m ρ c (Proc.devRef .tc main_v16) = W10 m ρ c (Proc.devRef .tc main_v16) :=
  (W11_arr m ρ c 1).trans (((dat2 (V10 m ρ) c).arrAt_in 1 rfl cfg2.N).trans (A_eq2 (V10 m ρ) c 1))
theorem W11_v41_1 : W11 m ρ c (Proc.devRef .tc main_v41_1) = accum (W10 m ρ c (Proc.devRef .tc main_v40)) (W10 m ρ c (Proc.devRef .tc main_v16)) (W10 m ρ c (Proc.devRef .tc main_v30_1)) :=
  (W11_arr m ρ c 4).trans (array2_4 (V10 m ρ) c)
theorem W11_v41_2 : W11 m ρ c (Proc.devRef .tc main_v41_2) = rescaled (W10 m ρ c (Proc.devRef .tc main_v40)) (W10 m ρ c (Proc.devRef .tc main_v16)) :=
  (W11_arr m ρ c 5).trans (array2_5 (V10 m ρ) c)

/-! ### Across the host stretch `hostOps3` -/

theorem W12_v16 : W12 m ρ c (Proc.devRef .tc main_v16) = W11 m ρ c (Proc.devRef .tc main_v16) := by
  show StableHlo.after hostOps3 (W11 m ρ c) (Proc.devRef .tc main_v16) = _
  after_results
theorem W12_v41_1 : W12 m ρ c (Proc.devRef .tc main_v41_1) = W11 m ρ c (Proc.devRef .tc main_v41_1) := by
  show StableHlo.after hostOps3 (W11 m ρ c) (Proc.devRef .tc main_v41_1) = _
  after_results
set_option maxHeartbeats 4000000 in
theorem W12_v51 : W12 m ρ c (Proc.devRef .tc main_v51) = nsum (W11 m ρ c (Proc.devRef .tc main_v1)) (W11 m ρ c (Proc.devRef .tc main_v3)) (W11 m ρ c (Proc.devRef .tc main_v41_2)) := by
  show StableHlo.after hostOps3 (W11 m ρ c) (Proc.devRef .tc main_v51) = _
  after_results
  rfl

/-! ### Across region 3 -/

theorem W13_v52_1 : W13 m ρ c (Proc.devRef .tc main_v52_1) = accum (W12 m ρ c (Proc.devRef .tc main_v51)) (W12 m ρ c (Proc.devRef .tc main_v16)) (W12 m ρ c (Proc.devRef .tc main_v41_1)) :=
  (W13_arr m ρ c 4).trans (array3_4 (V12 m ρ) c)

/-! ## Every boundary's buffers in terms of the four arrays at the first region's entry -/

theorem c7_v1 : W7 m ρ c (Proc.devRef .tc main_v1) = row m ρ c := W7_v1 m ρ c
theorem c7_v3 : W7 m ρ c (Proc.devRef .tc main_v3) = col m ρ c := W7_v3 m ρ c
theorem c7_v16 : W7 m ρ c (Proc.devRef .tc main_v16) = dfull m ρ c := W7_v16 m ρ c
theorem c7_v18 : W7 m ρ c (Proc.devRef .tc main_v18) = xpad m ρ c := W7_v18 m ρ c
theorem c7_v19 : W7 m ρ c (Proc.devRef .tc main_v19) = prod (xpad m ρ c) (dfull m ρ c) := W7_v19 m ρ c
theorem c8_v1 : W8 m ρ c (Proc.devRef .tc main_v1) = row m ρ c := (W8_v1 m ρ c).trans (c7_v1 m ρ c)
theorem c8_v3 : W8 m ρ c (Proc.devRef .tc main_v3) = col m ρ c := (W8_v3 m ρ c).trans (c7_v3 m ρ c)
theorem c8_v16 : W8 m ρ c (Proc.devRef .tc main_v16) = dfull m ρ c := (W8_v16 m ρ c).trans (c7_v16 m ρ c)
theorem c8_v18 : W8 m ρ c (Proc.devRef .tc main_v18) = xpad m ρ c := (W8_v18 m ρ c).trans (c7_v18 m ρ c)
theorem c8_v29 : W8 m ρ c (Proc.devRef .tc main_v29) = (nsum (row m ρ c) (col m ρ c) (prod (xpad m ρ c) (dfull m ρ c))) := by
  rw [W8_v29, c7_v1, c7_v3, c7_v19]
theorem c9_v1 : W9 m ρ c (Proc.devRef .tc main_v1) = row m ρ c := (W9_v1 m ρ c).trans (c8_v1 m ρ c)
theorem c9_v3 : W9 m ρ c (Proc.devRef .tc main_v3) = col m ρ c := (W9_v3 m ρ c).trans (c8_v3 m ρ c)
theorem c9_v16 : W9 m ρ c (Proc.devRef .tc main_v16) = dfull m ρ c := (W9_v16 m ρ c).trans (c8_v16 m ρ c)
theorem c9_v30_1 : W9 m ρ c (Proc.devRef .tc main_v30_1) = (accum (nsum (row m ρ c) (col m ρ c) (prod (xpad m ρ c) (dfull m ρ c))) (dfull m ρ c) (xpad m ρ c)) := by
  rw [W9_v30_1, c8_v29, c8_v16, c8_v18]
theorem c9_v30_2 : W9 m ρ c (Proc.devRef .tc main_v30_2) = (rescaled (nsum (row m ρ c) (col m ρ c) (prod (xpad m ρ c) (dfull m ρ c))) (dfull m ρ c)) := by
  rw [W9_v30_2, c8_v29, c8_v16]
theorem c10_v1 : W10 m ρ c (Proc.devRef .tc main_v1) = row m ρ c := (W10_v1 m ρ c).trans (c9_v1 m ρ c)
theorem c10_v3 : W10 m ρ c (Proc.devRef .tc main_v3) = col m ρ c := (W10_v3 m ρ c).trans (c9_v3 m ρ c)
theorem c10_v16 : W10 m ρ c (Proc.devRef .tc main_v16) = dfull m ρ c := (W10_v16 m ρ c).trans (c9_v16 m ρ c)
theorem c10_v30_1 : W10 m ρ c (Proc.devRef .tc main_v30_1) = (accum (nsum (row m ρ c) (col m ρ c) (prod (xpad m ρ c) (dfull m ρ c))) (dfull m ρ c) (xpad m ρ c)) := (W10_v30_1 m ρ c).trans (c9_v30_1 m ρ c)
theorem c10_v40 : W10 m ρ c (Proc.devRef .tc main_v40) = (nsum (row m ρ c) (col m ρ c) (rescaled (nsum (row m ρ c) (col m ρ c) (prod (xpad m ρ c) (dfull m ρ c))) (dfull m ρ c))) := by
  rw [W10_v40, c9_v1, c9_v3, c9_v30_2]
theorem c11_v1 : W11 m ρ c (Proc.devRef .tc main_v1) = row m ρ c := (W11_v1 m ρ c).trans (c10_v1 m ρ c)
theorem c11_v3 : W11 m ρ c (Proc.devRef .tc main_v3) = col m ρ c := (W11_v3 m ρ c).trans (c10_v3 m ρ c)
theorem c11_v16 : W11 m ρ c (Proc.devRef .tc main_v16) = dfull m ρ c := (W11_v16 m ρ c).trans (c10_v16 m ρ c)
theorem c11_v41_1 : W11 m ρ c (Proc.devRef .tc main_v41_1) = (accum (nsum (row m ρ c) (col m ρ c) (rescaled (nsum (row m ρ c) (col m ρ c) (prod (xpad m ρ c) (dfull m ρ c))) (dfull m ρ c))) (dfull m ρ c) (accum (nsum (row m ρ c) (col m ρ c) (prod (xpad m ρ c) (dfull m ρ c))) (dfull m ρ c) (xpad m ρ c))) := by
  rw [W11_v41_1, c10_v40, c10_v16, c10_v30_1]
theorem c11_v41_2 : W11 m ρ c (Proc.devRef .tc main_v41_2) = (rescaled (nsum (row m ρ c) (col m ρ c) (rescaled (nsum (row m ρ c) (col m ρ c) (prod (xpad m ρ c) (dfull m ρ c))) (dfull m ρ c))) (dfull m ρ c)) := by
  rw [W11_v41_2, c10_v40, c10_v16]
theorem c12_v16 : W12 m ρ c (Proc.devRef .tc main_v16) = dfull m ρ c := (W12_v16 m ρ c).trans (c11_v16 m ρ c)
theorem c12_v41_1 : W12 m ρ c (Proc.devRef .tc main_v41_1) = (accum (nsum (row m ρ c) (col m ρ c) (rescaled (nsum (row m ρ c) (col m ρ c) (prod (xpad m ρ c) (dfull m ρ c))) (dfull m ρ c))) (dfull m ρ c) (accum (nsum (row m ρ c) (col m ρ c) (prod (xpad m ρ c) (dfull m ρ c))) (dfull m ρ c) (xpad m ρ c))) := (W12_v41_1 m ρ c).trans (c11_v41_1 m ρ c)
theorem c12_v51 : W12 m ρ c (Proc.devRef .tc main_v51) = (nsum (row m ρ c) (col m ρ c) (rescaled (nsum (row m ρ c) (col m ρ c) (rescaled (nsum (row m ρ c) (col m ρ c) (prod (xpad m ρ c) (dfull m ρ c))) (dfull m ρ c))) (dfull m ρ c))) := by
  rw [W12_v51, c11_v1, c11_v3, c11_v41_2]

/-- The running sum as the last host stretch finds it. -/
theorem acc_at_exit : W13 m ρ c (Proc.devRef .tc main_v52_1) = acc3 (row m ρ c) (col m ρ c) (dfull m ρ c) (xpad m ρ c) := by
  rw [W13_v52_1, c12_v51, c12_v16, c12_v41_1]
  rfl

/-! ## The results -/

/-- THE FIRST RESULT at the last boundary: the chain's `result0` of the four arrays. -/
theorem result0_eq : W14 m ρ c (Proc.devRef .tc main_v55) = result0 (row m ρ c) (col m ρ c) (dfull m ρ c) (xpad m ρ c) := by
  show StableHlo.after hostOps4 (W13 m ρ c) (Proc.devRef .tc main_v55) = _
  after_results
  rw [acc_at_exit]
  rfl

/-- THE SECOND RESULT at the last boundary: the chain's `result1` of the four arrays. -/
theorem result1_eq : W14 m ρ c (Proc.devRef .tc main_v56) = result1 (row m ρ c) (col m ρ c) (dfull m ρ c) (xpad m ρ c) := by
  show StableHlo.after hostOps4 (W13 m ρ c) (Proc.devRef .tc main_v56) = _
  after_results
  rw [acc_at_exit]
  rfl

end Cert.KernelIdeal.Chain

end
-- ==== Proof.LibScatterRows.lean ====
/-
  Reading an accumulating scatter at an index, when the scatter is by ROWS.

  The operand is an `R × C` array, the updates a `U × C` array, and the index table has one column: update row `r`
  is added, whole, to operand row `ρ r`. (Dimension numbers: the updates' window is their axis 1, the operand's
  inserted axis is 0, the one start component goes to operand axis 0, the index vector is the table's axis 1.)
  On the extended reals the accumulating scatter is an exact sum, so at an index `(a, c)` its result is the operand's
  element plus the sum of `upd (r, c)` over the rows `r` in the fibre `ρ ⁻¹ a` — in whatever order: addition of
  extended reals is commutative and associative.  This file proves that reading from the definition of the target
  index (start read signed off the table, plus the window coordinate), and then counts a fibre that is the image of
  `Fin P` under an injection as a sum over `Fin P`.
-/
import Idealize.ShloMosaic.PureOps.Ideal
import Idealize.ShloMosaic.Lib.ValueIdx

noncomputable section

namespace ScatterRows

open Idealize.ShloMosaic Idealize.ShloMosaic.ValueIdx

/-- The operand's shape, `R` rows of `C` entries. -/
abbrev Opnd (R C : Nat) : Shape := ⟨2, ![R, C]⟩
/-- The index table's shape: one start component per update row. -/
abbrev Tbl (U : Nat) : Shape := ⟨2, ![U, 1]⟩
/-- The updates' shape, `U` rows of `C` entries. -/
abbrev Upd (U C : Nat) : Shape := ⟨2, ![U, C]⟩

variable {R C U w : Nat}

/-- The row of a table index, as a plain `Fin U`. -/
abbrev tblRow (q : (Tbl U).Idx) : Fin U := ⟨(q 0).val, idx2_lt0 q⟩
/-- The row of an update index, as a plain `Fin U`. -/
abbrev updRow (j : (Upd U C).Idx) : Fin U := ⟨(j 0).val, idx2_lt0 j⟩

/-- A valid index into a one-element list reads its element. -/
theorem getElem_singleton_any {α : Type} (a : α) (k : Nat) (hk : k < [a].length) : [a][k]'hk = a := by
  have h0 : k = 0 := by simpa using hk
  subst h0; rfl

/-- The same for a list that equals a one-element list. -/
theorem getElem_of_eq_singleton {α : Type} (l : List α) (a : α) (hl : l = [a]) (k : Nat) (hk : k < l.length) :
    l[k]'hk = a := by
  subst hl; exact getElem_singleton_any a k hk

/-- On the row axis the target coordinate of update index `j` is the table's word for `j`'s row, read signed: the
    start component comes from the table, and the window contributes nothing on an inserted axis. -/
theorem coord_row (d : ScatterDims (Opnd R C) (Tbl U) (Upd U C))
    (h1 : d.updateWindowDims = [1]) (h2 : d.insertedWindowDims = [0]) (h3 : d.scatterDimsToOperandDims = [0])
    (h4 : d.indexVectorDim = 1) (ρ : Fin U → Fin R) (idx : IVec (Tbl U) w)
    (hrow : ∀ q : (Tbl U).Idx, (idx q).toInt = ((ρ (tblRow q)).val : Int)) (j : (Upd U C).Idx) :
    d.start j idx 0 + (d.window j 0 : Int) = ((ρ (updRow j)).val : Int) := by
  obtain ⟨uw, iw, sd, iv, wf⟩ := d
  dsimp only at h1 h2 h3 h4
  subst h1 h2 h3 h4
  have m0 : (0 : Fin 2) ∈ ([0] : List (Fin 2)) := by decide
  have k0 : (0 : Fin 2) ∉ ScatterDims.sKept (⟨[1], [0], [0], 1, wf⟩ : ScatterDims (Opnd R C) (Tbl U) (Upd U C)) := by
    show (0 : Fin 2) ∉ (List.finRange 2).filter (fun x => decide (x ∉ ([0] : List (Fin 2))))
    decide
  simp only [ScatterDims.start, ScatterDims.window]
  rw [dif_pos m0, dif_neg k0, hrow]
  simp only [Nat.cast_zero, add_zero]
  refine congrArg (fun r : Fin U => ((ρ r).val : Int)) (Fin.ext ?_)
  -- the table index that update `j` reads has `j`'s row: the updates' one scatter axis is axis 0
  have hu : ScatterDims.uScatter (⟨[1], [0], [0], 1, wf⟩ : ScatterDims (Opnd R C) (Tbl U) (Upd U C)) = [0] := by
    show (List.finRange 2).filter (fun x => decide (x ∉ ([1] : List (Fin 2)))) = [0]
    decide
  simp only [tblRow, updRow, ScatterDims.siIdx]
  split
  · rename_i h
    exact absurd h Nat.zero_ne_one
  · unfold ScatterDims.siCoord
    simp only [Fin.coe_cast]
    exact congrArg (fun a => (j a).val) (getElem_of_eq_singleton _ 0 hu _ _)

/-- On the column axis the target coordinate is `j`'s own column: no start component, and the window is the
    updates' axis 1. -/
theorem coord_col (d : ScatterDims (Opnd R C) (Tbl U) (Upd U C))
    (h1 : d.updateWindowDims = [1]) (h2 : d.insertedWindowDims = [0]) (h3 : d.scatterDimsToOperandDims = [0])
    (h4 : d.indexVectorDim = 1) (idx : IVec (Tbl U) w) (j : (Upd U C).Idx) :
    d.start j idx 1 + (d.window j 1 : Int) = ((j 1).val : Int) := by
  obtain ⟨uw, iw, sd, iv, wf⟩ := d
  dsimp only at h1 h2 h3 h4
  subst h1 h2 h3 h4
  have m1 : (1 : Fin 2) ∉ ([0] : List (Fin 2)) := by decide
  have k1 : (1 : Fin 2) ∈ ScatterDims.sKept (⟨[1], [0], [0], 1, wf⟩ : ScatterDims (Opnd R C) (Tbl U) (Upd U C)) := by
    show (1 : Fin 2) ∈ (List.finRange 2).filter (fun x => decide (x ∉ ([0] : List (Fin 2))))
    decide
  have e1 : List.idxOf (1 : Fin 2) (ScatterDims.sKept (⟨[1], [0], [0], 1, wf⟩ : ScatterDims (Opnd R C) (Tbl U) (Upd U C))) = 0 := by
    show List.idxOf (1 : Fin 2) ((List.finRange 2).filter (fun x => decide (x ∉ ([0] : List (Fin 2))))) = 0
    decide
  simp only [ScatterDims.start, ScatterDims.window]
  rw [dif_neg m1, dif_pos k1]
  simp only [zero_add, Nat.cast_inj]
  exact congrArg (fun a => (j a).val) (getElem_singleton_any _ _ _)

/-- The column of an index, as a plain `Fin C`. -/
abbrev updCol (j : (Upd U C).Idx) : Fin C := ⟨(j 1).val, idx2_lt1 j⟩

/-- WHERE AN UPDATE LANDS. When the table's word for row `r` reads, signed, as the row `ρ r` of the operand, update
    index `(r, c)` lands at `(ρ r, c)`: both coordinates are inside the operand by their types, so no update is
    dropped. -/
theorem resultIdx_rows (d : ScatterDims (Opnd R C) (Tbl U) (Upd U C))
    (h1 : d.updateWindowDims = [1]) (h2 : d.insertedWindowDims = [0]) (h3 : d.scatterDimsToOperandDims = [0])
    (h4 : d.indexVectorDim = 1) (ρ : Fin U → Fin R) (idx : IVec (Tbl U) w)
    (hrow : ∀ q : (Tbl U).Idx, (idx q).toInt = ((ρ (tblRow q)).val : Int)) (j : (Upd U C).Idx) :
    d.resultIdx? j idx = some (ix2 (ρ (updRow j)) (updCol j)) := by
  have c0 := coord_row d h1 h2 h3 h4 ρ idx hrow j
  have c1 := coord_col d h1 h2 h3 h4 idx j
  have hall : ∀ a, 0 ≤ d.start j idx a + (d.window j a : Int) ∧ d.start j idx a + (d.window j a : Int) < ((Opnd R C).size a : Nat) := by
    refine Fin.forall_fin_two.2 ⟨?_, ?_⟩
    · rw [c0]
      exact ⟨Int.natCast_nonneg _, by exact_mod_cast (ρ (updRow j)).isLt⟩
    · rw [c1]
      exact ⟨Int.natCast_nonneg _, by exact_mod_cast idx2_lt1 j⟩
  unfold ScatterDims.resultIdx?
  rw [dif_pos hall]
  refine congrArg some (funext ?_)
  refine Fin.forall_fin_two.2 ⟨?_, ?_⟩
  · apply Fin.ext
    show (d.start j idx 0 + (d.window j 0 : Int)).toNat = (ρ (updRow j)).val
    rw [c0, Int.toNat_natCast]
  · apply Fin.ext
    show (d.start j idx 1 + (d.window j 1 : Int)).toNat = (j 1).val
    rw [c1, Int.toNat_natCast]

/-- THE SCATTER READ AT AN INDEX: the operand's element plus the sum, over the update rows `r` that the table sends
    to this row, of the update's element in this column. -/
theorem scatterAdd_rows (d : ScatterDims (Opnd R C) (Tbl U) (Upd U C))
    (h1 : d.updateWindowDims = [1]) (h2 : d.insertedWindowDims = [0]) (h3 : d.scatterDimsToOperandDims = [0])
    (h4 : d.indexVectorDim = 1) (ρ : Fin U → Fin R) (idx : IVec (Tbl U) w)
    (hrow : ∀ q : (Tbl U).Idx, (idx q).toInt = ((ρ (tblRow q)).val : Int))
    (x : (Opnd R C).Idx → EReal) (upd : (Upd U C).Idx → EReal) (a : Fin R) (c : Fin C) :
    Ideal.hostScatterAdd d x idx upd (ix2 a c)
      = x (ix2 a c) + ∑ r ∈ Finset.univ.filter (fun r : Fin U => ρ r = a), upd (ix2 r c) := by
  unfold Ideal.hostScatterAdd
  refine congrArg (x (ix2 a c) + ·) ?_
  refine Finset.sum_bij' (fun j _ => updRow j) (fun r _ => ix2 r c) ?_ ?_ ?_ ?_ ?_
  · intro j hj
    rw [Finset.mem_filter] at hj ⊢
    refine ⟨Finset.mem_univ _, ?_⟩
    have h := hj.2
    rw [resultIdx_rows d h1 h2 h3 h4 ρ idx hrow j, Option.some.injEq] at h
    exact congrFun h 0
  · intro r hr
    rw [Finset.mem_filter] at hr ⊢
    refine ⟨Finset.mem_univ _, ?_⟩
    rw [resultIdx_rows d h1 h2 h3 h4 ρ idx hrow (ix2 r c)]
    refine congrArg some ?_
    show ix2 (ρ r) c = ix2 a c
    rw [hr.2]
  · intro j hj
    rw [Finset.mem_filter] at hj
    have h := hj.2
    rw [resultIdx_rows d h1 h2 h3 h4 ρ idx hrow j, Option.some.injEq] at h
    have hc : updCol j = c := congrFun h 1
    conv_rhs => rw [eq_ix2 j]
    refine congrArg₂ ix2 (Fin.ext rfl) ?_
    exact Fin.ext (by rw [← hc])
  · intro r _
    exact Fin.ext rfl
  · intro j hj
    rw [Finset.mem_filter] at hj
    have h := hj.2
    rw [resultIdx_rows d h1 h2 h3 h4 ρ idx hrow j, Option.some.injEq] at h
    have hc : updCol j = c := congrFun h 1
    refine congrArg upd ?_
    conv_lhs => rw [eq_ix2 j]
    refine congrArg₂ ix2 (Fin.ext rfl) ?_
    exact Fin.ext (by rw [← hc])

end ScatterRows

end
-- ==== Proof.LibScatterDrop.lean ====
/-
  Reading a row gather and an accumulating row scatter at an index, WHATEVER the index table holds.

  The operand is an `R × C` array, the updates a `U × C` array and the index table has one column, one word per update
  row. Nothing is assumed about the words. For the scatter (updates' window their axis 1, operand's inserted axis 0,
  the one start component going to operand axis 0, index vector the table's axis 1) update index `(r, c)` has the
  target `(the table's word for row r read signed, c)`; it lands there when the word is a row of the operand and is
  dropped otherwise. So on the extended reals the result at `(a, c)` is the operand's element plus the sum of
  `upd (r, c)` over the update rows `r` whose word reads, signed, as `a` — a word that is negative or at least `R`
  equals no `a` and so contributes to no element, which is exactly "dropped".
  For the gather (offset axis the result's axis 1, operand's axis 0 collapsed, the one start component for operand axis 0,
  slices one whole row) result index `(r, c)` reads the operand at `(the table's word for row r read signed and clamped
  into [0, R - 1], c)`. The width `C` enters neither the filter of the scatter nor the row of the gather: that is what
  lets a scatter of a gather be compared across two widths.
-/
import proofs.«109714_j30313879175390_1_alg».proof.Proof.LibScatterRows

noncomputable section

namespace ScatterDrop

open Idealize.ShloMosaic Idealize.ShloMosaic.ValueIdx ScatterRows

variable {R C U w : Nat}

/-- A table index is its row with column 0: the table has one column. -/
theorem tbl_eq (q : (Tbl U).Idx) : q = ix2 (tblRow q) (0 : Fin 1) := by
  funext a
  match a with
  | ⟨0, _⟩ => exact Fin.ext rfl
  | ⟨1, _⟩ => exact Fin.ext (by have := idx2_lt1 q; show (q 1).val = 0; omega)

/-- On the row axis the target coordinate of update index `j` is the table's word for `j`'s row, read signed,
    whatever that word is: the start component comes from the table unclamped, and the window contributes nothing on
    an inserted axis. -/
theorem coord_row_word (d : ScatterDims (Opnd R C) (Tbl U) (Upd U C))
    (h1 : d.updateWindowDims = [1]) (h2 : d.insertedWindowDims = [0]) (h3 : d.scatterDimsToOperandDims = [0])
    (h4 : d.indexVectorDim = 1) (idx : IVec (Tbl U) w) (j : (Upd U C).Idx) :
    d.start j idx 0 + (d.window j 0 : Int) = (idx (ix2 (updRow j) (0 : Fin 1))).toInt := by
  obtain ⟨uw, iw, sd, iv, wf⟩ := d
  dsimp only at h1 h2 h3 h4
  subst h1 h2 h3 h4
  have m0 : (0 : Fin 2) ∈ ([0] : List (Fin 2)) := by decide
  have k0 : (0 : Fin 2) ∉ ScatterDims.sKept (⟨[1], [0], [0], 1, wf⟩ : ScatterDims (Opnd R C) (Tbl U) (Upd U C)) := by
    show (0 : Fin 2) ∉ (List.finRange 2).filter (fun x => decide (x ∉ ([0] : List (Fin 2))))
    decide
  simp only [ScatterDims.start, ScatterDims.window]
  rw [dif_pos m0, dif_neg k0]
  simp only [Nat.cast_zero, add_zero]
  refine congrArg (fun q => (idx q).toInt) ?_
  refine (tbl_eq _).trans ?_
  refine congrArg (fun r : Fin U => ix2 r (0 : Fin 1)) (Fin.ext ?_)
  -- the table index that update `j` reads has `j`'s row: the updates' one scatter axis is axis 0
  have hu : ScatterDims.uScatter (⟨[1], [0], [0], 1, wf⟩ : ScatterDims (Opnd R C) (Tbl U) (Upd U C)) = [0] := by
    show (List.finRange 2).filter (fun x => decide (x ∉ ([1] : List (Fin 2)))) = [0]
    decide
  simp only [tblRow, updRow, ScatterDims.siIdx]
  split
  · rename_i h
    exact absurd h Nat.zero_ne_one
  · unfold ScatterDims.siCoord
    simp only [Fin.coe_cast]
    exact congrArg (fun a => (j a).val) (getElem_of_eq_singleton _ 0 hu _ _)

/-- WHERE AN UPDATE LANDS, AND WHEN. Update index `j` lands at `(a, c)` exactly when the table's word for `j`'s row
    reads, signed, as `a` and `j`'s column is `c`. A word outside `[0, R)` reads as no `a : Fin R`: the update is
    dropped. -/
theorem resultIdx_eq_some_iff (d : ScatterDims (Opnd R C) (Tbl U) (Upd U C))
    (h1 : d.updateWindowDims = [1]) (h2 : d.insertedWindowDims = [0]) (h3 : d.scatterDimsToOperandDims = [0])
    (h4 : d.indexVectorDim = 1) (idx : IVec (Tbl U) w) (j : (Upd U C).Idx) (a : Fin R) (c : Fin C) :
    d.resultIdx? j idx = some (ix2 a c)
      ↔ (idx (ix2 (updRow j) (0 : Fin 1))).toInt = (a.val : Int) ∧ updCol j = c := by
  have c0 := coord_row_word d h1 h2 h3 h4 idx j
  have c1 := coord_col d h1 h2 h3 h4 idx j
  unfold ScatterDims.resultIdx?
  split
  · rename_i hall
    have p0 := (hall 0).1
    constructor
    · intro h
      have h' := Option.some.inj h
      have e0 : (d.start j idx 0 + (d.window j 0 : Int)).toNat = a.val := congrArg Fin.val (congrFun h' 0)
      have e1 : (d.start j idx 1 + (d.window j 1 : Int)).toNat = c.val := congrArg Fin.val (congrFun h' 1)
      refine ⟨?_, Fin.ext ?_⟩
      · rw [← c0]; omega
      · show (j 1).val = c.val
        rw [c1] at e1; omega
    · rintro ⟨hr, hc⟩
      refine congrArg some (funext ?_)
      refine Fin.forall_fin_two.2 ⟨?_, ?_⟩
      · apply Fin.ext
        show (d.start j idx 0 + (d.window j 0 : Int)).toNat = a.val
        rw [c0, hr, Int.toNat_natCast]
      · apply Fin.ext
        show (d.start j idx 1 + (d.window j 1 : Int)).toNat = c.val
        rw [c1, Int.toNat_natCast, ← hc]
  · rename_i hall
    constructor
    · intro h
      exact absurd h (by simp)
    · rintro ⟨hr, hc⟩
      refine absurd ?_ hall
      refine Fin.forall_fin_two.2 ⟨?_, ?_⟩
      · rw [c0, hr]
        exact ⟨Int.natCast_nonneg _, by exact_mod_cast a.isLt⟩
      · rw [c1]
        exact ⟨Int.natCast_nonneg _, by exact_mod_cast idx2_lt1 j⟩

/-- THE SCATTER READ AT AN INDEX, with no hypothesis on the table: the operand's element plus the sum, over the update
    rows `r` whose word reads signed as this row, of the update's element in this column. -/
theorem scatterAdd_rows_drop (d : ScatterDims (Opnd R C) (Tbl U) (Upd U C))
    (h1 : d.updateWindowDims = [1]) (h2 : d.insertedWindowDims = [0]) (h3 : d.scatterDimsToOperandDims = [0])
    (h4 : d.indexVectorDim = 1) (idx : IVec (Tbl U) w)
    (x : (Opnd R C).Idx → EReal) (upd : (Upd U C).Idx → EReal) (a : Fin R) (c : Fin C) :
    Ideal.hostScatterAdd d x idx upd (ix2 a c)
      = x (ix2 a c)
        + ∑ r ∈ Finset.univ.filter (fun r : Fin U => (idx (ix2 r (0 : Fin 1))).toInt = (a.val : Int)), upd (ix2 r c) := by
  unfold Ideal.hostScatterAdd
  refine congrArg (x (ix2 a c) + ·) ?_
  refine Finset.sum_bij' (fun j _ => updRow j) (fun r _ => ix2 r c) ?_ ?_ ?_ ?_ ?_
  · intro j hj
    rw [Finset.mem_filter] at hj ⊢
    exact ⟨Finset.mem_univ _, ((resultIdx_eq_some_iff d h1 h2 h3 h4 idx j a c).1 hj.2).1⟩
  · intro r hr
    rw [Finset.mem_filter] at hr ⊢
    refine ⟨Finset.mem_univ _, (resultIdx_eq_some_iff d h1 h2 h3 h4 idx (ix2 r c) a c).2 ⟨?_, Fin.ext rfl⟩⟩
    exact hr.2
  · intro j hj
    rw [Finset.mem_filter] at hj
    have hc : updCol j = c := ((resultIdx_eq_some_iff d h1 h2 h3 h4 idx j a c).1 hj.2).2
    conv_rhs => rw [eq_ix2 j]
    refine congrArg₂ ix2 (Fin.ext rfl) ?_
    exact Fin.ext (by rw [← hc])
  · intro r _
    exact Fin.ext rfl
  · intro j hj
    rw [Finset.mem_filter] at hj
    have hc : updCol j = c := ((resultIdx_eq_some_iff d h1 h2 h3 h4 idx j a c).1 hj.2).2
    refine congrArg upd ?_
    conv_lhs => rw [eq_ix2 j]
    refine congrArg₂ ix2 (Fin.ext rfl) ?_
    exact Fin.ext (by rw [← hc])

/-! ## The row gather at an index -/

section Gather
variable {α : Type}

/-- The row a gather reads for update row `r`: the table's word read signed and clamped into `[0, R - 1]`. It does
    not depend on the width of the operand. -/
def gRow (hR : 0 < R) (idx : IVec (Tbl U) w) (r : Fin U) : Fin R :=
  ⟨min (idx (ix2 r (0 : Fin 1))).toInt.toNat (R - 1), by omega⟩

/-- THE ROW GATHER READ AT AN INDEX: result index `(r, c)` reads the operand at `(gRow r, c)`, for any width `C`:
    on the row axis the clamped start and nothing else (the axis is collapsed), on the column axis the offset
    coordinate and nothing else (no start component goes there). -/
theorem gather_rows_apply (hR : 0 < R) (d : GatherDims (Opnd R C) (Tbl U) (Upd U C))
    (g1 : d.offsetDims = [1]) (g2 : d.collapsedSliceDims = [0]) (g3 : d.operandBatchingDims = [])
    (g5 : d.startIndexMap = [0]) (g6 : d.indexVectorDim = 1) (g7 : d.sliceSizes = ![1, C])
    (x : (Opnd R C).Idx → α) (idx : IVec (Tbl U) w) (r : Fin U) (c : Fin C) :
    Host.gather d x idx (ix2 r c) = x (ix2 (gRow hR idx r) c) := by
  obtain ⟨od, cd, ob, sb, sm, iv, ss, wf⟩ := d
  dsimp only at g1 g2 g3 g5 g6 g7
  subst g1 g2 g3 g5 g6 g7
  unfold Host.gather
  refine congrArg x (funext ?_)
  refine Fin.forall_fin_two.2 ⟨?_, ?_⟩
  · apply Fin.ext
    show GatherDims.start _ (ix2 r c) idx 0 + GatherDims.batchCoord _ (ix2 r c) 0 + GatherDims.offCoord _ (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ ([0] : List (Fin 2)) from List.mem_singleton.mpr rfl)]
    refine congrArg (fun q => min (idx q).toInt.toNat (R - 1)) ?_
    funext b
    refine Fin.ext ?_
    match b with
    | ⟨0, _⟩ => rfl
    | ⟨1, _⟩ => rfl
  · apply Fin.ext
    show GatherDims.start _ (ix2 r c) idx 1 + GatherDims.batchCoord _ (ix2 r c) 1 + GatherDims.offCoord _ (ix2 r c) 1 = c.val
    rw [GatherDims.batchCoord_eq_zero _ _ _ List.not_mem_nil]
    unfold GatherDims.start
    rw [dif_neg (show (1 : Fin 2) ∉ ([0] : List (Fin 2)) by decide)]
    simp only [Nat.zero_add, Nat.add_zero]
    rfl

end Gather

/-! ## The scatter of a gather -/

/-- THE NEIGHBOUR SUM AT AN INDEX. Gathering the rows of `X` at the table `src` and adding them into `z` at the
    table `dst` gives, at `(a, c)`, `z (a, c)` plus the sum over the update rows `r` whose `dst` word reads signed
    as `a` of `X (gRow src r, c)`. Neither the set of rows nor `gRow src r` mentions the width `C`. -/
theorem scatter_gather_rows {w' : Nat} (hR : 0 < R)
    (ds : ScatterDims (Opnd R C) (Tbl U) (Upd U C))
    (h1 : ds.updateWindowDims = [1]) (h2 : ds.insertedWindowDims = [0]) (h3 : ds.scatterDimsToOperandDims = [0])
    (h4 : ds.indexVectorDim = 1)
    (dg : GatherDims (Opnd R C) (Tbl U) (Upd U C))
    (g1 : dg.offsetDims = [1]) (g2 : dg.collapsedSliceDims = [0]) (g3 : dg.operandBatchingDims = [])
    (g5 : dg.startIndexMap = [0]) (g6 : dg.indexVectorDim = 1) (g7 : dg.sliceSizes = ![1, C])
    (z X : (Opnd R C).Idx → EReal) (dst : IVec (Tbl U) w) (src : IVec (Tbl U) w') (a : Fin R) (c : Fin C) :
    Ideal.hostScatterAdd ds z dst (Host.gather dg X src) (ix2 a c)
      = z (ix2 a c)
        + ∑ r ∈ Finset.univ.filter (fun r : Fin U => (dst (ix2 r (0 : Fin 1))).toInt = (a.val : Int)),
            X (ix2 (gRow hR src r) c) := by
  rw [scatterAdd_rows_drop ds h1 h2 h3 h4 dst z (Host.gather dg X src) a c]
  refine congrArg (z (ix2 a c) + ·) (Finset.sum_congr rfl fun r _ => ?_)
  exact gather_rows_apply hR dg g1 g2 g3 g5 g6 g7 X src r c

/-- At the exact instance the host's accumulating scatter is the exact sum (the instance's field, by definition). -/
theorem scatterAdd_ideal {s si u : Shape} {w : Nat} {φ : FTy} (d : ScatterDims s si u) (x : FVec Ideal s φ)
    (idx : IVec si w) (upd : FVec Ideal u φ) :
    Host.scatterAdd (F := Ideal) (φ := φ) d x idx upd = Ideal.hostScatterAdd d x idx upd := rfl

/-- THE NEIGHBOUR SUM AT AN INDEX, as the host operations spell it at the exact instance. -/
theorem host_scatter_gather_rows {w' : Nat} {φ : FTy} (hR : 0 < R)
    (ds : ScatterDims (Opnd R C) (Tbl U) (Upd U C))
    (h1 : ds.updateWindowDims = [1]) (h2 : ds.insertedWindowDims = [0]) (h3 : ds.scatterDimsToOperandDims = [0])
    (h4 : ds.indexVectorDim = 1)
    (dg : GatherDims (Opnd R C) (Tbl U) (Upd U C))
    (g1 : dg.offsetDims = [1]) (g2 : dg.collapsedSliceDims = [0]) (g3 : dg.operandBatchingDims = [])
    (g5 : dg.startIndexMap = [0]) (g6 : dg.indexVectorDim = 1) (g7 : dg.sliceSizes = ![1, C])
    (z X : FVec Ideal (Opnd R C) φ) (dst : IVec (Tbl U) w) (src : IVec (Tbl U) w') (a : Fin R) (c : Fin C) :
    Host.scatterAdd (F := Ideal) (φ := φ) ds z dst (Host.gather dg X src) (ix2 a c)
      = z (ix2 a c)
        + ∑ r ∈ Finset.univ.filter (fun r : Fin U => (dst (ix2 r (0 : Fin 1))).toInt = (a.val : Int)),
            X (ix2 (gRow hR src r) c) := by
  rw [scatterAdd_ideal]
  exact scatter_gather_rows hR ds h1 h2 h3 h4 dg g1 g2 g3 g5 g6 g7 z X dst src a c

end ScatterDrop

end
-- ==== Proof.LibGatherVec.lean ====
/-
  A vector gather read at an index, the two spreads that carry a per-row factor into a two-axis array, a signed word
  that a "negative index" wrap leaves alone, and the reciprocal square root of a clipped degree as a scale.

  The vector gather: the operand is a vector of `R` entries, the index table has `U` rows and one column, the result is
  a vector of `U` entries (no offset axis, the operand's one axis collapsed, the one start component for that axis,
  slices of one entry). Result entry `r` is the operand's entry at the table's word for row `r`, read signed and
  clamped into `[0, R - 1]` — the same row `gRow` the row gather of a two-axis operand reads.

  The spreads: a vector of `n` entries stood up as an `[n, 1]` column, and an `[n, 1]` column spread along the rows to
  `[n, b]`, read at coordinates (for `n ≠ 1`, so that the row axis is a copied axis and not a size-one axis).

  The wrap: `select (x <ₛ 0) (x + k) x` is `x` for a word that reads signed as a non-negative number.

  The scale: for any extended real `y ≥ 1` the reciprocal square root is a non-negative extended real other than `⊤`
  (`⊤ ↦ 0`, a real `r ≥ 1` to `1 / √r`), hence a factor that distributes over sums of extended reals.
-/
import proofs.«109714_j30313879175390_1_alg».proof.Proof.LibScatterDrop

noncomputable section

namespace GatherVec

open Idealize.ShloMosaic Idealize.ShloMosaic.ValueIdx ScatterRows

/-- A vector's shape. -/
abbrev Vec1 (n : Nat) : Shape := ⟨1, ![n]⟩

variable {R U n b w : Nat} {α : Type}

/-- THE VECTOR GATHER READ AT AN INDEX: result entry `r` reads the operand at `gRow r`: the clamped start and nothing
    else, the operand's one axis being collapsed. -/
theorem gather_vec_apply (hR : 0 < R) (d : GatherDims (Vec1 R) (Tbl U) (Vec1 U))
    (g1 : d.offsetDims = []) (g2 : d.collapsedSliceDims = [0]) (g3 : d.operandBatchingDims = [])
    (g5 : d.startIndexMap = [0]) (g6 : d.indexVectorDim = 1) (g7 : d.sliceSizes = ![1])
    (x : (Vec1 R).Idx → α) (idx : IVec (Tbl U) w) (r : Fin U) :
    Host.gather d x idx (ix1 r) = x (ix1 (ScatterDrop.gRow hR idx r)) := by
  obtain ⟨od, cd, ob, sb, sm, iv, ss, wf⟩ := d
  dsimp only at g1 g2 g3 g5 g6 g7
  subst g1 g2 g3 g5 g6 g7
  unfold Host.gather
  refine congrArg x (funext fun a => ?_)
  match a with
  | ⟨0, _⟩ =>
    apply Fin.ext
    show GatherDims.start _ (ix1 r) idx 0 + GatherDims.batchCoord _ (ix1 r) 0 + GatherDims.offCoord _ (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ ([0] : List (Fin 1)) from List.mem_singleton.mpr rfl)]
    refine congrArg (fun q => min (idx q).toInt.toNat (R - 1)) ?_
    funext c
    refine Fin.ext ?_
    match c with
    | ⟨0, _⟩ => rfl
    | ⟨1, _⟩ => rfl

/-- A vector stood up as a column, read at `(r, 0)`, is the vector's entry `r`. -/
theorem column_apply (hn : n ≠ 1) (h : (Vec1 n).BroadcastsInDim (⟨2, ![n, 1]⟩ : Shape) (![0] : Fin 1 → Fin 2))
    (v : (Vec1 n).Idx → α) (r : Fin n) (z : Fin 1) :
    broadcastInDim (⟨2, ![n, 1]⟩ : Shape) ![0] h v (ix2 r z) = v (ix1 r) := by
  unfold broadcastInDim
  refine congrArg v (funext fun a => ?_)
  match a with
  | ⟨0, _⟩ =>
    split
    · rename_i h1; exact absurd h1 hn
    · exact Fin.ext rfl

/-- A column spread along the rows, read at `(r, c)`, is the column's entry `(r, 0)`. -/
theorem spread_apply (hn : n ≠ 1) (h : (⟨2, ![n, 1]⟩ : Shape).BroadcastsInDim (⟨2, ![n, b]⟩ : Shape) (![0, 1] : Fin 2 → Fin 2))
    (v : (⟨2, ![n, 1]⟩ : Shape).Idx → α) (r : Fin n) (c : Fin b) :
    broadcastInDim (⟨2, ![n, b]⟩ : Shape) ![0, 1] h v (ix2 r c) = v (ix2 r (0 : Fin 1)) := by
  unfold broadcastInDim
  refine congrArg v (funext fun a => ?_)
  match a with
  | ⟨0, _⟩ =>
    split
    · rename_i h1; exact absurd h1 hn
    · exact Fin.ext rfl
  | ⟨1, _⟩ =>
    split
    · exact Fin.ext rfl
    · rename_i h1; exact absurd rfl h1

/-- A per-row factor carried into a two-axis array: the vector's entry `r` at every column of row `r`. -/
theorem spread_column_apply (hn : n ≠ 1) (h1 : (Vec1 n).BroadcastsInDim (⟨2, ![n, 1]⟩ : Shape) (![0] : Fin 1 → Fin 2))
    (h2 : (⟨2, ![n, 1]⟩ : Shape).BroadcastsInDim (⟨2, ![n, b]⟩ : Shape) (![0, 1] : Fin 2 → Fin 2))
    (v : (Vec1 n).Idx → α) (r : Fin n) (c : Fin b) :
    broadcastInDim (⟨2, ![n, b]⟩ : Shape) ![0, 1] h2 (broadcastInDim (⟨2, ![n, 1]⟩ : Shape) ![0] h1 v) (ix2 r c) = v (ix1 r) := by
  rw [spread_apply hn h2, column_apply hn h1]

/-- A word that reads signed as a non-negative number is not below zero, so the wrap keeps it. -/
theorem wrap_of_nonneg (x k : BitVec 32) (hx : 0 ≤ x.toInt) :
    Scalar.select (IntOp.cmpi .slt x 0#32) (IntOp.addi x k) x = x := by
  have hs : x.slt 0#32 = false := by
    rw [BitVec.slt_eq_decide]
    simp only [BitVec.toInt_zero, decide_eq_false_iff_not, not_lt]
    exact hx
  unfold Scalar.select IntOp.cmpi
  simp only [hs]
  rw [if_neg (by decide)]

/-- The reciprocal square root of an extended real that is at least `1` is a non-negative extended real other than `⊤`. -/
theorem rsqrt_scale {y : EReal} (hy : 1 ≤ y) : 0 ≤ Ideal.rsqrt y ∧ Ideal.rsqrt y ≠ ⊤ := by
  induction y using EReal.rec with
  | bot => exact absurd hy (not_le.mpr (by exact_mod_cast EReal.bot_lt_coe 1))
  | top => exact ⟨le_of_eq Ideal.rsqrt_top.symm, by rw [Ideal.rsqrt_top]; exact EReal.zero_ne_top⟩
  | coe r =>
    have hr : (1 : ℝ) ≤ r := by exact_mod_cast hy
    have h0 : ¬ r < 0 := not_lt.mpr (le_trans zero_le_one hr)
    have h1 : ¬ r = 0 := fun h => by rw [h] at hr; exact absurd hr (by norm_num)
    rw [Ideal.rsqrt_coe, if_neg h0, if_neg h1]
    refine ⟨?_, EReal.coe_ne_top _⟩
    exact_mod_cast inv_nonneg.mpr (Real.sqrt_nonneg r)

end GatherVec

end
-- ==== Proof.LibWordTables.lean ====
/-
  One-column index tables as functions of their words.

  A gather or scatter by rows reads a table with one column, one word per row. Programs build such a table from a
  vector of words: they stand the vector up as a column, often after wrapping negative words by an extent `k`
  (`x ↦ if x <ₛ 0 then x + k else x`, the compare and the sum against `0` and `k` spread over the vector).
  Read at a row both constructions are plain functions of that row's word: `colTbl x` and `wrapTbl k x`. The row a
  gather reads depends only on the table's word for that row, so two tables (of any two heights) that hold the same
  word at two rows send those rows to the same place.
-/
import proofs.«109714_j30313879175390_1_alg».proof.Proof.LibGatherVec
import Idealize.ShloMosaic.Lib.Pipeline.Value

noncomputable section

namespace WordTables

open Idealize.ShloMosaic Idealize.ShloMosaic.ValueIdx ScatterRows ScatterDrop GatherVec

variable {U U' R : Nat}

/-- A word with the negative-index wrap by `k`. -/
def wrapWord (k x : BitVec 32) : BitVec 32 := Scalar.select (IntOp.cmpi .slt x 0#32) (IntOp.addi x k) x

/-- The table whose row `r` holds word `r` of the vector. -/
def colTbl (x : IVec (Vec1 U) 32) : IVec (Tbl U) 32 := fun q => x (ix1 (tblRow q))

/-- The table whose row `r` holds word `r` of the vector, wrapped by `k`. -/
def wrapTbl (k : BitVec 32) (x : IVec (Vec1 U) 32) : IVec (Tbl U) 32 := fun q => wrapWord k (x (ix1 (tblRow q)))

theorem colTbl_apply (x : IVec (Vec1 U) 32) (r : Fin U) : colTbl x (ix2 r (0 : Fin 1)) = x (ix1 r) := rfl

theorem wrapTbl_apply (k : BitVec 32) (x : IVec (Vec1 U) 32) (r : Fin U) :
    wrapTbl k x (ix2 r (0 : Fin 1)) = wrapWord k (x (ix1 r)) := rfl

/-- A vector stood up as a column is `colTbl`. -/
theorem column_eq (hU : U ≠ 1) (h : (Vec1 U).BroadcastsInDim (Tbl U) (![0] : Fin 1 → Fin 2)) (x : IVec (Vec1 U) 32) :
    broadcastInDim (Tbl U) ![0] h x = colTbl x := by
  funext q
  rw [tbl_eq q]
  exact column_apply hU h x (tblRow q) 0

/-- A scalar word spread over a vector, read at an entry. -/
theorem splat_apply (h : (⟨0, ![]⟩ : Shape).BroadcastsInDim (Vec1 U) (![] : Fin 0 → Fin 1)) (k : BitVec 32)
    (i : (Vec1 U).Idx) : broadcastInDim (Vec1 U) ![] h (constantI ⟨0, ![]⟩ 32 k) i = k :=
  (broadcastInDim_apply _ h (constantI ⟨0, ![]⟩ 32 k) i (fun a => a.elim0) (fun a => a.elim0)).trans rfl

/-- The wrapped vector stood up as a column is `wrapTbl`. -/
theorem wrap_column_eq (hU : U ≠ 1) (h : (Vec1 U).BroadcastsInDim (Tbl U) (![0] : Fin 1 → Fin 2))
    (h0 : (⟨0, ![]⟩ : Shape).BroadcastsInDim (Vec1 U) (![] : Fin 0 → Fin 1)) (k : BitVec 32) (x : IVec (Vec1 U) 32) :
    broadcastInDim (Tbl U) ![0] h
        (select (cmpi .slt x (broadcastInDim (Vec1 U) ![] h0 (constantI ⟨0, ![]⟩ 32 0#32)))
          (addi x (broadcastInDim (Vec1 U) ![] h0 (constantI ⟨0, ![]⟩ 32 k))) x)
      = wrapTbl k x := by
  rw [column_eq hU h]
  funext q
  show Scalar.select (IntOp.cmpi .slt (x (ix1 (tblRow q))) (broadcastInDim (Vec1 U) ![] h0 (constantI ⟨0, ![]⟩ 32 0#32) (ix1 (tblRow q))))
      (IntOp.addi (x (ix1 (tblRow q))) (broadcastInDim (Vec1 U) ![] h0 (constantI ⟨0, ![]⟩ 32 k) (ix1 (tblRow q))))
      (x (ix1 (tblRow q))) = _
  rw [splat_apply h0 0#32, splat_apply h0 k]
  rfl

/-- The row a gather reads depends only on the table's word for that row. -/
theorem gRow_congr (hR : 0 < R) {w : Nat} (idx : IVec (Tbl U) w) (idx' : IVec (Tbl U') w) (r : Fin U) (r' : Fin U')
    (h : idx (ix2 r (0 : Fin 1)) = idx' (ix2 r' (0 : Fin 1))) : gRow hR idx r = gRow hR idx' r' := by
  unfold gRow
  exact Fin.ext (by show min _ _ = min _ _; rw [h])

end WordTables

end
-- ==== Proof.LibScaleSum.lean ====
/-
  A non-negative finite scale moved across a finite sum of extended reals, and a clipped power that is such a scale.

  The extended reals are not a ring: a product distributes over a sum only under side conditions, because
  `⊤ + ⊥ = ⊥` while a negative or infinite factor can turn the two summands round.  A factor `c` with `0 ≤ c` and
  `c ≠ ⊤` does distribute over every sum, finite or not in its terms, and so it may be moved from outside a
  contraction `(∑ₖ aₖ · wₖ) · c` onto one factor of each term, `∑ₖ (aₖ · c) · wₖ`: the step between normalising
  the rows of a matrix product after the product and normalising the rows of its left factor before it.

  The scale met with in degree normalisation is `(max 1 d) ^ (-1/2)`.  Whatever `d` is — a count, or `⊤` — the base
  is at least `1`, and the power is a non-negative real: `⊤ ^ (-1/2) = 0`, and a real base `x ≥ 1` gives `x ^ (-1/2)`
  in `(0, 1]`.
-/
import Idealize.ShloMosaic.PureOps.Ideal

noncomputable section

namespace Cert.ScaleSum

open Idealize.ShloMosaic

/-- A factor `c` with `0 ≤ c`, `c ≠ ⊤` distributes over a finite sum of extended reals from the right. -/
theorem sum_mul_of_nonneg_of_ne_top {K : Type*} (s : Finset K) (f : K → EReal) {c : EReal} (h0 : 0 ≤ c) (ht : c ≠ ⊤) :
    (∑ k ∈ s, f k) * c = ∑ k ∈ s, f k * c := by
  classical
  induction s using Finset.induction_on with
  | empty => simp
  | insert a s ha ih =>
    rw [Finset.sum_insert ha, Finset.sum_insert ha, EReal.right_distrib_of_nonneg_of_ne_top h0 ht, ih]

/-- The scale moved across a contraction: `(∑ₖ aₖ · wₖ) · c = ∑ₖ (aₖ · c) · wₖ` for `0 ≤ c`, `c ≠ ⊤`. -/
theorem contraction_mul_scale {K : Type*} [Fintype K] (a w : K → EReal) {c : EReal} (h0 : 0 ≤ c) (ht : c ≠ ⊤) :
    (∑ k, a k * w k) * c = ∑ k, (a k * c) * w k := by
  rw [sum_mul_of_nonneg_of_ne_top _ _ h0 ht]
  exact Finset.sum_congr rfl fun k _ => mul_right_comm _ _ _

/-- The f32 pattern of `1.0` denotes `1`. -/
theorem ofBits_one : Ideal.ofBits .f32 0x3F800000#32 = 1 := by
  simp [Ideal.ofBits, Ideal.ieee, -EReal.coe_mul]; norm_num

/-- The f32 pattern of `-0.5` denotes the real `-1/2`. -/
theorem ofBits_neg_half : Ideal.ofBits .f32 0xBF000000#32 = ((-(1 / 2) : ℝ) : EReal) := by
  simp [Ideal.ofBits, Ideal.ieee, -EReal.coe_mul]; norm_num

/-- A base of at least `1` raised to a negative real is a non-negative extended real other than `⊤`. -/
theorem pow_nonneg_ne_top_of_one_le {x : EReal} (hx : 1 ≤ x) {y : ℝ} (hy : y < 0) :
    0 ≤ Ideal.pow x (y : EReal) ∧ Ideal.pow x (y : EReal) ≠ ⊤ := by
  induction x using EReal.rec with
  | bot => exact absurd hx (not_le.mpr (by exact_mod_cast EReal.bot_lt_coe 1))
  | top =>
    have h1 : ¬ (0 : EReal) < (y : EReal) := by
      rw [not_lt]; exact_mod_cast hy.le
    have h2 : ¬ ((y : EReal) = 0) := by
      exact_mod_cast hy.ne
    rw [Ideal.pow_top, if_neg h1, if_neg h2]
    exact ⟨le_refl _, EReal.zero_ne_top⟩
  | coe r =>
    have hr : (1 : ℝ) ≤ r := by exact_mod_cast hx
    rw [Ideal.pow_coe_coe]
    refine ⟨?_, EReal.coe_ne_top _⟩
    exact_mod_cast Real.rpow_nonneg (le_trans zero_le_one hr) y

/-- The degree normalisation `(max 1.0 d) ^ (-0.5)`, spelt with the f32 patterns, is a scale that distributes. -/
theorem clipped_pow_scale (d : EReal) :
    0 ≤ Ideal.pow (max (Ideal.ofBits .f32 0x3F800000#32) d) (Ideal.ofBits .f32 0xBF000000#32)
    ∧ Ideal.pow (max (Ideal.ofBits .f32 0x3F800000#32) d) (Ideal.ofBits .f32 0xBF000000#32) ≠ ⊤ := by
  rw [ofBits_one, ofBits_neg_half]
  exact pow_nonneg_ne_top_of_one_le (le_max_left _ _) (by norm_num)

end Cert.ScaleSum

end
-- ==== Proof.Algebra.lean ====
/-
  The algebra joining two arrangements of a symmetrically normalised neighbour sum, over the extended reals.

  One propagation step sends a node feature x to x'(n) = Σ_{e → n} (d(s e) · d(n)) · x(s e), the sum over the edges e
  arriving at n, s e the edge's source and d the reciprocal square root of the in-degree. The same step can be arranged
  as "scale every row by d, sum the scaled rows over the arriving edges, scale the sum by d(n)":
  d(n) · Σ_{e → n} d(s e) · x(s e). The two agree because d(n) is the same for all edges arriving at n and comes out of
  the sum. Over the extended reals a factor comes out of a sum only under a side condition (⊤ + ⊥ = ⊥, and a negative
  or infinite factor can turn the summands round); a factor c with 0 ≤ c and c ≠ ⊤ always does, whatever the terms are.
  The scale d(n) is such a factor: it is 0, or the reciprocal square root of a positive number.
-/
import proofs.«109714_j30313879175390_1_alg».proof.Proof.LibScaleSum

noncomputable section

namespace Cert.Gcn

open Idealize.ShloMosaic

/-- The reciprocal square root of a positive extended real is a non-negative extended real other than `⊤`:
    `⊤ ↦ 0`, and a real `r > 0` goes to `1 / √r`. -/
theorem rsqrt_scale_of_pos {y : EReal} (hy : 0 < y) : 0 ≤ Ideal.rsqrt y ∧ Ideal.rsqrt y ≠ ⊤ := by
  induction y using EReal.rec with
  | bot => exact absurd hy (not_lt.mpr bot_le)
  | top => exact ⟨le_of_eq Ideal.rsqrt_top.symm, by rw [Ideal.rsqrt_top]; exact EReal.zero_ne_top⟩
  | coe r =>
    have hr : (0 : ℝ) < r := by exact_mod_cast hy
    rw [Ideal.rsqrt_coe, if_neg (not_lt.mpr hr.le), if_neg hr.ne']
    refine ⟨?_, EReal.coe_ne_top _⟩
    exact_mod_cast inv_nonneg.mpr (Real.sqrt_nonneg r)

/-- ONE PROPAGATION STEP, the target's scale outside the sum against the target's scale inside every term:
    `dₙ · (0 + Σₑ dₛ(e) · x(e)) = 0 + Σₑ (dₛ(e) · dₙ) · x(e)` for `0 ≤ dₙ ≠ ⊤` and any extended reals `dₛ(e)`, `x(e)`. -/
theorem scale_neighbour_sum {ι : Type*} (T : Finset ι) {dn : EReal} (h0 : 0 ≤ dn) (ht : dn ≠ ⊤) (ds x : ι → EReal) :
    dn * (0 + ∑ e ∈ T, ds e * x e) = 0 + ∑ e ∈ T, (ds e * dn) * x e := by
  rw [zero_add, zero_add, mul_comm, Cert.ScaleSum.sum_mul_of_nonneg_of_ne_top _ _ h0 ht]
  exact Finset.sum_congr rfl fun e _ => mul_right_comm _ _ _

end Cert.Gcn

end
-- ==== Proof.Propagate.lean ====
/-
  One propagation step of a graph convolution read at an entry, in its two arrangements, for any numbers of nodes,
  features and edges.

  The edge list is two vectors of 32-bit words, ROW (sources) and COL (targets). Both arrangements add, into a zero
  array, one update row per edge at the row its COL word names (read signed; a word that names no row is dropped), the
  update row for edge e built from the source row that e's ROW word names after the negative-index wrap by k and the
  clamp into the array. So at (a, c) both are 0 plus a sum over the edges whose COL word reads as a:
    * the gathered arrangement sums the gathered rows themselves, Y (src e, c);
    * the weighted arrangement sums nrm(e) · X (src e, c), where nrm(e) = dv (src e) · dv (tgt e) comes from two vector
      gathers of dv, at the wrapped ROW word and at the wrapped COL word.
  On the edges arriving at a the wrapped and clamped COL word is a itself; and a ROW word in [0, R) names its own row
  whatever the wrap constant and the height of the array it indexes.
-/
import proofs.«109714_j30313879175390_1_alg».proof.Proof.LibWordTables
import proofs.«109714_j30313879175390_1_alg».proof.Proof.Algebra
import Idealize.ShloMosaic.Lib.IdealHost
import Idealize.ShloMosaic.Lib.Pipeline.Value

noncomputable section

namespace Cert.Gcn

open Idealize.ShloMosaic Idealize.ShloMosaic.ValueIdx ScatterRows ScatterDrop GatherVec WordTables

variable {R C U : Nat}

/-- The edges whose target word reads, signed, as the number `a`. -/
def nbrs (COL : IVec (Vec1 U) 32) (a : Nat) : Finset (Fin U) :=
  Finset.univ.filter fun e => (COL (ix1 e)).toInt = (a : Int)

/-- A zero splat reads `0` at every index. -/
theorem zero_splat {s : Shape} (hz : (⟨0, ![]⟩ : Shape).BroadcastsInDim s (![] : Fin 0 → Fin s.rank)) (i : s.Idx) :
    broadcastInDim s ![] hz (constant (F := Ideal) ⟨0, ![]⟩ .f32 0x00000000#32) i = 0 :=
  (broadcastInDim_apply _ hz (constant (F := Ideal) ⟨0, ![]⟩ .f32 0x00000000#32) i (fun a => a.elim0)
    (fun a => a.elim0)).trans Ideal.ofBits_zero_f32

/-- A vector of words, wrapped by `k` where negative, stood up as a one-column table: how both programs spell the
    table of a gather. -/
def wrapCol (hb : (Vec1 U).BroadcastsInDim (Tbl U) (![0] : Fin 1 → Fin 2))
    (hs : (⟨0, ![]⟩ : Shape).BroadcastsInDim (Vec1 U) (![] : Fin 0 → Fin 1)) (k : BitVec 32) (x : IVec (Vec1 U) 32) :
    IVec (Tbl U) 32 :=
  broadcastInDim (Tbl U) ![0] hb
    (select (cmpi .slt x (broadcastInDim (Vec1 U) ![] hs (constantI ⟨0, ![]⟩ 32 0#32)))
      (addi x (broadcastInDim (Vec1 U) ![] hs (constantI ⟨0, ![]⟩ 32 k))) x)

theorem wrapCol_eq (hU : U ≠ 1) (hb : (Vec1 U).BroadcastsInDim (Tbl U) (![0] : Fin 1 → Fin 2))
    (hs : (⟨0, ![]⟩ : Shape).BroadcastsInDim (Vec1 U) (![] : Fin 0 → Fin 1)) (k : BitVec 32) (x : IVec (Vec1 U) 32) :
    wrapCol hb hs k x = wrapTbl k x := wrap_column_eq hU hb hs k x

/-! ## Which row a word names -/

/-- A word that reads signed as the row `a` names `a`, after the wrap (it is not negative) and the clamp (it is a row). -/
theorem gRow_wrap_of_word (hR : 0 < R) (k : BitVec 32) (x : IVec (Vec1 U) 32) (e : Fin U) (a : Fin R)
    (h : (x (ix1 e)).toInt = (a.val : Int)) : gRow hR (wrapTbl k x) e = a := by
  have hw : wrapTbl k x (ix2 e (0 : Fin 1)) = x (ix1 e) := by
    rw [wrapTbl_apply]
    exact wrap_of_nonneg _ _ (by rw [h]; exact Int.natCast_nonneg _)
  unfold gRow
  apply Fin.ext
  show min (wrapTbl k x (ix2 e (0 : Fin 1))).toInt.toNat (R - 1) = a.val
  rw [hw, h, Int.toNat_natCast]
  have := a.isLt
  omega

/-- A word in `[0, R)` names the row of its own number, whatever the wrap constant. -/
theorem gRow_wrap_val_of_range (hR : 0 < R) (k : BitVec 32) (x : IVec (Vec1 U) 32) (e : Fin U)
    (h0 : 0 ≤ (x (ix1 e)).toInt) (h1 : (x (ix1 e)).toInt < (R : Int)) :
    (gRow hR (wrapTbl k x) e).val = (x (ix1 e)).toInt.toNat := by
  have hw : wrapTbl k x (ix2 e (0 : Fin 1)) = x (ix1 e) := by
    rw [wrapTbl_apply]
    exact wrap_of_nonneg _ _ h0
  unfold gRow
  show min (wrapTbl k x (ix2 e (0 : Fin 1))).toInt.toNat (R - 1) = _
  rw [hw]
  omega

/-! ## The two arrangements of a step, read at an entry -/

section Step
variable (hR : 0 < R) (hU : U ≠ 1)
  (ds : ScatterDims (Opnd R C) (Tbl U) (Upd U C))
  (h1 : ds.updateWindowDims = [1]) (h2 : ds.insertedWindowDims = [0]) (h3 : ds.scatterDimsToOperandDims = [0])
  (h4 : ds.indexVectorDim = 1)
  (dg : GatherDims (Opnd R C) (Tbl U) (Upd U C))
  (g1 : dg.offsetDims = [1]) (g2 : dg.collapsedSliceDims = [0]) (g3 : dg.operandBatchingDims = [])
  (g5 : dg.startIndexMap = [0]) (g6 : dg.indexVectorDim = 1) (g7 : dg.sliceSizes = ![1, C])
  (hb : (Vec1 U).BroadcastsInDim (Tbl U) (![0] : Fin 1 → Fin 2))
  (hs : (⟨0, ![]⟩ : Shape).BroadcastsInDim (Vec1 U) (![] : Fin 0 → Fin 1))
  (hz : (⟨0, ![]⟩ : Shape).BroadcastsInDim (Opnd R C) (![] : Fin 0 → Fin 2))

include hU h1 h2 h3 h4 g1 g2 g3 g5 g6 g7 in
/-- THE GATHERED ARRANGEMENT AT AN ENTRY: the rows of `Y` gathered at the wrapped ROW words and added into a zero array
    at the COL words give, at `(a, c)`, the sum over the edges arriving at `a` of `Y` at the edge's source row. -/
theorem gathered_sum (k : BitVec 32) (ROW COL : IVec (Vec1 U) 32) (Y : FVec Ideal (Opnd R C) .f32) (a : Fin R) (c : Fin C) :
    Host.scatterAdd (F := Ideal) (φ := .f32) ds
        (broadcastInDim (Opnd R C) ![] hz (constant (F := Ideal) ⟨0, ![]⟩ .f32 0x00000000#32))
        (broadcastInDim (Tbl U) ![0] hb COL) (Host.gather dg Y (wrapCol hb hs k ROW)) (ix2 a c)
      = 0 + ∑ e ∈ nbrs COL a.val, Y (ix2 (gRow hR (wrapTbl k ROW) e) c) := by
  rw [column_eq hU hb COL, wrapCol_eq hU hb hs k ROW,
    host_scatter_gather_rows hR ds h1 h2 h3 h4 dg g1 g2 g3 g5 g6 g7, zero_splat]
  rfl

include hU h1 h2 h3 h4 g1 g2 g3 g5 g6 g7 in
/-- THE WEIGHTED ARRANGEMENT AT AN ENTRY: each gathered row of `X` multiplied by its edge's weight `nrm e` (the weight
    vector stood up as a column and spread along the features) before it is added in. -/
theorem weighted_sum (hsp : (Tbl U).BroadcastsInDim (Upd U C) (![0, 1] : Fin 2 → Fin 2))
    (k : BitVec 32) (ROW COL : IVec (Vec1 U) 32) (nrm : FVec Ideal (Vec1 U) .f32) (X : FVec Ideal (Opnd R C) .f32)
    (a : Fin R) (c : Fin C) :
    Host.scatterAdd (F := Ideal) (φ := .f32) ds
        (broadcastInDim (Opnd R C) ![] hz (constant (F := Ideal) ⟨0, ![]⟩ .f32 0x00000000#32))
        (broadcastInDim (Tbl U) ![0] hb COL)
        (mulf (broadcastInDim (Upd U C) ![0, 1] hsp (broadcastInDim (Tbl U) ![0] hb nrm))
          (Host.gather dg X (wrapCol hb hs k ROW))) (ix2 a c)
      = 0 + ∑ e ∈ nbrs COL a.val, nrm (ix1 e) * X (ix2 (gRow hR (wrapTbl k ROW) e) c) := by
  rw [column_eq hU hb COL, wrapCol_eq hU hb hs k ROW, scatterAdd_ideal,
    scatterAdd_rows_drop ds h1 h2 h3 h4, zero_splat]
  refine congrArg (0 + ·) (Finset.sum_congr rfl fun e _ => ?_)
  rw [mulf_apply, spread_column_apply hU hb hsp, gather_rows_apply hR dg g1 g2 g3 g5 g6 g7]

end Step

/-- THE EDGE WEIGHT: the product of the scale vector gathered at the wrapped ROW word and at the wrapped COL word. -/
theorem weight_apply (hR : 0 < R) (hU : U ≠ 1) (dv : GatherDims (Vec1 R) (Tbl U) (Vec1 U))
    (v1 : dv.offsetDims = []) (v2 : dv.collapsedSliceDims = [0]) (v3 : dv.operandBatchingDims = [])
    (v5 : dv.startIndexMap = [0]) (v6 : dv.indexVectorDim = 1) (v7 : dv.sliceSizes = ![1])
    (hb : (Vec1 U).BroadcastsInDim (Tbl U) (![0] : Fin 1 → Fin 2))
    (hs : (⟨0, ![]⟩ : Shape).BroadcastsInDim (Vec1 U) (![] : Fin 0 → Fin 1))
    (k : BitVec 32) (ROW COL : IVec (Vec1 U) 32) (d : FVec Ideal (Vec1 R) .f32) (e : Fin U) :
    mulf (Host.gather dv d (wrapCol hb hs k ROW)) (Host.gather dv d (wrapCol hb hs k COL)) (ix1 e)
      = d (ix1 (gRow hR (wrapTbl k ROW) e)) * d (ix1 (gRow hR (wrapTbl k COL) e)) := by
  rw [mulf_apply, wrapCol_eq hU hb hs k ROW, wrapCol_eq hU hb hs k COL,
    gather_vec_apply hR dv v1 v2 v3 v5 v6 v7, gather_vec_apply hR dv v1 v2 v3 v5 v6 v7]

end Cert.Gcn

end
-- ==== Proof.Bridge.lean ====
/-
  One propagation step, the padded scaled arrangement against the weighted arrangement.

  The weighted arrangement works on N nodes: LR(n, j) = Σ_{e → n} (dv(s e) · dv(t e)) · xr(s e, j), with s e and t e the
  rows that e's ROW and COL words name in an array of N rows. The scaled arrangement works on NP ≥ N rows, the first N
  of them the nodes: it sums the rows Y = D · XK at the rows that the ROW words name in an array of NP rows, and scales
  the sum by D. When D is dv on the node rows, XK is xr on the node rows, every ROW word is a node (so it names the
  same row at either height), and dv(n) is a non-negative extended real other than ⊤, the two agree on the node rows:
  on the edges arriving at n the COL word names n itself, so dv(t e) = dv(n) there, and that factor comes out of the sum.
-/
import proofs.«109714_j30313879175390_1_alg».proof.Proof.Propagate

noncomputable section

namespace Cert.Gcn

open Idealize.ShloMosaic Idealize.ShloMosaic.ValueIdx ScatterRows ScatterDrop GatherVec WordTables

variable {N NP C U : Nat}

/-- A node as a row of the padded array. -/
def up (h : N ≤ NP) (n : Fin N) : Fin NP := ⟨n.val, lt_of_lt_of_le n.isLt h⟩

/-- A ROW word that is a node names the same row at the padded height and at the node count. -/
theorem src_up (hN : 0 < N) (hNP : 0 < NP) (hle : N ≤ NP) (kN kP : BitVec 32) (ROW : IVec (Vec1 U) 32) (e : Fin U)
    (h0 : 0 ≤ (ROW (ix1 e)).toInt) (h1 : (ROW (ix1 e)).toInt < (N : Int)) :
    gRow hNP (wrapTbl kP ROW) e = up hle (gRow hN (wrapTbl kN ROW) e) := by
  apply Fin.ext
  rw [gRow_wrap_val_of_range hNP kP ROW e h0 (lt_of_lt_of_le h1 (by exact_mod_cast hle))]
  exact (gRow_wrap_val_of_range hN kN ROW e h0 h1).symm

/-- THE STEP: on a node row the scaled arrangement's `D · SK` is the weighted arrangement's `LR`. -/
theorem bridge_step (hN : 0 < N) (hNP : 0 < NP) (hle : N ≤ NP) (kN kP : BitVec 32) (ROW COL : IVec (Vec1 U) 32)
    (hrow : ∀ e : Fin U, 0 ≤ (ROW (ix1 e)).toInt ∧ (ROW (ix1 e)).toInt < (N : Int))
    (dv : (Vec1 N).Idx → EReal) (hd0 : ∀ n, 0 ≤ dv (ix1 n)) (hdt : ∀ n, dv (ix1 n) ≠ ⊤)
    (D : (Opnd NP C).Idx → EReal) (hD : ∀ (n : Fin N) (j : Fin C), D (ix2 (up hle n) j) = dv (ix1 n))
    (XK Y SK : (Opnd NP C).Idx → EReal) (xr LR : (Opnd N C).Idx → EReal) (wgt : (Vec1 U).Idx → EReal)
    (hX : ∀ (n : Fin N) (j : Fin C), XK (ix2 (up hle n) j) = xr (ix2 n j))
    (hY : ∀ (r : Fin NP) (j : Fin C), Y (ix2 r j) = D (ix2 r j) * XK (ix2 r j))
    (hK : ∀ (a : Fin NP) (c : Fin C),
      SK (ix2 a c) = 0 + ∑ e ∈ nbrs COL a.val, Y (ix2 (gRow hNP (wrapTbl kP ROW) e) c))
    (hR : ∀ (a : Fin N) (c : Fin C),
      LR (ix2 a c) = 0 + ∑ e ∈ nbrs COL a.val, wgt (ix1 e) * xr (ix2 (gRow hN (wrapTbl kN ROW) e) c))
    (hW : ∀ e : Fin U, wgt (ix1 e) = dv (ix1 (gRow hN (wrapTbl kN ROW) e)) * dv (ix1 (gRow hN (wrapTbl kN COL) e)))
    (n : Fin N) (j : Fin C) :
    D (ix2 (up hle n) j) * SK (ix2 (up hle n) j) = LR (ix2 n j) := by
  rw [hK, hR, hD]
  have e1 : ∑ e ∈ nbrs COL (up hle n).val, Y (ix2 (gRow hNP (wrapTbl kP ROW) e) j)
      = ∑ e ∈ nbrs COL n.val, dv (ix1 (gRow hN (wrapTbl kN ROW) e)) * xr (ix2 (gRow hN (wrapTbl kN ROW) e) j) :=
    Finset.sum_congr rfl fun e _ => by
      rw [src_up hN hNP hle kN kP ROW e (hrow e).1 (hrow e).2, hY, hD, hX]
  rw [e1, scale_neighbour_sum _ (hd0 n) (hdt n)]
  refine congrArg (0 + ·) (Finset.sum_congr rfl fun e he => ?_)
  have ht : gRow hN (wrapTbl kN COL) e = n := gRow_wrap_of_word hN kN COL e n (Finset.mem_filter.mp he).2
  rw [hW, ht]

end Cert.Gcn

end
-- ==== Proof.LibPadHigh.lean ====
/-
  A rank-two array padded at its high ends, read at coordinates.

  Padding an [a, b] array with a constant after its last row and after its last column (no padding before the first,
  none between entries) gives an [a', b'] array.  Read at (r, s) with r < a and s < b it is the original entry (r, s);
  read at a column s ≥ b, or at a row r ≥ a, it is the padding constant.
-/
import Idealize.ShloMosaic.Lib.KernelVsHost
import Idealize.ShloMosaic.Lib.ValueIdx

namespace Cert.PadHigh

open Idealize.ShloMosaic Idealize.ShloMosaic.ValueIdx

variable {α : Type}

/-- Inside the original extents the padded array is the original array. -/
theorem pad_inside {a b a' b' : ℕ} (hi : Fin 2 → ℕ) (x : (⟨2, ![a, b]⟩ : Shape).Idx → α) {u : Shape} (v : u.Idx → α)
    (h : (⟨2, ![a, b]⟩ : Shape).Pads ![0, 0] hi ![0, 0] ⟨2, ![a', b']⟩) (hu : 0 < u.numel)
    (r : Fin a) (s : Fin b) (r' : Fin a') (s' : Fin b') (hr : r'.val = r.val) (hs : s'.val = s.val) :
    pad ⟨2, ![a', b']⟩ ![0, 0] hi ![0, 0] x v h hu (ix2 r' s') = x (ix2 r s) :=
  pad_apply_of_inside ![0, 0] hi ![0, 0] x v h hu (ix2 r' s') (ix2 r s) fun ax => by
    match ax with
    | ⟨0, _⟩ => show r'.val = 0 + r.val * (0 + 1); omega
    | ⟨1, _⟩ => show s'.val = 0 + s.val * (0 + 1); omega

/-- At a column past the original last column the padded array is the padding constant. -/
theorem pad_past_cols {a b a' b' : ℕ} (hi : Fin 2 → ℕ) (x : (⟨2, ![a, b]⟩ : Shape).Idx → α) {u : Shape} (v : u.Idx → α)
    (h : (⟨2, ![a, b]⟩ : Shape).Pads ![0, 0] hi ![0, 0] ⟨2, ![a', b']⟩) (hu : 0 < u.numel)
    (r' : Fin a') (s' : Fin b') (hs : b ≤ s'.val) :
    pad ⟨2, ![a', b']⟩ ![0, 0] hi ![0, 0] x v h hu (ix2 r' s') = v (Shape.Idx.first hu) :=
  pad_apply_of_not_inside ![0, 0] hi ![0, 0] x v h hu (ix2 r' s') (1 : Fin 2) (by
    show ¬(0 ≤ s'.val ∧ (s'.val - 0) % (0 + 1) = 0 ∧ (s'.val - 0) / (0 + 1) < b)
    omega)

/-- At a row past the original last row the padded array is the padding constant. -/
theorem pad_past_rows {a b a' b' : ℕ} (hi : Fin 2 → ℕ) (x : (⟨2, ![a, b]⟩ : Shape).Idx → α) {u : Shape} (v : u.Idx → α)
    (h : (⟨2, ![a, b]⟩ : Shape).Pads ![0, 0] hi ![0, 0] ⟨2, ![a', b']⟩) (hu : 0 < u.numel)
    (r' : Fin a') (s' : Fin b') (hr : a ≤ r'.val) :
    pad ⟨2, ![a', b']⟩ ![0, 0] hi ![0, 0] x v h hu (ix2 r' s') = v (Shape.Idx.first hu) :=
  pad_apply_of_not_inside ![0, 0] hi ![0, 0] x v h hu (ix2 r' s') (0 : Fin 2) (by
    show ¬(0 ≤ r'.val ∧ (r'.val - 0) % (0 + 1) = 0 ∧ (r'.val - 0) / (0 + 1) < a)
    omega)

end Cert.PadHigh
-- ==== Proof.LibAxis0.lean ====
/-
  Four small reads at an index, over any extents.

  * An [a, b] array and an [a, 1] column concatenated along axis 1 to [a, c]: a column below b reads the array, column b
    reads the column.
  * A vector of a entries padded after its last entry only, read inside the original extent: the original entry.
  * The host's reduce-add over axis 0 of an [a, b] array from a zero initial value, read at column c, and a kernel's
    multi_reduction add over axis 0 from a zero accumulator, read at column c: both are the sum over the a rows of the
    entries (k, c), on the extended reals.
-/
import Idealize.ShloMosaic.Lib.Pipeline.Value
import Idealize.ShloMosaic.Lib.ValueIdx
import Idealize.ShloMosaic.Lib.KernelVsHost
import Idealize.ShloMosaic.PureOps.Ideal.Laws

noncomputable section

namespace Axis0

open Idealize.ShloMosaic Idealize.ShloMosaic.ValueIdx

variable {α : Type}

/-- An [a, b] array with an [a, 1] column put after it, read in a column below b: the array's entry. -/
theorem cat_left {a b c : ℕ} (x0 : (⟨2, ![a, b]⟩ : Shape).Idx → α) (x1 : (⟨2, ![a, 1]⟩ : Shape).Idx → α)
    (h : Shape.Concatenates [(⟨2, ![a, b]⟩ : Shape), ⟨2, ![a, 1]⟩] ⟨2, ![a, c]⟩ 1) (r : Fin a) (k : Fin c) (hk : k.val < b) :
    concatenate ⟨2, ![a, c]⟩ 1 [⟨⟨2, ![a, b]⟩, x0⟩, ⟨⟨2, ![a, 1]⟩, x1⟩] h (ix2 r k) = x0 (ix2 r (⟨k.val, hk⟩ : Fin b)) :=
  concatenate_pair_apply_left 1 x0 x1 h (ix2 r k) rfl (ix2 r (⟨k.val, hk⟩ : Fin b)) fun ax => by
    match ax with
    | ⟨0, _⟩ => rfl
    | ⟨1, _⟩ => rfl

/-- The same read in column b: the column's entry. -/
theorem cat_right {a b c : ℕ} (x0 : (⟨2, ![a, b]⟩ : Shape).Idx → α) (x1 : (⟨2, ![a, 1]⟩ : Shape).Idx → α)
    (h : Shape.Concatenates [(⟨2, ![a, b]⟩ : Shape), ⟨2, ![a, 1]⟩] ⟨2, ![a, c]⟩ 1) (r : Fin a) (k : Fin c) (hk : k.val = b) :
    concatenate ⟨2, ![a, c]⟩ 1 [⟨⟨2, ![a, b]⟩, x0⟩, ⟨⟨2, ![a, 1]⟩, x1⟩] h (ix2 r k) = x1 (ix2 r (0 : Fin 1)) :=
  concatenate_pair_apply_right 1 x0 x1 h (ix2 r k) rfl rfl (ix2 r (0 : Fin 1)) (fun ax hax => by
    match ax with
    | ⟨0, _⟩ => rfl
    | ⟨1, _⟩ => exact absurd rfl hax) (by show 0 + b = k.val; omega)

/-- A vector padded after its last entry, read inside the original extent: the original entry. -/
theorem pad1_inside {a a' : ℕ} (hi : Fin 1 → ℕ) (x : (⟨1, ![a]⟩ : Shape).Idx → α) {u : Shape} (v : u.Idx → α)
    (h : (⟨1, ![a]⟩ : Shape).Pads ![0] hi ![0] ⟨1, ![a']⟩) (hu : 0 < u.numel) (r : Fin a) (r' : Fin a')
    (hr : r'.val = r.val) :
    pad ⟨1, ![a']⟩ ![0] hi ![0] x v h hu (ix1 r') = x (ix1 r) :=
  pad_apply_of_inside ![0] hi ![0] x v h hu (ix1 r') (ix1 r) fun ax => by
    match ax with
    | ⟨0, _⟩ => show r'.val = 0 + r.val * (0 + 1); omega

/-- The host's sum over axis 0 of an [a, b] array from a zero initial value, read at column c: the column's sum. -/
theorem hostColSum_apply {a b : ℕ} (x : FVec Ideal ⟨2, ![a, b]⟩ .f32) (h' : (⟨2, ![a, b]⟩ : Shape).ReducesTo [0] ⟨1, ![b]⟩)
    (h : (⟨2, ![a, b]⟩ : Shape).Reduces [0] ⟨1, ![b]⟩) (hu : 0 < (⟨0, ![]⟩ : Shape).numel) (c : Fin b) :
    Host.reduceAdd x (constant ⟨0, ![]⟩ .f32 0x00000000#32) h' hu (ix1 c) = ∑ k : Fin a, x (ix2 k c) := by
  show Ideal.hostReduceAdd h' x (Ideal.ofBits .f32 0x00000000#32) (ix1 c) = _
  rw [Ideal.hostReduceAdd_single h' h, Ideal.ofBits_zero_f32, zero_add]
  refine Finset.sum_congr rfl fun k _ => congrArg x ?_
  funext d
  apply Fin.ext
  match d with
  | ⟨0, _⟩ => rfl
  | ⟨1, _⟩ => rfl

/-- A kernel's sum over axis 0 of an [a, b] array from a zero accumulator, read at column c: the column's sum. -/
theorem laneColSum_apply {a b : ℕ} (x : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (c : Fin b) :
    multiReduction .add [0] ⟨1, ![b]⟩ x 0x00000000#32 h hφ hacc (ix1 c) = ∑ k : Fin a, x (ix2 k c) := by
  refine (Ideal.multiReduction_add_single x 0x00000000#32 h hφ hacc (ix1 c)).trans ?_
  refine Finset.sum_congr rfl fun k _ => congrArg x ?_
  funext d
  apply Fin.ext
  match d with
  | ⟨0, _⟩ => rfl
  | ⟨1, _⟩ => rfl

end Axis0

end
-- ==== Proof.KernelEntry.lean ====
/-
  The four arrays the kernel's chain starts from, as functions of the arguments, read on the node rows.

  Before the first region the host cuts the source words and the target words out of the edge array, counts the
  in-degree of the 150000 nodes by adding ones at the target words, takes the scale (the reciprocal square root of the
  in-degree, clipped below by a tiny positive constant, where the in-degree is positive; zero elsewhere), pads the scale
  with 1552 zeros and spreads it over the 64 features, and pads the two feature arrays, one above the other, with 1552
  zero rows. On a node row (the first 150000 of the 151552) the spread scale is the node's scale and the padded features
  are the node's features. The scale of a node is a non-negative extended real other than ⊤: it is 0, or the reciprocal
  square root of a number that the clip keeps positive.
-/
import proofs.«109714_j30313879175390_1_alg».proof.Proof.KernelChain
import proofs.«109714_j30313879175390_1_alg».proof.Proof.Bridge
import proofs.«109714_j30313879175390_1_alg».proof.Proof.LibPadHigh
import proofs.«109714_j30313879175390_1_alg».proof.Proof.LibAxis0
import Idealize.ShloMosaic.Lib.IdealHost
import Idealize.ShloMosaic.PureOps.Ideal.Laws

set_option maxRecDepth 16384

noncomputable section

namespace Cert.KernelIdeal.Entry

open Cert.KernelIdeal Cert.KernelIdeal.Gen Cert.KernelIdeal.Chain Cert.Gcn
open Idealize.ShloMosaic Idealize.ShloMosaic.TcCoe Idealize.SL.Sem Idealize.ShloMosaic.StableHlo
open Idealize.ShloMosaic.ValueIdx

variable {F : FTy → Type} [FloatOps F]

/-- The source words: row 0 of the edge array. -/
def rowW (A2 : IVec S2x4000000 32) : IVec S4000000 32 :=
  shapeCast S4000000 (extractStridedSlice S1x4000000 ![0, 0] A2 slices_S2x4000000_S1x4000000_0_0) shapeCasts_S1x4000000_S4000000
/-- The target words: row 1 of the edge array. -/
def colW (A2 : IVec S2x4000000 32) : IVec S4000000 32 :=
  shapeCast S4000000 (extractStridedSlice S1x4000000 ![1, 0] A2 slices_S2x4000000_S1x4000000_1_0) shapeCasts_S1x4000000_S4000000

/-- The in-degree: ones added into a zero vector at the target words. -/
def deg (COL : IVec S4000000 32) : FVec F S150000 .f32 :=
  Host.scatterAdd scatter_S150000_S4000000x1_S4000000_n_0_0_1
    (broadcastInDim S150000 ![] bcast_S_S150000 (constant S_ .f32 0x00000000#32))
    (broadcastInDim S4000000x1 ![0] bcast_S4000000_S4000000x1_0 COL)
    (broadcastInDim S4000000 ![] bcast_S_S4000000 (constant S_ .f32 0x3F800000#32))

/-- The scale of every node. -/
def scale (COL : IVec S4000000 32) : FVec F S150000 .f32 :=
  select (cmpf (F := F) .ogt (deg COL) (broadcastInDim S150000 ![] bcast_S_S150000 (constant S_ .f32 0x00000000#32)))
    (Host.rsqrt (maximumf (deg COL) (broadcastInDim S150000 ![] bcast_S_S150000 (constant S_ .f32 0x2B8CBCCC#32))))
    (broadcastInDim S150000 ![] bcast_S_S150000 (id (constant S_ .f32 0x00000000#32)))

/-- The scale padded to 151552 entries and spread over the 64 features. -/
def spreadScale (COL : IVec S4000000 32) : FVec F S151552x64 .f32 :=
  broadcastInDim S151552x64 ![0, 1] bcast_S151552x1_S151552x64_0_1
    (broadcastInDim S151552x1 ![0] bcast_S151552_S151552x1_0
      (pad S151552 ![0] ![1552] ![0] (scale COL) (sitofp .f32 (constantI S_ 32 0#32)) pads_S150000_S151552_015520 h_S_))

/-- The node features: the two argument arrays one above the other. -/
def feats (A0 : FVec F S100000x64 .f32) (A1 : FVec F S50000x64 .f32) : FVec F S150000x64 .f32 :=
  concatenate S150000x64 0 [⟨S100000x64, A0⟩, ⟨S50000x64, A1⟩] concatenates_S100000x64_S50000x64_S150000x64_d0

/-- The node features padded to 151552 rows. -/
def paddedFeats (A0 : FVec F S100000x64 .f32) (A1 : FVec F S50000x64 .f32) : FVec F S151552x64 .f32 :=
  pad S151552x64 ![0, 0] ![1552, 0] ![0, 0] (feats A0 A1) (sitofp .f32 (constantI S_ 32 0#32))
    pads_S150000x64_S151552x64_015520_000 h_S_

/-! ## The four arrays at the first region's entry -/

section Entry
variable (m : (ℓ : Loc nD τ sig) → Buf (Elt F) ℓ) (ρ : Dev nD → PrngReg) (c : Dev nD)

set_option maxHeartbeats 4000000 in
theorem row_eq : row m ρ c = rowW (m ((c.tc : Thread nD τ).loc main_arg2)) := by
  show StableHlo.after hostOps0_5 (W5 m ρ c) (Proc.devRef .tc main_v1) = _
  after_results
  rfl

set_option maxHeartbeats 4000000 in
theorem col_eq : col m ρ c = colW (m ((c.tc : Thread nD τ).loc main_arg2)) := by
  show StableHlo.after hostOps0_5 (W5 m ρ c) (Proc.devRef .tc main_v3) = _
  after_results
  rfl

set_option maxHeartbeats 4000000 in
theorem dfull_eq : dfull m ρ c = spreadScale (colW (m ((c.tc : Thread nD τ).loc main_arg2))) := by
  show StableHlo.after hostOps0_5 (W5 m ρ c) (Proc.devRef .tc main_v16) = _
  after_results
  rfl

set_option maxHeartbeats 4000000 in
theorem xpad_eq : xpad m ρ c
    = paddedFeats (m ((c.tc : Thread nD τ).loc main_arg0)) (m ((c.tc : Thread nD τ).loc main_arg1)) := by
  show StableHlo.after hostOps0_5 (W5 m ρ c) (Proc.devRef .tc main_v18) = _
  after_results
  rfl

end Entry

/-! ## Read on the node rows, over the extended reals -/

/-- The node count is at most the padded height. -/
theorem nodes_le : 150000 ≤ 151552 := by decide

/-- On a node row the spread scale is the node's scale. -/
theorem spreadScale_node (COL : IVec S4000000 32) (n : Fin 150000) (j : Fin 64) :
    spreadScale (F := Ideal) COL (ix2 (up nodes_le n) j) = scale (F := Ideal) COL (ix1 n) := by
  unfold spreadScale
  rw [GatherVec.spread_column_apply (by decide) bcast_S151552_S151552x1_0 bcast_S151552x1_S151552x64_0_1]
  exact Axis0.pad1_inside ![1552] _ _ pads_S150000_S151552_015520 h_S_ n (up nodes_le n) rfl

/-- On a node row the padded features are the node's features. -/
theorem paddedFeats_node (A0 : FVec Ideal S100000x64 .f32) (A1 : FVec Ideal S50000x64 .f32) (n : Fin 150000) (j : Fin 64) :
    paddedFeats A0 A1 (ix2 (up nodes_le n) j) = feats A0 A1 (ix2 n j) :=
  Cert.PadHigh.pad_inside ![1552, 0] _ _ pads_S150000x64_S151552x64_015520_000 h_S_ n j (up nodes_le n) j rfl rfl

/-- The clip constant (the f32 nearest 1e-12) is positive. -/
theorem clip_pos : (0 : EReal) < Ideal.ofBits .f32 0x2B8CBCCC#32 := by
  simp [Ideal.ofBits, Ideal.ieee, -EReal.coe_mul]

/-- A float splat over the nodes reads the number its word encodes. -/
theorem splat_node (x : FVec Ideal S_ .f32) (i : S150000.Idx) :
    broadcastInDim S150000 ![] bcast_S_S150000 x i = x ix0 :=
  broadcastInDim_apply _ bcast_S_S150000 x i ix0 (fun a => a.elim0)

/-- The clipped reciprocal square root at a node. -/
theorem rsqrt_clip_node (g : FVec Ideal S150000 .f32) (i : S150000.Idx) :
    Host.rsqrt (maximumf g (broadcastInDim S150000 ![] bcast_S_S150000 (constant (F := Ideal) S_ .f32 0x2B8CBCCC#32))) i
      = Ideal.rsqrt (max (g i) (Ideal.ofBits .f32 0x2B8CBCCC#32)) := by
  show Ideal.rsqrt (max (g i) (broadcastInDim S150000 ![] bcast_S_S150000 (constant (F := Ideal) S_ .f32 0x2B8CBCCC#32) i)) = _
  rw [splat_node]
  rfl

/-- The zero the scale takes where the in-degree is not positive. -/
theorem zero_node (i : S150000.Idx) :
    broadcastInDim S150000 ![] bcast_S_S150000 (id (constant (F := Ideal) S_ .f32 0x00000000#32)) i = 0 :=
  (splat_node _ i).trans Ideal.ofBits_zero_f32

/-- THE SCALE IS A FACTOR THAT COMES OUT OF SUMS: non-negative, and not ⊤. Where the in-degree is positive it is the
    reciprocal square root of a number that the clip keeps positive; elsewhere it is zero. -/
theorem scale_facts (COL : IVec S4000000 32) (i : S150000.Idx) :
    0 ≤ scale (F := Ideal) COL i ∧ scale (F := Ideal) COL i ≠ ⊤ := by
  unfold scale
  generalize deg (F := Ideal) COL = g
  rw [select_apply]
  rw [rsqrt_clip_node g i, zero_node i]
  generalize cmpf (F := Ideal) .ogt g (broadcastInDim S150000 ![] bcast_S_S150000 (constant S_ .f32 0x00000000#32)) i = c1
  unfold Scalar.select
  split
  · exact rsqrt_scale_of_pos (lt_max_of_lt_right clip_pos)
  · exact ⟨le_refl _, EReal.zero_ne_top⟩

end Cert.KernelIdeal.Entry

end
-- ==== Proof.RefChain.lean ====
/-
  The reference's two results as explicit functions of the three arguments.

  The reference cuts the source words ROW and the target words COL out of the edge array, counts the in-degree of every
  node by adding ones at the COL words, takes the scale dv = 1 / √deg where deg > 0 and 0 elsewhere, gives edge e the
  weight dv(ROW e) · dv(COL e) (negative words wrapped by the node count), and three times replaces the features x by
  the weighted neighbour sum: the rows of x gathered at the ROW words, each multiplied by its edge's weight, added into
  a zero array at the COL words. The result is the mean of the features and the three sums, cut into its first 100000
  and its last 50000 rows. The run's composed term is this chain with every name unfolded.
-/
import proofs.«109714_j30313879175390_1_alg».proof.Proof.RefRun

set_option maxRecDepth 16384

noncomputable section

namespace Cert.ReferenceIdeal.Chain

open Cert.ReferenceIdeal Cert.ReferenceIdeal.Gen
open Idealize.ShloMosaic Idealize.ShloMosaic.TcCoe Idealize.SL.Sem

variable {F : FTy → Type} [FloatOps F]

/-- The source words: row 0 of the edge array. -/
def rowW (A2 : IVec S2x4000000 32) : IVec S4000000 32 :=
  shapeCast S4000000 (extractStridedSlice S1x4000000 ![0, 0] A2 slices_S2x4000000_S1x4000000_0_0) shapeCasts_S1x4000000_S4000000
/-- The target words: row 1 of the edge array. -/
def colW (A2 : IVec S2x4000000 32) : IVec S4000000 32 :=
  shapeCast S4000000 (extractStridedSlice S1x4000000 ![1, 0] A2 slices_S2x4000000_S1x4000000_1_0) shapeCasts_S1x4000000_S4000000

/-- The in-degree: ones added into a zero vector at the COL words. -/
def deg (COL : IVec S4000000 32) : FVec F S150000 .f32 :=
  Host.scatterAdd scatter_S150000_S4000000x1_S4000000_n_0_0_1
    (broadcastInDim S150000 ![] bcast_S_S150000 (constant S_ .f32 0x00000000#32))
    (broadcastInDim S4000000x1 ![0] bcast_S4000000_S4000000x1_0 COL)
    (broadcastInDim S4000000 ![] bcast_S_S4000000 (constant S_ .f32 0x3F800000#32))

/-- The scale: the reciprocal square root of the in-degree (clipped below by a tiny positive constant) where the
    in-degree is positive, and zero elsewhere. -/
def scale (COL : IVec S4000000 32) : FVec F S150000 .f32 :=
  select (cmpf (F := F) .ogt (deg COL) (broadcastInDim S150000 ![] bcast_S_S150000 (constant S_ .f32 0x00000000#32)))
    (Host.rsqrt (maximumf (deg COL) (broadcastInDim S150000 ![] bcast_S_S150000 (constant S_ .f32 0x2B8CBCCC#32))))
    (broadcastInDim S150000 ![] bcast_S_S150000 (id (constant S_ .f32 0x00000000#32)))

/-- A vector of words, wrapped by the node count where negative, as a one-column table. -/
def wrapped (x : IVec S4000000 32) : IVec S4000000x1 32 :=
  broadcastInDim S4000000x1 ![0] bcast_S4000000_S4000000x1_0
    (select (cmpi .slt x (broadcastInDim S4000000 ![] bcast_S_S4000000 (constantI S_ 32 0#32)))
      (addi x (broadcastInDim S4000000 ![] bcast_S_S4000000 (constantI S_ 32 150000#32))) x)

/-- The edge weights: the scale at the source times the scale at the target. -/
def weight (ROW COL : IVec S4000000 32) (dv : FVec F S150000 .f32) : FVec F S4000000 .f32 :=
  mulf (Host.gather gather_S150000_S4000000x1_S4000000_n_0_n_n_0_1_1 dv (wrapped ROW))
    (Host.gather gather_S150000_S4000000x1_S4000000_n_0_n_n_0_1_1 dv (wrapped COL))

/-- ONE STEP: the weighted neighbour sum of `x`. -/
def step (ROW COL : IVec S4000000 32) (wgt : FVec F S4000000 .f32) (x : FVec F S150000x64 .f32) : FVec F S150000x64 .f32 :=
  Host.scatterAdd scatter_S150000x64_S4000000x1_S4000000x64_1_0_0_1
    (broadcastInDim S150000x64 ![] bcast_S_S150000x64 (constant S_ .f32 0x00000000#32))
    (broadcastInDim S4000000x1 ![0] bcast_S4000000_S4000000x1_0 COL)
    (mulf (broadcastInDim S4000000x64 ![0, 1] bcast_S4000000x1_S4000000x64_0_1
        (broadcastInDim S4000000x1 ![0] bcast_S4000000_S4000000x1_0 wgt))
      (Host.gather gather_S150000x64_S4000000x1_S4000000x64_1_0_n_n_0_1_164 x (wrapped ROW)))

/-- The node features: the two argument arrays one above the other. -/
def feats (A0 : FVec F S100000x64 .f32) (A1 : FVec F S50000x64 .f32) : FVec F S150000x64 .f32 :=
  concatenate S150000x64 0 [⟨S100000x64, A0⟩, ⟨S50000x64, A1⟩] concatenates_S100000x64_S50000x64_S150000x64_d0

/-- The features plus the three successive sums. -/
def acc3 (ROW COL : IVec S4000000 32) (wgt : FVec F S4000000 .f32) (x0 : FVec F S150000x64 .f32) : FVec F S150000x64 .f32 :=
  addf (addf (addf x0 (step ROW COL wgt x0)) (step ROW COL wgt (step ROW COL wgt x0)))
    (step ROW COL wgt (step ROW COL wgt (step ROW COL wgt x0)))

/-- The mean over the four terms. -/
def mean (ROW COL : IVec S4000000 32) (wgt : FVec F S4000000 .f32) (x0 : FVec F S150000x64 .f32) : FVec F S150000x64 .f32 :=
  Host.divf (acc3 ROW COL wgt x0) (broadcastInDim S150000x64 ![] bcast_S_S150000x64 (constant S_ .f32 0x40800000#32))

/-- The mean for the arguments. -/
def meanOf (A0 : FVec F S100000x64 .f32) (A1 : FVec F S50000x64 .f32) (A2 : IVec S2x4000000 32) : FVec F S150000x64 .f32 :=
  mean (rowW A2) (colW A2) (weight (rowW A2) (colW A2) (scale (colW A2))) (feats A0 A1)

variable (m : (ℓ : Loc nD τ sig) → Buf (Elt F) ℓ) (c : Dev nD)

set_option maxHeartbeats 4000000 in
/-- THE FIRST RESULT of the run is rows 0 … 99999 of that mean. -/
theorem result0_eq : Cert.ReferenceIdeal.ValueP.res_main_v72 (F := F) m c
    = extractStridedSlice S100000x64 ![0, 0]
        (meanOf (m ((c.tc : Thread nD τ).loc main_arg0)) (m ((c.tc : Thread nD τ).loc main_arg1)) (m ((c.tc : Thread nD τ).loc main_arg2)))
        slices_S150000x64_S100000x64_0_0 := rfl

set_option maxHeartbeats 4000000 in
/-- THE SECOND RESULT of the run is rows 100000 … 149999 of that mean. -/
theorem result1_eq : Cert.ReferenceIdeal.ValueP.res_main_v73 (F := F) m c
    = extractStridedSlice S50000x64 ![100000, 0]
        (meanOf (m ((c.tc : Thread nD τ).loc main_arg0)) (m ((c.tc : Thread nD τ).loc main_arg1)) (m ((c.tc : Thread nD τ).loc main_arg2)))
        slices_S150000x64_S50000x64_100000_0 := rfl

end Cert.ReferenceIdeal.Chain

end
-- ==== Proof.Equal.lean ====
/-
  The two programs' results are one function of the arguments, under "every source word is a node".

  Both results are the mean (x₀ + x₁ + x₂ + x₃) / 4 of the node features and their three successive propagations, cut
  into rows 0 … 99999 and rows 100000 … 149999. The reference propagates by the weighted neighbour sum on 150000 rows; the
  kernel keeps 151552 rows, scales the rows by the node scale before gathering them and scales the neighbour sum by the
  node scale afterwards. On the node rows each of the kernel's scaled sums D · S is the reference's next x (the bridge
  step, used three times: the kernel's rows to gather are D · x for the x just obtained), the padded features are x₀, and
  so the running sums, their quotients by four and the cuts agree entry by entry.
-/
import proofs.«109714_j30313879175390_1_alg».proof.Proof.KernelEntry
import proofs.«109714_j30313879175390_1_alg».proof.Proof.RefChain

set_option maxRecDepth 16384

noncomputable section

namespace Cert.Proof.Equal

open Idealize.ShloMosaic Idealize.ShloMosaic.ValueIdx
open ScatterRows ScatterDrop GatherVec WordTables Cert.Gcn
open Cert.KernelIdeal.Tiles

namespace K
export Cert.KernelIdeal.Chain (nsum acc3 mean result0 result1)
export Cert.KernelIdeal.Entry (rowW colW scale spreadScale feats paddedFeats nodes_le)
end K
namespace R
export Cert.ReferenceIdeal.Chain (rowW colW scale weight step feats acc3 mean meanOf wrapped)
end R

/-! ## The two arrangements read at an entry, with the programs' own dimension records -/

/-- The kernel's neighbour sum at an entry. -/
theorem nsum_read (ROW COL : IVec ⟨1, ![4000000]⟩ 32) (Y : FVec Ideal ⟨2, ![151552, 64]⟩ .f32) (a : Fin 151552) (c : Fin 64) :
    K.nsum (F := Ideal) ROW COL Y (ix2 a c)
      = 0 + ∑ e ∈ nbrs COL a.val, Y (ix2 (gRow (R := 151552) (by decide) (wrapTbl 151552#32 ROW) e) c) :=
  gathered_sum (R := 151552) (C := 64) (U := 4000000) (by decide) (by decide)
    Cert.KernelIdeal.scatter_S151552x64_S4000000x1_S4000000x64_1_0_0_1 rfl rfl rfl rfl
    Cert.KernelIdeal.gather_S151552x64_S4000000x1_S4000000x64_1_0_n_n_0_1_164 rfl rfl rfl rfl rfl rfl
    Cert.KernelIdeal.Gen.bcast_S4000000_S4000000x1_0 Cert.KernelIdeal.Gen.bcast_S_S4000000
    Cert.KernelIdeal.Gen.bcast_S_S151552x64 151552#32 ROW COL Y a c

/-- The reference's weighted step at an entry. -/
theorem step_read (ROW COL : IVec ⟨1, ![4000000]⟩ 32) (wgt : FVec Ideal ⟨1, ![4000000]⟩ .f32)
    (x : FVec Ideal ⟨2, ![150000, 64]⟩ .f32) (a : Fin 150000) (c : Fin 64) :
    R.step (F := Ideal) ROW COL wgt x (ix2 a c)
      = 0 + ∑ e ∈ nbrs COL a.val, wgt (ix1 e) * x (ix2 (gRow (R := 150000) (by decide) (wrapTbl 150000#32 ROW) e) c) :=
  weighted_sum (R := 150000) (C := 64) (U := 4000000) (by decide) (by decide)
    Cert.ReferenceIdeal.scatter_S150000x64_S4000000x1_S4000000x64_1_0_0_1 rfl rfl rfl rfl
    Cert.ReferenceIdeal.gather_S150000x64_S4000000x1_S4000000x64_1_0_n_n_0_1_164 rfl rfl rfl rfl rfl rfl
    Cert.ReferenceIdeal.Gen.bcast_S4000000_S4000000x1_0 Cert.ReferenceIdeal.Gen.bcast_S_S4000000
    Cert.ReferenceIdeal.Gen.bcast_S_S150000x64 Cert.ReferenceIdeal.Gen.bcast_S4000000x1_S4000000x64_0_1
    150000#32 ROW COL wgt x a c

/-- The reference's edge weight at an edge. -/
theorem weight_read (ROW COL : IVec ⟨1, ![4000000]⟩ 32) (dv : FVec Ideal ⟨1, ![150000]⟩ .f32) (e : Fin 4000000) :
    R.weight (F := Ideal) ROW COL dv (ix1 e)
      = dv (ix1 (gRow (R := 150000) (by decide) (wrapTbl 150000#32 ROW) e))
        * dv (ix1 (gRow (R := 150000) (by decide) (wrapTbl 150000#32 COL) e)) :=
  weight_apply (R := 150000) (U := 4000000) (by decide) (by decide)
    Cert.ReferenceIdeal.gather_S150000_S4000000x1_S4000000_n_0_n_n_0_1_1 rfl rfl rfl rfl rfl rfl
    Cert.ReferenceIdeal.Gen.bcast_S4000000_S4000000x1_0 Cert.ReferenceIdeal.Gen.bcast_S_S4000000
    150000#32 ROW COL dv e

/-! ## The means agree on the node rows -/

section Mean
variable (A0 : FVec Ideal ⟨2, ![100000, 64]⟩ .f32) (A1 : FVec Ideal ⟨2, ![50000, 64]⟩ .f32) (A2 : IVec ⟨2, ![2, 4000000]⟩ 32)
  (hrow : ∀ e : Fin 4000000, 0 ≤ (K.rowW A2 (ix1 e)).toInt ∧ (K.rowW A2 (ix1 e)).toInt < ((150000 : Nat) : Int))

include hrow in
/-- THE MEAN ON A NODE ROW: the kernel's at the node's row of the padded array is the reference's at the node. -/
theorem mean_node (n : Fin 150000) (j : Fin 64) :
    K.mean (F := Ideal) (K.rowW A2) (K.colW A2) (K.spreadScale (K.colW A2)) (K.paddedFeats A0 A1) (ix2 (up K.nodes_le n) j)
      = R.meanOf (F := Ideal) A0 A1 A2 (ix2 n j) := by
  -- the common pieces
  let ROW : IVec ⟨1, ![4000000]⟩ 32 := K.rowW A2
  let COL : IVec ⟨1, ![4000000]⟩ 32 := K.colW A2
  let dv : FVec Ideal ⟨1, ![150000]⟩ .f32 := K.scale (F := Ideal) COL
  let D : FVec Ideal ⟨2, ![151552, 64]⟩ .f32 := K.spreadScale (F := Ideal) COL
  let X : FVec Ideal ⟨2, ![151552, 64]⟩ .f32 := K.paddedFeats A0 A1
  let x0 : FVec Ideal ⟨2, ![150000, 64]⟩ .f32 := K.feats A0 A1
  let wgt : FVec Ideal ⟨1, ![4000000]⟩ .f32 := R.weight (F := Ideal) ROW COL dv
  have hD : ∀ (n : Fin 150000) (j : Fin 64), D (ix2 (up K.nodes_le n) j) = dv (ix1 n) :=
    fun n j => Cert.KernelIdeal.Entry.spreadScale_node COL n j
  have hd0 : ∀ n : Fin 150000, 0 ≤ dv (ix1 n) := fun n => (Cert.KernelIdeal.Entry.scale_facts COL (ix1 n)).1
  have hdt : ∀ n : Fin 150000, dv (ix1 n) ≠ ⊤ := fun n => (Cert.KernelIdeal.Entry.scale_facts COL (ix1 n)).2
  have hX : ∀ (n : Fin 150000) (j : Fin 64), X (ix2 (up K.nodes_le n) j) = x0 (ix2 n j) :=
    fun n j => Cert.KernelIdeal.Entry.paddedFeats_node A0 A1 n j
  -- the three rounds
  let S0 := K.nsum (F := Ideal) ROW COL (prod (F := Ideal) X D)
  let x1 := R.step (F := Ideal) ROW COL wgt x0
  have L1 : ∀ (n : Fin 150000) (j : Fin 64), D (ix2 (up K.nodes_le n) j) * S0 (ix2 (up K.nodes_le n) j) = x1 (ix2 n j) :=
    bridge_step (N := 150000) (NP := 151552) (C := 64) (U := 4000000) (by decide) (by decide) K.nodes_le 150000#32 151552#32
      ROW COL hrow dv hd0 hdt D hD X (prod (F := Ideal) X D) S0 x0 x1 wgt hX (fun r j => mul_comm _ _)
      (fun a c => nsum_read ROW COL _ a c) (fun a c => step_read ROW COL wgt x0 a c) (fun e => weight_read ROW COL dv e)
  let S1 := K.nsum (F := Ideal) ROW COL (rescaled (F := Ideal) S0 D)
  let x2 := R.step (F := Ideal) ROW COL wgt x1
  have L2 : ∀ (n : Fin 150000) (j : Fin 64), D (ix2 (up K.nodes_le n) j) * S1 (ix2 (up K.nodes_le n) j) = x2 (ix2 n j) :=
    bridge_step (N := 150000) (NP := 151552) (C := 64) (U := 4000000) (by decide) (by decide) K.nodes_le 150000#32 151552#32
      ROW COL hrow dv hd0 hdt D hD (fun i => D i * S0 i) (rescaled (F := Ideal) S0 D) S1 x1 x2 wgt L1 (fun r j => rfl)
      (fun a c => nsum_read ROW COL _ a c) (fun a c => step_read ROW COL wgt x1 a c) (fun e => weight_read ROW COL dv e)
  let S2 := K.nsum (F := Ideal) ROW COL (rescaled (F := Ideal) S1 D)
  let x3 := R.step (F := Ideal) ROW COL wgt x2
  have L3 : ∀ (n : Fin 150000) (j : Fin 64), D (ix2 (up K.nodes_le n) j) * S2 (ix2 (up K.nodes_le n) j) = x3 (ix2 n j) :=
    bridge_step (N := 150000) (NP := 151552) (C := 64) (U := 4000000) (by decide) (by decide) K.nodes_le 150000#32 151552#32
      ROW COL hrow dv hd0 hdt D hD (fun i => D i * S1 i) (rescaled (F := Ideal) S1 D) S2 x2 x3 wgt L2 (fun r j => rfl)
      (fun a c => nsum_read ROW COL _ a c) (fun a c => step_read ROW COL wgt x2 a c) (fun e => weight_read ROW COL dv e)
  -- the running sums and their quotients by four
  show Ideal.div (((X (ix2 (up K.nodes_le n) j) + D (ix2 (up K.nodes_le n) j) * S0 (ix2 (up K.nodes_le n) j))
        + D (ix2 (up K.nodes_le n) j) * S1 (ix2 (up K.nodes_le n) j))
        + D (ix2 (up K.nodes_le n) j) * S2 (ix2 (up K.nodes_le n) j)) (Ideal.ofBits .f32 0x40800000#32)
      = Ideal.div (((x0 (ix2 n j) + x1 (ix2 n j)) + x2 (ix2 n j)) + x3 (ix2 n j)) (Ideal.ofBits .f32 0x40800000#32)
  rw [L1 n j, L2 n j, L3 n j, hX n j]

include hrow in
/-- THE FIRST RESULTS AGREE: rows 0 … 99999 of the two means. -/
theorem result0_eq :
    K.result0 (F := Ideal) (K.rowW A2) (K.colW A2) (K.spreadScale (K.colW A2)) (K.paddedFeats A0 A1)
      = extractStridedSlice Cert.ReferenceIdeal.S100000x64 ![0, 0] (R.meanOf (F := Ideal) A0 A1 A2)
          Cert.ReferenceIdeal.Gen.slices_S150000x64_S100000x64_0_0 := by
  funext i
  have h0 : (i 0).val < 100000 := (i 0).isLt
  have h1 : (i 1).val < 64 := (i 1).isLt
  let n : Fin 150000 := ⟨(i 0).val, by omega⟩
  let j : Fin 64 := ⟨(i 1).val, h1⟩
  refine (extractStridedSlice_apply _ _ _ i (ix2 (up K.nodes_le n) j) fun a => ?_).trans
    ((mean_node A0 A1 A2 hrow n j).trans (extractStridedSlice_apply _ _ _ i (ix2 n j) fun a => ?_).symm)
  · match a with
    | ⟨0, _⟩ => show (i 0).val = 0 + (i 0).val; omega
    | ⟨1, _⟩ => show (i 1).val = 0 + (i 1).val; omega
  · match a with
    | ⟨0, _⟩ => show (i 0).val = 0 + (i 0).val; omega
    | ⟨1, _⟩ => show (i 1).val = 0 + (i 1).val; omega

include hrow in
/-- THE SECOND RESULTS AGREE: rows 100000 … 149999 of the two means. -/
theorem result1_eq :
    K.result1 (F := Ideal) (K.rowW A2) (K.colW A2) (K.spreadScale (K.colW A2)) (K.paddedFeats A0 A1)
      = extractStridedSlice Cert.ReferenceIdeal.S50000x64 ![100000, 0] (R.meanOf (F := Ideal) A0 A1 A2)
          Cert.ReferenceIdeal.Gen.slices_S150000x64_S50000x64_100000_0 := by
  funext i
  have h0 : (i 0).val < 50000 := (i 0).isLt
  have h1 : (i 1).val < 64 := (i 1).isLt
  let n : Fin 150000 := ⟨100000 + (i 0).val, by omega⟩
  let j : Fin 64 := ⟨(i 1).val, h1⟩
  refine (extractStridedSlice_apply _ _ _ i (ix2 (up K.nodes_le n) j) fun a => ?_).trans
    ((mean_node A0 A1 A2 hrow n j).trans (extractStridedSlice_apply _ _ _ i (ix2 n j) fun a => ?_).symm)
  · match a with
    | ⟨0, _⟩ => show 100000 + (i 0).val = 100000 + (i 0).val; rfl
    | ⟨1, _⟩ => show (i 1).val = 0 + (i 1).val; omega
  · match a with
    | ⟨0, _⟩ => show 100000 + (i 0).val = 100000 + (i 0).val; rfl
    | ⟨1, _⟩ => show (i 1).val = 0 + (i 1).val; omega

end Mean

end Cert.Proof.Equal

end
-- ==== Proof.lean ====
/-
  Three rounds of symmetric-normalised graph propagation and their mean: a tiled kernel against its plain reference.

  The arguments are the features of 100000 + 50000 nodes (64 each) and 4000000 edges, an edge being a source word and
  a target word. With deg(n) the number of edges whose target word is n and d(n) = 1/√deg(n) (0 where deg(n) = 0), one
  round sends x to x'(n) = Σ_{e → n} d(src e) · d(n) · x(src e); the result is (x₀ + x₁ + x₂ + x₃) / 4, as its first
  100000 and its last 50000 rows.

  The reference does exactly that on 150000 rows, multiplying every gathered row by the edge's weight d(src e) · d(tgt e).
  The kernel pads the rows to 151552 = 74 · 2048 with zero features and zero scale, and splits every round into
  "scale the rows by d" (a tiled region), "sum the scaled rows over the arriving edges" (a host gather and scatter-add)
  and "scale the sums by d, add them to the running sum, scale again for the next round" (a tiled region).

  At the exact instance the two agree entry by entry because d(n) ≥ 0 is not ⊤ and so comes out of a sum of extended
  reals whatever the terms are (no finiteness of the features is used), and because on the edges arriving at n the
  target word names n. One thing is needed of the edge array: every SOURCE word must be a node, 0 ≤ w < 150000. A
  negative source word is wrapped by the height of the array it indexes, and a word past the end is clamped to the
  last row; the two programs index arrays of different heights, so on such a word they read different rows (the
  reference a node's, the kernel a zero padding row). That conjunct is part of the precondition. The target words
  need nothing: a target word that names no node is dropped by the reference and lands in a padding row of the kernel,
  which the final cut removes.

  The frames of the two kernel programs are the generated ones; the reference's frame is its run with the results
  dropped; the idealization rewrote nothing, so `preserves` is `True`.
-/
import proofs.«109714_j30313879175390_1_alg».proof.Defs
import proofs.«109714_j30313879175390_1_alg».proof.Proof.Gen.Kernel
import proofs.«109714_j30313879175390_1_alg».proof.Proof.Gen.Kernel.Skeleton
import proofs.«109714_j30313879175390_1_alg».proof.Proof.Gen.Kernel.Launch
import proofs.«109714_j30313879175390_1_alg».proof.Proof.Gen.Kernel.Points
import proofs.«109714_j30313879175390_1_alg».proof.Proof.Gen.Kernel.Frame
import proofs.«109714_j30313879175390_1_alg».proof.Proof.Gen.KernelIdeal
import proofs.«109714_j30313879175390_1_alg».proof.Proof.Gen.KernelIdeal.Skeleton
import proofs.«109714_j30313879175390_1_alg».proof.Proof.Gen.KernelIdeal.Launch
import proofs.«109714_j30313879175390_1_alg».proof.Proof.Gen.KernelIdeal.Points
import proofs.«109714_j30313879175390_1_alg».proof.Proof.Gen.KernelIdeal.Frame
import proofs.«109714_j30313879175390_1_alg».proof.Proof.Gen.ReferenceIdeal
import proofs.«109714_j30313879175390_1_alg».proof.Proof.Gen.Pre_finite_inputs
import proofs.«109714_j30313879175390_1_alg».proof.Proof.KernelRun
import proofs.«109714_j30313879175390_1_alg».proof.Proof.RefRun
import proofs.«109714_j30313879175390_1_alg».proof.Proof.PreRow
import proofs.«109714_j30313879175390_1_alg».proof.Proof.Equal
import Idealize.ShloMosaic.Adequacy
import Idealize.ShloMosaic.Init

set_option maxRecDepth 16384

noncomputable section

namespace Cert.Proof

open Idealize.ShloMosaic Idealize.SL.Sem Idealize.ShloMosaic.ValueIdx

/-- The kernel as printed runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- At the exact instance, from memories agreeing on the arguments, both programs run and end with equal results:
    the kernel's chain of the four entry arrays on one side, the reference's composed term on the other, and the two
    are one function of the arguments once every source word is a node. -/
theorem algebraic : Cert.algebraic_KernelIdeal_ReferenceIdeal := by
  intro m ρ m' ρ' hpre hagree
  refine ⟨fun c => Cert.KernelIdeal.Chain.result0 (F := Ideal) (Cert.KernelIdeal.Entry.rowW (m ((c.tc : Thread Cert.KernelIdeal.nD Cert.KernelIdeal.τ).loc Cert.KernelIdeal.main_arg2))) (Cert.KernelIdeal.Entry.colW (m ((c.tc : Thread Cert.KernelIdeal.nD Cert.KernelIdeal.τ).loc Cert.KernelIdeal.main_arg2)))
        (Cert.KernelIdeal.Entry.spreadScale (Cert.KernelIdeal.Entry.colW (m ((c.tc : Thread Cert.KernelIdeal.nD Cert.KernelIdeal.τ).loc Cert.KernelIdeal.main_arg2))))
        (Cert.KernelIdeal.Entry.paddedFeats (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    fun c => Cert.KernelIdeal.Chain.result1 (F := Ideal) (Cert.KernelIdeal.Entry.rowW (m ((c.tc : Thread Cert.KernelIdeal.nD Cert.KernelIdeal.τ).loc Cert.KernelIdeal.main_arg2))) (Cert.KernelIdeal.Entry.colW (m ((c.tc : Thread Cert.KernelIdeal.nD Cert.KernelIdeal.τ).loc Cert.KernelIdeal.main_arg2)))
        (Cert.KernelIdeal.Entry.spreadScale (Cert.KernelIdeal.Entry.colW (m ((c.tc : Thread Cert.KernelIdeal.nD Cert.KernelIdeal.τ).loc Cert.KernelIdeal.main_arg2))))
        (Cert.KernelIdeal.Entry.paddedFeats (m ((c.tc : Thread Cert.KernelIdeal.nD Cert.KernelIdeal.τ).loc Cert.KernelIdeal.main_arg0)) (m ((c.tc : Thread Cert.KernelIdeal.nD Cert.KernelIdeal.τ).loc Cert.KernelIdeal.main_arg1))), ?_, ?_⟩
  · refine (θ_run Cert.KernelIdeal.defs _ _).mono (fun r h c => ?_) (Cert.KernelIdeal.KRun.run (F := Ideal) m ρ)
    obtain ⟨h0, h1, ha⟩ := h c
    refine ⟨h0.trans ?_, h1.trans ?_, ha⟩
    · rw [Cert.KernelIdeal.Chain.result0_eq, Cert.KernelIdeal.Entry.row_eq, Cert.KernelIdeal.Entry.col_eq,
        Cert.KernelIdeal.Entry.dfull_eq, Cert.KernelIdeal.Entry.xpad_eq]
    · rw [Cert.KernelIdeal.Chain.result1_eq, Cert.KernelIdeal.Entry.row_eq, Cert.KernelIdeal.Entry.col_eq,
        Cert.KernelIdeal.Entry.dfull_eq, Cert.KernelIdeal.Entry.xpad_eq]
  · refine (θ_run Cert.ReferenceIdeal.defs _ _).mono (fun r h c => ?_) (Cert.ReferenceIdeal.ValueP.run (F := Ideal) m' ρ')
    obtain ⟨h0, h1, ha⟩ := h c
    have hrow := fun e : Fin 4000000 => Cert.Pre_finite_inputs.Decode.row_in_range _ _ _ (hpre c) (ix1 e)
    refine ⟨h0.trans ?_, h1.trans ?_, ha⟩
    · rw [Cert.ReferenceIdeal.Chain.result0_eq, (hagree c).1, (hagree c).2.1, (hagree c).2.2]
      exact (Cert.Proof.Equal.result0_eq _ _ _ hrow).symm
    · rw [Cert.ReferenceIdeal.Chain.result1_eq, (hagree c).1, (hagree c).2.1, (hagree c).2.2]
      exact (Cert.Proof.Equal.result1_eq _ _ _ hrow).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
